-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v114)) (v1 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_v113) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S200000x1 : Shape := ⟨2, ![200000, 1]⟩
abbrev S100000x1 : Shape := ⟨2, ![100000, 1]⟩
abbrev S1000000 : Shape := ⟨1, ![1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1 : Shape := ⟨1, ![1]⟩
abbrev S8192 : Shape := ⟨1, ![8192]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S200000x1 : S_.BroadcastsInDim S200000x1 (![] : Fin 0 → Fin S200000x1.rank)
  reducesTo_S200000x1_S_d0_1 : S200000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S1000000 : S_.BroadcastsInDim S1000000 (![] : Fin 0 → Fin S1000000.rank)
  reducesTo_S1000000_S_d0 : S1000000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_

variable [Facts]

def fn_part3 {F : FTy → Type} [FloatOps F] (main_arg13 : FVec F S1 .f32) (main_arg16 : FVec F S8192 .f32) (main_v48 : IVec S_ 1) (main_v49 : FVec F S100000x1 .f32) (main_v50 : FVec F S100000x1 .f32) : IVec S_ 1 :=
  let main_v51 : IVec S100000x1 1 := cmpf .olt main_v49 main_v50
  let main_c_19 : IVec S_ 1 := constantI S_ 1 1#1
  let main_v52 : IVec S_ 1 := (fun x v => Host.reduce IntOp.andi x v reducesTo_S100000x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S8192 .f32 := Host.absf main_arg16
  let main_cst_22 : FVec F S_ .f32 := constant S_ .f32 0x7F800000#32
  let main_v60 : FVec F S8192 .f32 := broadcastInDim S8192 ![] bcast_S_S8192 main_cst_22
  let main_v61 : IVec S8192 1 := cmpf .olt main_v59 main_v60
  let main_c_23 : IVec S_ 1 := constantI S_ 1 1#1
  let main_v62 : IVec S_ 1 := (fun x v => Host.reduce IntOp.andi x v reducesTo_S8192_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S200000x1 .f32) (main_arg12 : FVec F S100000x1 .f32) (main_arg13 : FVec F S1 .f32) (main_arg16 : FVec F S8192 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S200000x1 .f32 := Host.absf main_arg11
  let main_cst_16 : FVec F S_ .f32 := constant S_ .f32 0x7F800000#32
  let main_v45 : FVec F S200000x1 .f32 := broadcastInDim S200000x1 ![] bcast_S_S200000x1 main_cst_16
  let main_v46 : IVec S200000x1 1 := cmpf .olt main_v44 main_v45
  let main_c_17 : IVec S_ 1 := constantI S_ 1 1#1
  let main_v47 : IVec S_ 1 := (fun x v => Host.reduce IntOp.andi x v reducesTo_S200000x1_S_d0_1 h_S_) main_v46 main_c_17
  let main_v48 : IVec S_ 1 := andi main_v43 main_v47
  let main_v49 : FVec F S100000x1 .f32 := Host.absf main_arg12
  let main_cst_18 : FVec F S_ .f32 := constant S_ .f32 0x7F800000#32
  let main_v50 : FVec F S100000x1 .f32 := broadcastInDim S100000x1 ![] bcast_S_S100000x1 main_cst_18
  fn_part3 (F := F) main_arg13 main_arg16 main_v48 main_v49 main_v50

def fn_part1 {F : FTy → Type} [FloatOps F] (main_arg6 : FVec F S1000000 .f32) (main_arg7 : FVec F S64x128 .f32) (main_arg8 : FVec F S128 .f32) (main_arg9 : FVec F S128x64 .f32) (main_arg10 : FVec F S64 .f32) (main_arg11 : FVec F S200000x1 .f32) (main_arg12 : FVec F S100000x1 .f32) (main_arg13 : FVec F S1 .f32) (main_arg16 : FVec F S8192 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S1000000 .f32 := Host.absf main_arg6
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg16 main_v33

def fn {F : FTy → Type} [FloatOps F] (main_arg0 : FVec F S200000x64 .f32) (main_arg1 : FVec F S100000x64 .f32) (main_arg2 : FVec F S200000x1 .f32) (main_arg3 : FVec F S100000x1 .f32) (main_arg4 : IVec S1000000 32) (main_arg5 : IVec S1000000 32) (main_arg6 : FVec F S1000000 .f32) (main_arg7 : FVec F S64x128 .f32) (main_arg8 : FVec F S128 .f32) (main_arg9 : FVec F S128x64 .f32) (main_arg10 : FVec F S64 .f32) (main_arg11 : FVec F S200000x1 .f32) (main_arg12 : FVec F S100000x1 .f32) (main_arg13 : FVec F S1 .f32) (main_arg14 : IVec S8192 32) (main_arg15 : IVec S8192 32) (main_arg16 : FVec F S8192 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S200000x1 .f32 := Host.absf main_arg2
  let main_cst_2 : FVec F S_ .f32 := constant S_ .f32 0x7F800000#32
  let main_v10 : FVec F S200000x1 .f32 := broadcastInDim S200000x1 ![] bcast_S_S200000x1 main_cst_2
  let main_v11 : IVec S200000x1 1 := cmpf .olt main_v9 main_v10
  let main_c_3 : IVec S_ 1 := constantI S_ 1 1#1
  let main_v12 : IVec S_ 1 := (fun x v => Host.reduce IntOp.andi x v reducesTo_S200000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg6 main_arg7 main_arg8 main_arg9 main_arg10 main_arg11 main_arg12 main_arg13 main_arg16 main_v13 main_v16
-- ==== Kernel.lean ====
abbrev S200000x64 : Shape := ⟨2, ![200000, 64]⟩
abbrev S100000x64 : Shape := ⟨2, ![100000, 64]⟩
abbrev S200000x1 : Shape := ⟨2, ![200000, 1]⟩
abbrev S100000x1 : Shape := ⟨2, ![100000, 1]⟩
abbrev S1000000 : Shape := ⟨1, ![1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1 : Shape := ⟨1, ![1]⟩
abbrev S8192 : Shape := ⟨1, ![8192]⟩
abbrev S1000000x1 : Shape := ⟨2, ![1000000, 1]⟩
abbrev S_ : Shape := ⟨0, ![]⟩
abbrev S1000000x64 : Shape := ⟨2, ![1000000, 64]⟩
abbrev S10000x64 : Shape := ⟨2, ![10000, 64]⟩
abbrev S10000x1 : Shape := ⟨2, ![10000, 1]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩
abbrev S8192x1 : Shape := ⟨2, ![8192, 1]⟩
abbrev S8192x64 : Shape := ⟨2, ![8192, 64]⟩
abbrev S8192x2 : Shape := ⟨2, ![8192, 2]⟩

abbrev nBuf : Space → Nat
  | .hbm => 163
  | .vmem => 52
  | .smem => 0
  | _ => 0

abbrev hbmTy0_0 (i : Nat) : BufTy := match i % 128 with
  | 0 => ⟨S200000x64, .f32⟩
  | 1 => ⟨S100000x64, .f32⟩
  | 2 => ⟨S200000x1, .f32⟩
  | 3 => ⟨S100000x1, .f32⟩
  | 4 => ⟨S1000000, .i32⟩
  | 5 => ⟨S1000000, .i32⟩
  | 6 => ⟨S1000000, .f32⟩
  | 7 => ⟨S64x128, .f32⟩
  | 8 => ⟨S128, .f32⟩
  | 9 => ⟨S128x64, .f32⟩
  | 10 => ⟨S64, .f32⟩
  | 11 => ⟨S200000x1, .f32⟩
  | 12 => ⟨S100000x1, .f32⟩
  | 13 => ⟨S1, .f32⟩
  | 14 => ⟨S8192, .i32⟩
  | 15 => ⟨S8192, .i32⟩
  | 16 => ⟨S8192, .f32⟩
  | 17 => ⟨S1000000x1, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x64, .f32⟩
  | 27 => ⟨S1000000x64, .f32⟩
  | 28 => ⟨S1000000x64, .f32⟩
  | 29 => ⟨S_, .f32⟩
  | 30 => ⟨S200000x64, .f32⟩
  | 31 => ⟨S1000000x1, .i32⟩
  | 32 => ⟨S200000x64, .f32⟩
  | 33 => ⟨S1000000x1, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S1000000x64, .f32⟩
  | 44 => ⟨S1000000x64, .f32⟩
  | 45 => ⟨S_, .f32⟩
  | 46 => ⟨S100000x64, .f32⟩
  | 47 => ⟨S1000000x1, .i32⟩
  | 48 => ⟨S100000x64, .f32⟩
  | 49 => ⟨S200000x64, .f32⟩
  | 50 => ⟨S100000x64, .f32⟩
  | 51 => ⟨S1000000x1, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S1000000x64, .f32⟩
  | 63 => ⟨S_, .f32⟩
  | 64 => ⟨S200000x64, .f32⟩
  | 65 => ⟨S1000000x1, .i32⟩
  | 66 => ⟨S200000x64, .f32⟩
  | 67 => ⟨S1000000x1, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x64, .f32⟩
  | 77 => ⟨S1000000x64, .f32⟩
  | 78 => ⟨S1000000x64, .f32⟩
  | 79 => ⟨S_, .f32⟩
  | 80 => ⟨S100000x64, .f32⟩
  | 81 => ⟨S1000000x1, .i32⟩
  | 82 => ⟨S100000x64, .f32⟩
  | 83 => ⟨S200000x64, .f32⟩
  | 84 => ⟨S100000x64, .f32⟩
  | 85 => ⟨S100000x64, .f32⟩
  | 86 => ⟨S200000x64, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x64, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x64, .f32⟩
  | 105 => ⟨S8192x64, .f32⟩
  | 106 => ⟨S_, .f32⟩
  | 107 => ⟨S8192, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S_, .i32⟩
  | 116 => ⟨S8192, .i32⟩
  | 117 => ⟨S8192, .i32⟩
  | 118 => ⟨S8192x1, .i32⟩
  | 119 => ⟨S8192x1, .i32⟩
  | 120 => ⟨S8192x2, .i32⟩
  | 121 => ⟨S8192, .f32⟩
  | 122 => ⟨S8192, .f32⟩
  | 123 => ⟨S_, .i32⟩
  | 124 => ⟨S8192, .i32⟩
  | 125 => ⟨S8192, .i1⟩
  | 126 => ⟨S_, .i32⟩
  | 127 => ⟨S8192, .i32⟩
  | _ => ⟨S200000x64, .f32⟩

abbrev hbmTy0_1 (i : Nat) : BufTy := match i % 128 with
  | 0 => ⟨S8192, .i32⟩
  | 1 => ⟨S8192, .i32⟩
  | 2 => ⟨S_, .i32⟩
  | 3 => ⟨S8192, .i32⟩
  | 4 => ⟨S8192, .i32⟩
  | 5 => ⟨S8192x1, .i32⟩
  | 6 => ⟨S8192x1, .i32⟩
  | 7 => ⟨S8192x2, .i32⟩
  | 8 => ⟨S8192, .f32⟩
  | 9 => ⟨S8192, .f32⟩
  | 10 => ⟨S_, .f32⟩
  | 11 => ⟨S8192, .f32⟩
  | 12 => ⟨S8192, .f32⟩
  | 13 => ⟨S8192x64, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S8192x64, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8192, .f32⟩
  | 29 => ⟨S8192, .f32⟩
  | 30 => ⟨S_, .f32⟩
  | 31 => ⟨S_, .f32⟩
  | 32 => ⟨S_, .f32⟩
  | 33 => ⟨S_, .f32⟩
  | 34 => ⟨S_, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x1, .f32⟩
  | .local _ .vmem, ⟨13, _⟩ => ⟨S10000x1, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x1, .f32⟩
  | .local _ .vmem, ⟨29, _⟩ => ⟨S10000x1, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x128, .f32⟩
  | .local _ .vmem, ⟨47, _⟩ => ⟨S128, .f32⟩
  | .local _ .vmem, ⟨48, _⟩ => ⟨S128x64, .f32⟩
  | .local _ .vmem, ⟨49, _⟩ => ⟨S64, .f32⟩
  | .local _ .vmem, ⟨50, _⟩ => ⟨S5000x64, .f32⟩
  | .local _ .vmem, ⟨51, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_7 : Ref sig .tc := ⟨.hbm, 68, rfl⟩
abbrev main_v42 : Ref sig .tc := ⟨.hbm, 69, rfl⟩
abbrev main_v43 : Ref sig .tc := ⟨.hbm, 70, rfl⟩
abbrev main_c_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_12 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_c_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_v86 : Ref sig .tc := ⟨.hbm, 124, rfl⟩
abbrev main_v87 : Ref sig .tc := ⟨.hbm, 125, rfl⟩
abbrev main_c_19 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_20 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_cst_23 : Ref sig .tc := ⟨.hbm, 146, rfl⟩
abbrev main_v104 : Ref sig .tc := ⟨.hbm, 147, rfl⟩
abbrev main_v105 : Ref sig .tc := ⟨.hbm, 148, rfl⟩
abbrev main_cst_24 : Ref sig .tc := ⟨.hbm, 149, rfl⟩
abbrev main_v106 : Ref sig .tc := ⟨.hbm, 150, rfl⟩
abbrev main_cst_25 : Ref sig .tc := ⟨.hbm, 151, rfl⟩
abbrev main_v107 : Ref sig .tc := ⟨.hbm, 152, rfl⟩
abbrev main_cst_26 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_27 : Ref sig .tc := ⟨.hbm, 158, rfl⟩
abbrev main_v112 : Ref sig .tc := ⟨.hbm, 159, rfl⟩
abbrev main_cst_28 : Ref sig .tc := ⟨.hbm, 160, rfl⟩
abbrev main_v113 : Ref sig .tc := ⟨.hbm, 161, rfl⟩
abbrev main_v114 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg7_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem7_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S200000x64 : S_.BroadcastsInDim S200000x64 (![] : Fin 0 → Fin S200000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  concatenates_S8192x1_S8192x1_S8192x2_d1 : Shape.Concatenates [S8192x1, S8192x1] S8192x2 1
  shapeCasts_S1_S_ : S1.ShapeCasts S_
  reducesTo_S8192x64_S_d0_1 : S8192x64.ReducesTo [0, 1] S_
  reducesTo_S8192_S_d0 : S8192.ReducesTo [0] S_
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  gather_S200000x64_S8192x1_S8192x64_1_0_n_n_0_1_164_wf : GatherDims.WF S200000x64 S8192x1 S8192x64 [1] [0] [] [0] [] 1 ![1, 64]
  gather_S100000x64_S8192x1_S8192x64_1_0_n_n_0_1_164_wf : GatherDims.WF S100000x64 S8192x1 S8192x64 [1] [0] [] [0] [] 1 ![1, 64]
  gather_S200000x1_S8192x2_S8192_n_01_n_n_01_1_11_wf : GatherDims.WF S200000x1 S8192x2 S8192 [] [0, 1] [] [0, 1] [] 1 ![1, 1]
  gather_S100000x1_S8192x2_S8192_n_01_n_n_01_1_11_wf : GatherDims.WF S100000x1 S8192x2 S8192 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S200000x64.size a
  hwx0_0 : ∀ i : grid0.Coords, EltTy.bits .f32 = 32 ∨ (Rect.block (s := S200000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S200000x64.size a
  hwx0_1 : ∀ i : grid0.Coords, EltTy.bits .f32 = 32 ∨ (Rect.block (s := S200000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S200000x1.size a
  hwx0_2 : ∀ i : grid0.Coords, EltTy.bits .f32 = 32 ∨ (Rect.block (s := S200000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S200000x64.size a
  hwx0_3 : ∀ i : grid0.Coords, EltTy.bits .f32 = 32 ∨ (Rect.block (s := S200000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S200000x64.size a
  hwx2_0 : ∀ i : grid2.Coords, EltTy.bits .f32 = 32 ∨ (Rect.block (s := S200000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S200000x64.size a
  hwx2_1 : ∀ i : grid2.Coords, EltTy.bits .f32 = 32 ∨ (Rect.block (s := S200000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S200000x1.size a
  hwx2_2 : ∀ i : grid2.Coords, EltTy.bits .f32 = 32 ∨ (Rect.block (s := S200000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S200000x64.size a
  hwx2_3 : ∀ i : grid2.Coords, EltTy.bits .f32 = 32 ∨ (Rect.block (s := S200000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S200000x64.size a
  hwx5_1 : ∀ i : grid5.Coords, EltTy.bits .f32 = 32 ∨ (Rect.block (s := S200000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S200000x64.size a
  hwx5_2 : ∀ i : grid5.Coords, EltTy.bits .f32 = 32 ∨ (Rect.block (s := S200000x64) S5000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S200000x64.size a
  hwx5_7 : ∀ i : grid5.Coords, EltTy.bits .f32 = 32 ∨ (Rect.block (s := S200000x64) S5000x64.size (cc5_transform_7 i) (hinb5_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S200000x1_S8192x2_S8192_n_01_n_n_01_1_11 : GatherDims S200000x1 S8192x2 S8192 where
  offsetDims := []
  collapsedSliceDims := [0, 1]
  operandBatchingDims := []
  startIndicesBatchingDims := []
  startIndexMap := [0, 1]
  indexVectorDim := 1
  sliceSizes := ![1, 1]
  wf := gather_S200000x1_S8192x2_S8192_n_01_n_n_01_1_11_wf
def gather_S100000x1_S8192x2_S8192_n_01_n_n_01_1_11 : GatherDims S100000x1 S8192x2 S8192 where
  offsetDims := []
  collapsedSliceDims := [0, 1]
  operandBatchingDims := []
  startIndicesBatchingDims := []
  startIndexMap := [0, 1]
  indexVectorDim := 1
  sliceSizes := ![1, 1]
  wf := gather_S100000x1_S8192x2_S8192_n_01_n_n_01_1_11_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v56) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v54) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg8) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg9) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg10) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v57) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S200000x1 : Shape := ⟨2, ![200000, 1]⟩
abbrev S100000x1 : Shape := ⟨2, ![100000, 1]⟩
abbrev S1000000 : Shape := ⟨1, ![1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1 : Shape := ⟨1, ![1]⟩
abbrev S8192 : Shape := ⟨1, ![8192]⟩
abbrev S1000000x1 : Shape := ⟨2, ![1000000, 1]⟩
abbrev S_ : Shape := ⟨0, ![]⟩
abbrev S1000000x64 : Shape := ⟨2, ![1000000, 64]⟩
abbrev S200000x128 : Shape := ⟨2, ![200000, 128]⟩
abbrev S1x128 : Shape := ⟨2, ![1, 128]⟩
abbrev S1x64 : Shape := ⟨2, ![1, 64]⟩
abbrev S8192x1 : Shape := ⟨2, ![8192, 1]⟩
abbrev S8192x64 : Shape := ⟨2, ![8192, 64]⟩
abbrev S8192x2 : Shape := ⟨2, ![8192, 2]⟩

abbrev nBuf : Space → Nat
  | .hbm => 209
  | .vmem => 0
  | .smem => 0
  | _ => 0

abbrev hbmTy0_0 (i : Nat) : BufTy := match i % 128 with
  | 0 => ⟨S200000x64, .f32⟩
  | 1 => ⟨S100000x64, .f32⟩
  | 2 => ⟨S200000x1, .f32⟩
  | 3 => ⟨S100000x1, .f32⟩
  | 4 => ⟨S1000000, .i32⟩
  | 5 => ⟨S1000000, .i32⟩
  | 6 => ⟨S1000000, .f32⟩
  | 7 => ⟨S64x128, .f32⟩
  | 8 => ⟨S128, .f32⟩
  | 9 => ⟨S128x64, .f32⟩
  | 10 => ⟨S64, .f32⟩
  | 11 => ⟨S200000x1, .f32⟩
  | 12 => ⟨S100000x1, .f32⟩
  | 13 => ⟨S1, .f32⟩
  | 14 => ⟨S8192, .i32⟩
  | 15 => ⟨S8192, .i32⟩
  | 16 => ⟨S8192, .f32⟩
  | 17 => ⟨S1000000x1, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x64, .f32⟩
  | 27 => ⟨S1000000x64, .f32⟩
  | 28 => ⟨S1000000x64, .f32⟩
  | 29 => ⟨S_, .f32⟩
  | 30 => ⟨S200000x64, .f32⟩
  | 31 => ⟨S1000000x1, .i32⟩
  | 32 => ⟨S200000x64, .f32⟩
  | 33 => ⟨S200000x64, .f32⟩
  | 34 => ⟨S200000x64, .f32⟩
  | 35 => ⟨S200000x64, .f32⟩
  | 36 => ⟨S_, .f32⟩
  | 37 => ⟨S200000x64, .f32⟩
  | 38 => ⟨S200000x64, .f32⟩
  | 39 => ⟨S1000000x1, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x64, .f32⟩
  | 49 => ⟨S1000000x64, .f32⟩
  | 50 => ⟨S1000000x64, .f32⟩
  | 51 => ⟨S_, .f32⟩
  | 52 => ⟨S100000x64, .f32⟩
  | 53 => ⟨S1000000x1, .i32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S100000x64, .f32⟩
  | 60 => ⟨S100000x64, .f32⟩
  | 61 => ⟨S1000000x1, .f32⟩
  | 62 => ⟨S_, .i32⟩
  | 63 => ⟨S1000000, .i32⟩
  | 64 => ⟨S1000000, .i1⟩
  | 65 => ⟨S_, .i32⟩
  | 66 => ⟨S1000000, .i32⟩
  | 67 => ⟨S1000000, .i32⟩
  | 68 => ⟨S1000000, .i32⟩
  | 69 => ⟨S1000000x1, .i32⟩
  | 70 => ⟨S1000000x64, .f32⟩
  | 71 => ⟨S1000000x64, .f32⟩
  | 72 => ⟨S1000000x64, .f32⟩
  | 73 => ⟨S_, .f32⟩
  | 74 => ⟨S200000x64, .f32⟩
  | 75 => ⟨S1000000x1, .i32⟩
  | 76 => ⟨S200000x64, .f32⟩
  | 77 => ⟨S200000x64, .f32⟩
  | 78 => ⟨S200000x64, .f32⟩
  | 79 => ⟨S200000x64, .f32⟩
  | 80 => ⟨S_, .f32⟩
  | 81 => ⟨S200000x64, .f32⟩
  | 82 => ⟨S200000x64, .f32⟩
  | 83 => ⟨S1000000x1, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S1000000x64, .f32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S100000x64, .f32⟩
  | 100 => ⟨S100000x64, .f32⟩
  | 101 => ⟨S100000x64, .f32⟩
  | 102 => ⟨S_, .f32⟩
  | 103 => ⟨S100000x64, .f32⟩
  | 104 => ⟨S100000x64, .f32⟩
  | 105 => ⟨S200000x64, .f32⟩
  | 106 => ⟨S200000x64, .f32⟩
  | 107 => ⟨S100000x64, .f32⟩
  | 108 => ⟨S100000x64, .f32⟩
  | 109 => ⟨S200000x128, .f32⟩
  | 110 => ⟨S1x128, .f32⟩
  | 111 => ⟨S200000x128, .f32⟩
  | 112 => ⟨S200000x128, .f32⟩
  | 113 => ⟨S_, .f32⟩
  | 114 => ⟨S_, .f32⟩
  | 115 => ⟨S200000x128, .f32⟩
  | 116 => ⟨S200000x128, .i1⟩
  | 117 => ⟨S_, .f32⟩
  | 118 => ⟨S200000x128, .f32⟩
  | 119 => ⟨S200000x128, .f32⟩
  | 120 => ⟨S200000x128, .f32⟩
  | 121 => ⟨S200000x64, .f32⟩
  | 122 => ⟨S1x64, .f32⟩
  | 123 => ⟨S200000x64, .f32⟩
  | 124 => ⟨S200000x64, .f32⟩
  | 125 => ⟨S_, .f32⟩
  | 126 => ⟨S_, .f32⟩
  | 127 => ⟨S200000x64, .f32⟩
  | _ => ⟨S200000x64, .f32⟩

abbrev hbmTy0_1 (i : Nat) : BufTy := match i % 128 with
  | 0 => ⟨S200000x64, .i1⟩
  | 1 => ⟨S_, .f32⟩
  | 2 => ⟨S200000x64, .f32⟩
  | 3 => ⟨S200000x64, .f32⟩
  | 4 => ⟨S200000x64, .f32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192x64, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x64, .f32⟩
  | 23 => ⟨S8192x64, .f32⟩
  | 24 => ⟨S_, .f32⟩
  | 25 => ⟨S8192, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192x1, .i32⟩
  | 37 => ⟨S8192x1, .i32⟩
  | 38 => ⟨S8192x2, .i32⟩
  | 39 => ⟨S8192, .f32⟩
  | 40 => ⟨S8192, .f32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192x1, .i32⟩
  | 52 => ⟨S8192x1, .i32⟩
  | 53 => ⟨S8192x2, .i32⟩
  | 54 => ⟨S8192, .f32⟩
  | 55 => ⟨S8192, .f32⟩
  | 56 => ⟨S_, .f32⟩
  | 57 => ⟨S8192, .f32⟩
  | 58 => ⟨S8192, .f32⟩
  | 59 => ⟨S8192x64, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S8192x64, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S8192, .f32⟩
  | 75 => ⟨S8192, .f32⟩
  | 76 => ⟨S_, .f32⟩
  | 77 => ⟨S_, .f32⟩
  | 78 => ⟨S_, .f32⟩
  | 79 => ⟨S_, .f32⟩
  | 80 => ⟨S_, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call0_cst : Ref sig .tc := ⟨.hbm, 36, rfl⟩
abbrev main_call0_v0 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_v35 : Ref sig .tc := ⟨.hbm, 63, rfl⟩
abbrev main_v36 : Ref sig .tc := ⟨.hbm, 64, rfl⟩
abbrev main_c_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_v51 : Ref sig .tc := ⟨.hbm, 83, rfl⟩
abbrev main_c_7 : Ref sig .tc := ⟨.hbm, 84, rfl⟩
abbrev main_v52 : Ref sig .tc := ⟨.hbm, 85, rfl⟩
abbrev main_v53 : Ref sig .tc := ⟨.hbm, 86, rfl⟩
abbrev main_c_8 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call3_cst : Ref sig .tc := ⟨.hbm, 102, rfl⟩
abbrev main_call3_v0 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_10 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_11 : Ref sig .tc := ⟨.hbm, 125, rfl⟩
abbrev main_call5_cst : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_v81 : Ref sig .tc := ⟨.hbm, 132, rfl⟩
abbrev main_c_12 : Ref sig .tc := ⟨.hbm, 133, rfl⟩
abbrev main_v82 : Ref sig .tc := ⟨.hbm, 134, rfl⟩
abbrev main_v83 : Ref sig .tc := ⟨.hbm, 135, rfl⟩
abbrev main_c_13 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_14 : Ref sig .tc := ⟨.hbm, 142, rfl⟩
abbrev main_v89 : Ref sig .tc := ⟨.hbm, 143, rfl⟩
abbrev main_v90 : Ref sig .tc := ⟨.hbm, 144, rfl⟩
abbrev main_c_15 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_16 : Ref sig .tc := ⟨.hbm, 152, rfl⟩
abbrev main_v97 : Ref sig .tc := ⟨.hbm, 153, rfl⟩
abbrev main_c_17 : Ref sig .tc := ⟨.hbm, 154, rfl⟩
abbrev main_v98 : Ref sig .tc := ⟨.hbm, 155, rfl⟩
abbrev main_v99 : Ref sig .tc := ⟨.hbm, 156, rfl⟩
abbrev main_c_18 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_c_19 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_20 : Ref sig .tc := ⟨.hbm, 169, rfl⟩
abbrev main_v110 : Ref sig .tc := ⟨.hbm, 170, rfl⟩
abbrev main_v111 : Ref sig .tc := ⟨.hbm, 171, rfl⟩
abbrev main_c_21 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_c_22 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_23 : Ref sig .tc := ⟨.hbm, 188, rfl⟩
abbrev main_v126 : Ref sig .tc := ⟨.hbm, 189, rfl⟩
abbrev main_cst_24 : Ref sig .tc := ⟨.hbm, 190, rfl⟩
abbrev main_v127 : Ref sig .tc := ⟨.hbm, 191, rfl⟩
abbrev main_cst_25 : Ref sig .tc := ⟨.hbm, 192, rfl⟩
abbrev main_v128 : Ref sig .tc := ⟨.hbm, 193, rfl⟩
abbrev main_v129 : Ref sig .tc := ⟨.hbm, 194, rfl⟩
abbrev main_cst_26 : Ref sig .tc := ⟨.hbm, 195, rfl⟩
abbrev main_v130 : Ref sig .tc := ⟨.hbm, 196, rfl⟩
abbrev main_cst_27 : Ref sig .tc := ⟨.hbm, 197, rfl⟩
abbrev main_v131 : Ref sig .tc := ⟨.hbm, 198, rfl⟩
abbrev main_cst_28 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_29 : Ref sig .tc := ⟨.hbm, 204, rfl⟩
abbrev main_v136 : Ref sig .tc := ⟨.hbm, 205, rfl⟩
abbrev main_cst_30 : Ref sig .tc := ⟨.hbm, 206, rfl⟩
abbrev main_v137 : Ref sig .tc := ⟨.hbm, 207, rfl⟩
abbrev main_v138 : Ref sig .tc := ⟨.hbm, 208, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S200000x64 : S_.BroadcastsInDim S200000x64 (![] : Fin 0 → Fin S200000x64.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  concatenates_S8192x1_S8192x1_S8192x2_d1 : Shape.Concatenates [S8192x1, S8192x1] S8192x2 1
  shapeCasts_S1_S_ : S1.ShapeCasts S_
  reducesTo_S8192x64_S_d0_1 : S8192x64.ReducesTo [0, 1] S_
  reducesTo_S8192_S_d0 : S8192.ReducesTo [0] S_
  gather_S100000x64_S1000000x1_S1000000x64_1_0_n_n_0_1_164_wf : GatherDims.WF S100000x64 S1000000x1 S1000000x64 [1] [0] [] [0] [] 1 ![1, 64]
  scatter_S200000x64_S1000000x1_S1000000x64_1_0_0_1_wf : ScatterDims.WF S200000x64 S1000000x1 S1000000x64 [1] [0] [0] 1
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S200000x64_S64x128_S200000x128_1_0_0_1_n_n_wf : DotDims.WF S200000x64 S64x128 S200000x128 [1] [0] [0] [1] [] []
  dot_S200000x128_S128x64_S200000x64_1_0_0_1_n_n_wf : DotDims.WF S200000x128 S128x64 S200000x64 [1] [0] [0] [1] [] []
  gather_S200000x64_S8192x1_S8192x64_1_0_n_n_0_1_164_wf : GatherDims.WF S200000x64 S8192x1 S8192x64 [1] [0] [] [0] [] 1 ![1, 64]
  gather_S100000x64_S8192x1_S8192x64_1_0_n_n_0_1_164_wf : GatherDims.WF S100000x64 S8192x1 S8192x64 [1] [0] [] [0] [] 1 ![1, 64]
  gather_S200000x1_S8192x2_S8192_n_01_n_n_01_1_11_wf : GatherDims.WF S200000x1 S8192x2 S8192 [] [0, 1] [] [0, 1] [] 1 ![1, 1]
  gather_S100000x1_S8192x2_S8192_n_01_n_n_01_1_11_wf : GatherDims.WF S100000x1 S8192x2 S8192 [] [0, 1] [] [0, 1] [] 1 ![1, 1]

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S200000x1_S8192x2_S8192_n_01_n_n_01_1_11 : GatherDims S200000x1 S8192x2 S8192 where
  offsetDims := []
  collapsedSliceDims := [0, 1]
  operandBatchingDims := []
  startIndicesBatchingDims := []
  startIndexMap := [0, 1]
  indexVectorDim := 1
  sliceSizes := ![1, 1]
  wf := gather_S200000x1_S8192x2_S8192_n_01_n_n_01_1_11_wf
def gather_S100000x1_S8192x2_S8192_n_01_n_n_01_1_11 : GatherDims S100000x1 S8192x2 S8192 where
  offsetDims := []
  collapsedSliceDims := [0, 1]
  operandBatchingDims := []
  startIndicesBatchingDims := []
  startIndexMap := [0, 1]
  indexVectorDim := 1
  sliceSizes := ![1, 1]
  wf := gather_S100000x1_S8192x2_S8192_n_01_n_n_01_1_11_wf

class Facts : Prop extends Facts₀ where

variable [Facts]
-- ==== Proof.KRun.lean ====
/-
  The idealized kernel's run with every unscoped buffer NAMED: from any launch memory every weakly fair execution
  of the program terminates without a fault, and in the final state every buffer outside a kernel's scope holds what
  the fold of the program's segments leaves there — the host stretches applied in order, and each Pallas region's
  arrays at what its grid's write-backs leave.  The two results and the seventeen arguments are among those buffers.
-/
import proofs.«160102_j20727512170682_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer `b` of core `c` at the
    contents the fold of the segments leaves there. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.KValue

end
-- ==== Proof.Spec.lean ====
/-
  The specification both programs are compared against, at the ideal instance (a float is an extended real,
  every float operation the exact one, a change of float format the identity).

  Two hops of a bipartite graph convolution over U = 200000 users and I = 100000 items with D = 64 features and
  NNZ = 1000000 weighted edges (rows, cols, vals):
    spmmU x = the [U, D] array whose row u is the sum, over the edges e with rows e = u, of vals e · x (cols e)
    spmmI x = the [I, D] array whose row i is the sum, over the edges e with cols e = i, of vals e · x (rows e)
    g1u = max (spmmU ie + ue · d_i, 0)        g1i = max (spmmI ue + ie · d_j, 0)
    g2u = max (spmmU g1i + g1u · d_i, 0)      g2i = max (spmmI g1u + g1i · d_j, 0)
    gu  = leaky (leaky ((ue + g1u + g2u) · W1 + b1) · W2 + b2)          gi = ie + g1i + g2i
  (leaky x = x where x ≥ 0 and 0.1 · x elsewhere; d_i, d_j degree columns broadcast along a row), then on B = 8192
  sampled (user, item) pairs the prediction  ⟨gu user, gi item⟩ + user_bias + item_bias + avg,  the mean squared
  error against the ratings, and the two mean-square penalties.

  Every function below is written as the composition of array operations, in the order and with the literal
  words the reference program applies them, so that the reference's run reads off as these functions by unfolding.
-/
import proofs.«160102_j20727512170682_1_alg».proof.Proof.Gen.ReferenceIdeal
import Idealize.ShloMosaic.PureOps.Ideal

noncomputable section

namespace Cert.Spec

open Idealize.ShloMosaic Cert.ReferenceIdeal Cert.ReferenceIdeal.Facts₀

/-! ## The sparse products -/

/-- An index vector with negative entries counted from the end of an axis of extent `n`. -/
def wrapE (n : BitVec 32) (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 n))) idx

/-- The edge weights as a column, broadcast along the feature axis. -/
def valsRows (vals : FVec Ideal S1000000 .f32) : FVec Ideal S1000000x64 .f32 :=
  broadcastInDim S1000000x64 ![0, 1] bcast_S1000000x1_S1000000x64_0_1
    (broadcastInDim S1000000x1 ![0] bcast_S1000000_S1000000x1_0 vals)

/-- Row `u` is the sum over the edges `e` with `rows e = u` of `vals e · x (cols e)`. -/
def spmmU (rows cols : IVec S1000000 32) (vals : FVec Ideal S1000000 .f32) (x : FVec Ideal S100000x64 .f32) : FVec Ideal S200000x64 .f32 :=
  Host.scatterAdd scatter_S200000x64_S1000000x1_S1000000x64_1_0_0_1
    (broadcastInDim S200000x64 ![] bcast_S_S200000x64 (constant S_ .f32 0x00000000#32))
    (broadcastInDim S1000000x1 ![0] bcast_S1000000_S1000000x1_0 rows)
    (mulf (valsRows vals)
      (Host.gather gather_S100000x64_S1000000x1_S1000000x64_1_0_n_n_0_1_164 x
        (broadcastInDim S1000000x1 ![0] bcast_S1000000_S1000000x1_0 (wrapE 100000#32 cols))))

/-- Row `i` is the sum over the edges `e` with `cols e = i` of `vals e · x (rows e)`. -/
def spmmI (rows cols : IVec S1000000 32) (vals : FVec Ideal S1000000 .f32) (x : FVec Ideal S200000x64 .f32) : FVec Ideal S100000x64 .f32 :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 cols)
    (mulf (valsRows vals)
      (Host.gather gather_S200000x64_S1000000x1_S1000000x64_1_0_n_n_0_1_164 x
        (broadcastInDim S1000000x1 ![0] bcast_S1000000_S1000000x1_0 (wrapE 200000#32 rows))))

/-! ## The residual layers and the sums -/

/-- `max (s + e · d, 0)` on the user side, the degree column `d` broadcast along a row. -/
def residU (s e : FVec Ideal S200000x64 .f32) (d : FVec Ideal S200000x1 .f32) : FVec Ideal S200000x64 .f32 :=
  maximumf (addf s (mulf e (broadcastInDim S200000x64 ![0, 1] bcast_S200000x1_S200000x64_0_1 d)))
    (broadcastInDim S200000x64 ![] bcast_S_S200000x64 (constant S_ .f32 0x00000000#32))

/-- `max (s + e · d, 0)` on the item side. -/
def residI (s e : FVec Ideal S100000x64 .f32) (d : FVec Ideal S100000x1 .f32) : FVec Ideal S100000x64 .f32 :=
  maximumf (addf s (mulf e (broadcastInDim S100000x64 ![0, 1] bcast_S100000x1_S100000x64_0_1 d)))
    (broadcastInDim S100000x64 ![] bcast_S_S100000x64 (constant S_ .f32 0x00000000#32))

/-- `(a + b) + c` on the user side. -/
def sumU (a b c : FVec Ideal S200000x64 .f32) : FVec Ideal S200000x64 .f32 := addf (addf a b) c

/-- `(a + b) + c` on the item side. -/
def sumI (a b c : FVec Ideal S100000x64 .f32) : FVec Ideal S100000x64 .f32 := addf (addf a b) c

/-! ## The two-layer perceptron -/

/-- `x` where `x ≥ 0`, `0.1 · x` elsewhere, on the hidden layer. -/
def leaky128 (x : FVec Ideal S200000x128 .f32) : FVec Ideal S200000x128 .f32 :=
  select (cmpf .oge x (broadcastInDim S200000x128 ![] bcast_S_S200000x128 (constant S_ .f32 0x00000000#32))) x
    (mulf (broadcastInDim S200000x128 ![] bcast_S_S200000x128 (id (constant S_ .f32 0x3DCCCCCD#32))) x)

/-- `x` where `x ≥ 0`, `0.1 · x` elsewhere, on the output layer. -/
def leaky64 (x : FVec Ideal S200000x64 .f32) : FVec Ideal S200000x64 .f32 :=
  select (cmpf .oge x (broadcastInDim S200000x64 ![] bcast_S_S200000x64 (constant S_ .f32 0x00000000#32))) x
    (mulf (broadcastInDim S200000x64 ![] bcast_S_S200000x64 (id (constant S_ .f32 0x3DCCCCCD#32))) x)

/-- `leaky (leaky (g · W1 + b1) · W2 + b2)`, each bias a row broadcast down the columns. -/
def mlp (g : FVec Ideal S200000x64 .f32) (W1 : FVec Ideal S64x128 .f32) (b1 : FVec Ideal S128 .f32) (W2 : FVec Ideal S128x64 .f32) (b2 : FVec Ideal S64 .f32) :
    FVec Ideal S200000x64 .f32 :=
  leaky64 (addf
    (Host.dotGeneral dot_S200000x128_S128x64_S200000x64_1_0_0_1_n_n none
      (leaky128 (addf (Host.dotGeneral dot_S200000x64_S64x128_S200000x128_1_0_0_1_n_n none g W1)
        (broadcastInDim S200000x128 ![0, 1] bcast_S1x128_S200000x128_0_1 (broadcastInDim S1x128 ![1] bcast_S128_S1x128_1 b1))))
      W2)
    (broadcastInDim S200000x64 ![0, 1] bcast_S1x64_S200000x64_0_1 (broadcastInDim S1x64 ![1] bcast_S64_S1x64_1 b2)))

/-! ## The loss on the sampled pairs -/

/-- A sampled index vector with negative entries counted from the end of an axis of extent `n`. -/
def wrapB (n : BitVec 32) (idx : IVec S8192 32) : IVec S8192 32 :=
  select (cmpi .slt idx (broadcastInDim S8192 ![] bcast_S_S8192 (constantI S_ 32 0#32)))
    (addi idx (broadcastInDim S8192 ![] bcast_S_S8192 (constantI S_ 32 n))) idx

/-- The sampled rows as a column of row indices. -/
def rowIdx (n : BitVec 32) (idx : IVec S8192 32) : IVec S8192x1 32 :=
  broadcastInDim S8192x1 ![0] bcast_S8192_S8192x1_0 (wrapB n idx)

/-- The sampled rows paired with column 0: the index pairs of a `[N, 1]` bias table. -/
def biasIdx (n : BitVec 32) (idx : IVec S8192 32) : IVec S8192x2 32 :=
  concatenate S8192x2 1 [⟨S8192x1, rowIdx n idx⟩,
    ⟨S8192x1, broadcastInDim S8192x1 ![0] bcast_S8192_S8192x1_0
      (id (broadcastInDim S8192 ![] bcast_S_S8192 (constantI S_ 32 0#32)) : IVec S8192 32)⟩]
    concatenates_S8192x1_S8192x1_S8192x2_d1

/-- `0.001 ·` the mean of the squares of a `[B, D]` array. -/
def penalty (x : FVec Ideal S8192x64 .f32) : FVec Ideal S_ .f32 :=
  mulf (constant S_ .f32 0x3A83126F#32)
    (Host.divf (Host.reduceAdd (mulf x x) (constant S_ .f32 0x00000000#32) reducesTo_S8192x64_S_d0_1 h_S_)
      (constant S_ .f32 0x49000000#32))

/-- The prediction on the sampled pairs: the inner product of the two gathered rows plus the two gathered biases
    plus the average rating. -/
def pred (user item : FVec Ideal S8192x64 .f32) (ub : FVec Ideal S200000x1 .f32) (ib : FVec Ideal S100000x1 .f32) (avg : FVec Ideal S_ .f32)
    (u0 i0 : IVec S8192 32) : FVec Ideal S8192 .f32 :=
  addf (addf (addf (Host.reduceAdd (mulf user item) (constant S_ .f32 0x00000000#32) reducesTo_S8192x64_S8192_d1 h_S_)
      (Host.gather gather_S200000x1_S8192x2_S8192_n_01_n_n_01_1_11 ub (biasIdx 200000#32 u0)))
      (Host.gather gather_S100000x1_S8192x2_S8192_n_01_n_n_01_1_11 ib (biasIdx 100000#32 i0)))
    (broadcastInDim S8192 ![] bcast_S_S8192 avg)

/-- The mean squared error of a prediction against the ratings. -/
def mse (p rt : FVec Ideal S8192 .f32) : FVec Ideal S_ .f32 :=
  Host.divf (Host.reduceAdd (mulf (subf p rt) (subf p rt)) (constant S_ .f32 0x00000000#32) reducesTo_S8192_S_d0 h_S_)
    (constant S_ .f32 0x46000000#32)

/-- The two results `(loss, loss2)` from the two embedding tables: `loss2` the mean squared error, `loss` that plus
    the two penalties. `avg` is the average rating as a scalar. -/
def tail (gu : FVec Ideal S200000x64 .f32) (gi : FVec Ideal S100000x64 .f32) (ub : FVec Ideal S200000x1 .f32) (ib : FVec Ideal S100000x1 .f32)
    (avg : FVec Ideal S_ .f32) (u0 i0 : IVec S8192 32) (rt : FVec Ideal S8192 .f32) : FVec Ideal S_ .f32 × FVec Ideal S_ .f32 :=
  let user : FVec Ideal S8192x64 .f32 := Host.gather gather_S200000x64_S8192x1_S8192x64_1_0_n_n_0_1_164 gu (rowIdx 200000#32 u0)
  let item : FVec Ideal S8192x64 .f32 := Host.gather gather_S100000x64_S8192x1_S8192x64_1_0_n_n_0_1_164 gi (rowIdx 100000#32 i0)
  let loss2 : FVec Ideal S_ .f32 := mse (pred user item ub ib avg u0 i0) rt
  let pen : FVec Ideal S_ .f32 := addf (penalty user) (penalty item)
  let loss : FVec Ideal S_ .f32 := addf loss2 pen
  (loss, loss2)

/-- The program: the 17 argument arrays to `(loss, loss2)`. -/
def out (ue : FVec Ideal S200000x64 .f32) (ie : FVec Ideal S100000x64 .f32) (di : FVec Ideal S200000x1 .f32) (dj : FVec Ideal S100000x1 .f32)
    (rows cols : IVec S1000000 32) (vals : FVec Ideal S1000000 .f32)
    (W1 : FVec Ideal S64x128 .f32) (b1 : FVec Ideal S128 .f32) (W2 : FVec Ideal S128x64 .f32) (b2 : FVec Ideal S64 .f32)
    (ub : FVec Ideal S200000x1 .f32) (ib : FVec Ideal S100000x1 .f32) (avg : FVec Ideal S1 .f32) (u0 i0 : IVec S8192 32) (rt : FVec Ideal S8192 .f32) :
    FVec Ideal S_ .f32 × FVec Ideal S_ .f32 :=
  let g1u := residU (spmmU rows cols vals ie) ue di
  let g1i := residI (spmmI rows cols vals ue) ie dj
  let g2u := residU (spmmU rows cols vals g1i) g1u di
  let g2i := residI (spmmI rows cols vals g1u) g1i dj
  tail (mlp (sumU ue g1u g2u) W1 b1 W2 b2) (sumI ie g1i g2i) ub ib (fun i => shapeCast S_ avg shapeCasts_S1_S_ i) u0 i0 rt

end Cert.Spec

end
-- ==== Proof.KKeep.lean ====
/-
  Which buffers each segment of the idealized kernel's program leaves alone: a host stretch changes only the
  buffers its operations write; a Pallas region changes only its output array — its input arrays are read through
  their windows and stay as they were, and every other buffer is untouched.  Hence an argument array, which nothing
  writes, holds its launch contents at every segment boundary.
-/
import proofs.«160102_j20727512170682_1_alg».proof.Proof.Gen.KernelIdeal.Frame
import proofs.«160102_j20727512170682_1_alg».proof.Proof.Spec
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

/-- Closes "no operation of this host stretch writes buffer `b`" for a literal reference `b`. -/
macro "not_written" : tactic =>
  `(tactic| (refine List.forall_iff_forall_mem.mp ?_
             simp only [hostOps0, hostOps2, hostOps6, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- The first host stretch changes only what it writes. -/
theorem W1_keep (b : Ref sig .tc)
    (hb : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ hb

/-- The second host stretch changes only what it writes. -/
theorem W4_keep (b : Ref sig .tc)
    (hb : ∀ op ∈ (hostOps2 : List (HloOp τ sig (Elt Ideal))), Proc.devRef .tc b ∉ op.writes) :
    W4 m ρ c (Proc.devRef .tc b) = W3 m ρ c (Proc.devRef .tc b) :=
  StableHlo.after_of_forall_not_mem _ _ hb

/-- Region 0 changes only its output array. -/
theorem W2_keep (b : Ref sig .tc) (hb : b ≠ main_v26) : W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact absurd rfl hb

/-- Region 1 changes only its output array. -/
theorem W3_keep (b : Ref sig .tc) (hb : b ≠ main_v27) : W3 m ρ c (Proc.devRef .tc b) = W2 m ρ c (Proc.devRef .tc b) := by
  by_cases h : ∀ w, Pipeline.arrRef spec1 w ≠ b
  · exact W3_of_ne m ρ c b h
  · obtain ⟨w, hw⟩ := not_forall.mp h
    obtain rfl := not_not.mp hw
    fin_cases w
    · exact (W3_arr m ρ c 0).trans (((dat1 (V2 m ρ) c).arrAt_in 0 rfl _).trans (A_eq1 (V2 m ρ) c 0))
    · exact (W3_arr m ρ c 1).trans (((dat1 (V2 m ρ) c).arrAt_in 1 rfl _).trans (A_eq1 (V2 m ρ) c 1))
    · exact (W3_arr m ρ c 2).trans (((dat1 (V2 m ρ) c).arrAt_in 2 rfl _).trans (A_eq1 (V2 m ρ) c 2))
    · exact absurd rfl hb

/-- Region 2 changes only its output array. -/
theorem W5_keep (b : Ref sig .tc) (hb : b ≠ main_v54) : W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    obtain rfl := not_not.mp hw
    fin_cases w
    · exact (W5_arr m ρ c 0).trans (((dat2 (V4 m ρ) c).arrAt_in 0 rfl _).trans (A_eq2 (V4 m ρ) c 0))
    · exact (W5_arr m ρ c 1).trans (((dat2 (V4 m ρ) c).arrAt_in 1 rfl _).trans (A_eq2 (V4 m ρ) c 1))
    · exact (W5_arr m ρ c 2).trans (((dat2 (V4 m ρ) c).arrAt_in 2 rfl _).trans (A_eq2 (V4 m ρ) c 2))
    · exact absurd rfl hb

/-- Region 3 changes only its output array. -/
theorem W6_keep (b : Ref sig .tc) (hb : b ≠ main_v55) : W6 m ρ c (Proc.devRef .tc b) = W5 m ρ c (Proc.devRef .tc b) := by
  by_cases h : ∀ w, Pipeline.arrRef spec3 w ≠ b
  · exact W6_of_ne m ρ c b h
  · obtain ⟨w, hw⟩ := not_forall.mp h
    obtain rfl := not_not.mp hw
    fin_cases w
    · exact (W6_arr m ρ c 0).trans (((dat3 (V5 m ρ) c).arrAt_in 0 rfl _).trans (A_eq3 (V5 m ρ) c 0))
    · exact (W6_arr m ρ c 1).trans (((dat3 (V5 m ρ) c).arrAt_in 1 rfl _).trans (A_eq3 (V5 m ρ) c 1))
    · exact (W6_arr m ρ c 2).trans (((dat3 (V5 m ρ) c).arrAt_in 2 rfl _).trans (A_eq3 (V5 m ρ) c 2))
    · exact absurd rfl hb

/-- Region 4 changes only its output array. -/
theorem W7_keep (b : Ref sig .tc) (hb : b ≠ main_v56) : W7 m ρ c (Proc.devRef .tc b) = W6 m ρ c (Proc.devRef .tc b) := by
  by_cases h : ∀ w, Pipeline.arrRef spec4 w ≠ b
  · exact W7_of_ne m ρ c b h
  · obtain ⟨w, hw⟩ := not_forall.mp h
    obtain rfl := not_not.mp hw
    fin_cases w
    · exact (W7_arr m ρ c 0).trans (((dat4 (V6 m ρ) c).arrAt_in 0 rfl _).trans (A_eq4 (V6 m ρ) c 0))
    · exact (W7_arr m ρ c 1).trans (((dat4 (V6 m ρ) c).arrAt_in 1 rfl _).trans (A_eq4 (V6 m ρ) c 1))
    · exact (W7_arr m ρ c 2).trans (((dat4 (V6 m ρ) c).arrAt_in 2 rfl _).trans (A_eq4 (V6 m ρ) c 2))
    · exact absurd rfl hb

/-- Region 5 changes only its output array. -/
theorem W8_keep (b : Ref sig .tc) (hb : b ≠ main_v57) : W8 m ρ c (Proc.devRef .tc b) = W7 m ρ c (Proc.devRef .tc b) := by
  by_cases h : ∀ w, Pipeline.arrRef spec5 w ≠ b
  · exact W8_of_ne m ρ c b h
  · obtain ⟨w, hw⟩ := not_forall.mp h
    obtain rfl := not_not.mp hw
    fin_cases w
    · exact (W8_arr m ρ c 0).trans (((dat5 (V7 m ρ) c).arrAt_in 0 rfl _).trans (A_eq5 (V7 m ρ) c 0))
    · exact (W8_arr m ρ c 1).trans (((dat5 (V7 m ρ) c).arrAt_in 1 rfl _).trans (A_eq5 (V7 m ρ) c 1))
    · exact (W8_arr m ρ c 2).trans (((dat5 (V7 m ρ) c).arrAt_in 2 rfl _).trans (A_eq5 (V7 m ρ) c 2))
    · exact (W8_arr m ρ c 3).trans (((dat5 (V7 m ρ) c).arrAt_in 3 rfl _).trans (A_eq5 (V7 m ρ) c 3))
    · exact (W8_arr m ρ c 4).trans (((dat5 (V7 m ρ) c).arrAt_in 4 rfl _).trans (A_eq5 (V7 m ρ) c 4))
    · exact (W8_arr m ρ c 5).trans (((dat5 (V7 m ρ) c).arrAt_in 5 rfl _).trans (A_eq5 (V7 m ρ) c 5))
    · exact (W8_arr m ρ c 6).trans (((dat5 (V7 m ρ) c).arrAt_in 6 rfl _).trans (A_eq5 (V7 m ρ) c 6))
    · exact absurd rfl hb

/-- Buffer `b` holds its launch contents at every segment boundary up to the last region's exit. -/
structure Kept (b : Ref sig .tc) : Prop where
  w1 : W1 m ρ c (Proc.devRef .tc b) = m ((c : Thread nD τ).loc b)
  w2 : W2 m ρ c (Proc.devRef .tc b) = m ((c : Thread nD τ).loc b)
  w3 : W3 m ρ c (Proc.devRef .tc b) = m ((c : Thread nD τ).loc b)
  w4 : W4 m ρ c (Proc.devRef .tc b) = m ((c : Thread nD τ).loc b)
  w5 : W5 m ρ c (Proc.devRef .tc b) = m ((c : Thread nD τ).loc b)
  w6 : W6 m ρ c (Proc.devRef .tc b) = m ((c : Thread nD τ).loc b)
  w7 : W7 m ρ c (Proc.devRef .tc b) = m ((c : Thread nD τ).loc b)
  w8 : W8 m ρ c (Proc.devRef .tc b) = m ((c : Thread nD τ).loc b)

/-- A buffer that no host operation of the first two stretches writes and that is no region's output holds its
    launch contents at every segment boundary up to the last region's exit. -/
theorem untouched (b : Ref sig .tc)
    (hne : b ≠ main_v26 ∧ b ≠ main_v27 ∧ b ≠ main_v54 ∧ b ≠ main_v55 ∧ b ≠ main_v56 ∧ b ≠ main_v57)
    (h0 : ∀ op ∈ (hostOps0 : List (HloOp τ sig (Elt Ideal))), Proc.devRef .tc b ∉ op.writes)
    (h2 : ∀ op ∈ (hostOps2 : List (HloOp τ sig (Elt Ideal))), Proc.devRef .tc b ∉ op.writes) : Kept m ρ c b := by
  obtain ⟨n26, n27, n54, n55, n56, n57⟩ := hne
  have e1 := W1_keep m ρ c b h0
  have e2 := (W2_keep m ρ c b n26).trans e1
  have e3 := (W3_keep m ρ c b n27).trans e2
  have e4 := (W4_keep m ρ c b h2).trans e3
  have e5 := (W5_keep m ρ c b n54).trans e4
  have e6 := (W6_keep m ρ c b n55).trans e5
  have e7 := (W7_keep m ρ c b n56).trans e6
  have e8 := (W8_keep m ρ c b n57).trans e7
  exact ⟨e1, e2, e3, e4, e5, e6, e7, e8⟩

/-! ## The argument arrays: nothing writes them -/

theorem arg0_kept : Kept m ρ c main_arg0 := untouched m ρ c main_arg0 (by decide) (by not_written) (by not_written)
theorem arg1_kept : Kept m ρ c main_arg1 := untouched m ρ c main_arg1 (by decide) (by not_written) (by not_written)
theorem arg2_kept : Kept m ρ c main_arg2 := untouched m ρ c main_arg2 (by decide) (by not_written) (by not_written)
theorem arg3_kept : Kept m ρ c main_arg3 := untouched m ρ c main_arg3 (by decide) (by not_written) (by not_written)
theorem arg4_kept : Kept m ρ c main_arg4 := untouched m ρ c main_arg4 (by decide) (by not_written) (by not_written)
theorem arg5_kept : Kept m ρ c main_arg5 := untouched m ρ c main_arg5 (by decide) (by not_written) (by not_written)
theorem arg6_kept : Kept m ρ c main_arg6 := untouched m ρ c main_arg6 (by decide) (by not_written) (by not_written)
theorem arg7_kept : Kept m ρ c main_arg7 := untouched m ρ c main_arg7 (by decide) (by not_written) (by not_written)
theorem arg8_kept : Kept m ρ c main_arg8 := untouched m ρ c main_arg8 (by decide) (by not_written) (by not_written)
theorem arg9_kept : Kept m ρ c main_arg9 := untouched m ρ c main_arg9 (by decide) (by not_written) (by not_written)
theorem arg10_kept : Kept m ρ c main_arg10 := untouched m ρ c main_arg10 (by decide) (by not_written) (by not_written)
theorem arg11_kept : Kept m ρ c main_arg11 := untouched m ρ c main_arg11 (by decide) (by not_written) (by not_written)
theorem arg12_kept : Kept m ρ c main_arg12 := untouched m ρ c main_arg12 (by decide) (by not_written) (by not_written)
theorem arg13_kept : Kept m ρ c main_arg13 := untouched m ρ c main_arg13 (by decide) (by not_written) (by not_written)
theorem arg14_kept : Kept m ρ c main_arg14 := untouched m ρ c main_arg14 (by decide) (by not_written) (by not_written)
theorem arg15_kept : Kept m ρ c main_arg15 := untouched m ρ c main_arg15 (by decide) (by not_written) (by not_written)
theorem arg16_kept : Kept m ρ c main_arg16 := untouched m ρ c main_arg16 (by decide) (by not_written) (by not_written)

end Cert.KernelIdeal.KValue

end
-- ==== Proof.KHost0.lean ====
/-
  The first host stretch of the idealized kernel's program computes the two first-hop sparse products from the
  argument arrays: the buffers the first two Pallas regions read them from hold `spmmU` of the item table and
  `spmmI` of the user table.
-/
import proofs.«160102_j20727512170682_1_alg».proof.Proof.Gen.KernelIdeal.Frame
import proofs.«160102_j20727512170682_1_alg».proof.Proof.Spec
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

set_option maxHeartbeats 1000000 in
/-- After the first host stretch, the user-side sparse product of the item embeddings. -/
theorem host0_u : W1 m ρ c (Proc.devRef .tc main_v12)
    = Cert.Spec.spmmU (m ((c : Thread nD τ).loc main_arg4)) (m ((c : Thread nD τ).loc main_arg5)) (m ((c : Thread nD τ).loc main_arg6)) (m ((c : Thread nD τ).loc main_arg1)) := by
  show StableHlo.after hostOps0 (W0 m ρ c) (Proc.devRef .tc main_v12) = _
  after_results_simp
  rfl

set_option maxHeartbeats 1000000 in
/-- After the first host stretch, the item-side sparse product of the user embeddings. -/
theorem host0_i : W1 m ρ c (Proc.devRef .tc main_v25)
    = Cert.Spec.spmmI (m ((c : Thread nD τ).loc main_arg4)) (m ((c : Thread nD τ).loc main_arg5)) (m ((c : Thread nD τ).loc main_arg6)) (m ((c : Thread nD τ).loc main_arg0)) := by
  show StableHlo.after hostOps0 (W0 m ρ c) (Proc.devRef .tc main_v25) = _
  after_results_simp
  rfl

end Cert.KernelIdeal.KValue

end
-- ==== Proof.KHost2.lean ====
/-
  The second host stretch of the idealized kernel's program computes the two second-hop sparse products from the
  first hop's results: `spmmU` of the item-side first-hop table and `spmmI` of the user-side one, the edge
  arrays read where the stretch finds them.
-/
import proofs.«160102_j20727512170682_1_alg».proof.Proof.Gen.KernelIdeal.Frame
import proofs.«160102_j20727512170682_1_alg».proof.Proof.Spec
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

set_option maxHeartbeats 1000000 in
/-- After the second host stretch, the user-side sparse product of the item-side first-hop table. -/
theorem host2_u : W4 m ρ c (Proc.devRef .tc main_v40)
    = Cert.Spec.spmmU (W3 m ρ c (Proc.devRef .tc main_arg4)) (W3 m ρ c (Proc.devRef .tc main_arg5)) (W3 m ρ c (Proc.devRef .tc main_arg6)) (W3 m ρ c (Proc.devRef .tc main_v27)) := by
  show StableHlo.after hostOps2 (W3 m ρ c) (Proc.devRef .tc main_v40) = _
  after_results_simp
  rfl

set_option maxHeartbeats 1000000 in
/-- After the second host stretch, the item-side sparse product of the user-side first-hop table. -/
theorem host2_i : W4 m ρ c (Proc.devRef .tc main_v53)
    = Cert.Spec.spmmI (W3 m ρ c (Proc.devRef .tc main_arg4)) (W3 m ρ c (Proc.devRef .tc main_arg5)) (W3 m ρ c (Proc.devRef .tc main_arg6)) (W3 m ρ c (Proc.devRef .tc main_v26)) := by
  show StableHlo.after hostOps2 (W3 m ρ c) (Proc.devRef .tc main_v53) = _
  after_results_simp
  rfl

end Cert.KernelIdeal.KValue

end
-- ==== Proof.KTail.lean ====
/-
  The last host stretch of the idealized kernel's program is the loss on the sampled pairs: its two result buffers
  hold the two components of `tail` of the two embedding tables the last two regions wrote and of the bias, rating
  and index arguments, each read where the stretch finds it.

  The stretch is listed once more below with its two column concatenations named (`cat2`), which is the same list
  by unfolding; reading a buffer after the stretch then goes through the concatenations' operands like through
  any other operation's.
-/
import proofs.«160102_j20727512170682_1_alg».proof.Proof.Gen.KernelIdeal.Frame
import proofs.«160102_j20727512170682_1_alg».proof.Proof.Spec
import Idealize.ShloMosaic.Lib.StableHlo.Run

set_option maxRecDepth 16384

noncomputable section

namespace Cert.KernelIdeal.KValue

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

section Ops

variable {F : FTy → Type} [FloatOps F]

/-- Two index columns side by side. -/
def cat2 (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

/-- The last host stretch, operation by operation, with the two concatenations named. -/
abbrev tailOps : List (HloOp τ sig (Elt F)) :=
  ( StableHlo.nullary main_c_10 (constantI S_ 32 0#32)
  :: StableHlo.unary main_c_10 main_v58 (broadcastInDim S8192 ![] bcast_S_S8192 : (⟨S_, .i32⟩ : BufTy).Contents (Elt F) → (⟨S8192, .i32⟩ : BufTy).Contents (Elt F))
  :: StableHlo.binary main_arg14 main_v58 main_v59 (cmpi .slt : (⟨S8192, .i32⟩ : BufTy).Contents (Elt F) → (⟨S8192, .i32⟩ : BufTy).Contents (Elt F) → (⟨S8192, .i1⟩ : BufTy).Contents (Elt F))
  :: StableHlo.nullary main_c_11 (constantI S_ 32 200000#32)
  :: StableHlo.unary main_c_11 main_v60 (broadcastInDim S8192 ![] bcast_S_S8192 : (⟨S_, .i32⟩ : BufTy).Contents (Elt F) → (⟨S8192, .i32⟩ : BufTy).Contents (Elt F))
  :: StableHlo.binary main_arg14 main_v60 main_v61 (addi : (⟨S8192, .i32⟩ : BufTy).Contents (Elt F) → (⟨S8192, .i32⟩ : BufTy).Contents (Elt F) → (⟨S8192, .i32⟩ : BufTy).Contents (Elt F))
  :: StableHlo.ternary main_v59 main_v61 main_arg14 main_v62 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v62 main_v63 (broadcastInDim S8192x1 ![0] bcast_S8192_S8192x1_0 : (⟨S8192, .i32⟩ : BufTy).Contents (Elt F) → (⟨S8192x1, .i32⟩ : BufTy).Contents (Elt F))
  :: StableHlo.binary main_v57 main_v63 main_v64 ((fun x i => Host.gather gather_S200000x64_S8192x1_S8192x64_1_0_n_n_0_1_164 x i) : (⟨S200000x64, .f32⟩ : BufTy).Contents (Elt F) → (⟨S8192x1, .i32⟩ : BufTy).Contents (Elt F) → (⟨S8192x64, .f32⟩ : BufTy).Contents (Elt F))
  :: StableHlo.nullary main_c_12 (constantI S_ 32 0#32)
  :: StableHlo.unary main_c_12 main_v65 (broadcastInDim S8192 ![] bcast_S_S8192 : (⟨S_, .i32⟩ : BufTy).Contents (Elt F) → (⟨S8192, .i32⟩ : BufTy).Contents (Elt F))
  :: StableHlo.binary main_arg15 main_v65 main_v66 (cmpi .slt : (⟨S8192, .i32⟩ : BufTy).Contents (Elt F) → (⟨S8192, .i32⟩ : BufTy).Contents (Elt F) → (⟨S8192, .i1⟩ : BufTy).Contents (Elt F))
  :: StableHlo.nullary main_c_13 (constantI S_ 32 100000#32)
  :: StableHlo.unary main_c_13 main_v67 (broadcastInDim S8192 ![] bcast_S_S8192 : (⟨S_, .i32⟩ : BufTy).Contents (Elt F) → (⟨S8192, .i32⟩ : BufTy).Contents (Elt F))
  :: StableHlo.binary main_arg15 main_v67 main_v68 (addi : (⟨S8192, .i32⟩ : BufTy).Contents (Elt F) → (⟨S8192, .i32⟩ : BufTy).Contents (Elt F) → (⟨S8192, .i32⟩ : BufTy).Contents (Elt F))
  :: StableHlo.ternary main_v66 main_v68 main_arg15 main_v69 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v69 main_v70 (broadcastInDim S8192x1 ![0] bcast_S8192_S8192x1_0 : (⟨S8192, .i32⟩ : BufTy).Contents (Elt F) → (⟨S8192x1, .i32⟩ : BufTy).Contents (Elt F))
  :: StableHlo.binary main_v56 main_v70 main_v71 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F))
  :: StableHlo.binary main_v64 main_v71 main_v72 (mulf : (⟨S8192x64, .f32⟩ : BufTy).Contents (Elt F) → (⟨S8192x64, .f32⟩ : BufTy).Contents (Elt F) → (⟨S8192x64, .f32⟩ : BufTy).Contents (Elt F))
  :: StableHlo.nullary main_cst_14 (constant S_ .f32 0x00000000#32)
  :: StableHlo.binary main_v72 main_cst_14 main_v73 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F))
  :: StableHlo.nullary main_c_15 (constantI S_ 32 0#32)
  :: StableHlo.unary main_c_15 main_v74 (broadcastInDim S8192 ![] bcast_S_S8192 : (⟨S_, .i32⟩ : BufTy).Contents (Elt F) → (⟨S8192, .i32⟩ : BufTy).Contents (Elt F))
  :: StableHlo.binary main_arg14 main_v74 main_v75 (cmpi .slt : (⟨S8192, .i32⟩ : BufTy).Contents (Elt F) → (⟨S8192, .i32⟩ : BufTy).Contents (Elt F) → (⟨S8192, .i1⟩ : BufTy).Contents (Elt F))
  :: StableHlo.nullary main_c_16 (constantI S_ 32 200000#32)
  :: StableHlo.unary main_c_16 main_v76 (broadcastInDim S8192 ![] bcast_S_S8192 : (⟨S_, .i32⟩ : BufTy).Contents (Elt F) → (⟨S8192, .i32⟩ : BufTy).Contents (Elt F))
  :: StableHlo.binary main_arg14 main_v76 main_v77 (addi : (⟨S8192, .i32⟩ : BufTy).Contents (Elt F) → (⟨S8192, .i32⟩ : BufTy).Contents (Elt F) → (⟨S8192, .i32⟩ : BufTy).Contents (Elt F))
  :: StableHlo.ternary main_v75 main_v77 main_arg14 main_v78 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_17 (constantI S_ 32 0#32)
  :: StableHlo.unary main_c_17 main_v79 (broadcastInDim S8192 ![] bcast_S_S8192 : (⟨S_, .i32⟩ : BufTy).Contents (Elt F) → (⟨S8192, .i32⟩ : BufTy).Contents (Elt F))
  :: StableHlo.unary main_v79 main_v80 (id : (⟨S8192, .i32⟩ : BufTy).Contents (Elt F) → (⟨S8192, .i32⟩ : BufTy).Contents (Elt F))
  :: StableHlo.unary main_v78 main_v81 (broadcastInDim S8192x1 ![0] bcast_S8192_S8192x1_0 : (⟨S8192, .i32⟩ : BufTy).Contents (Elt F) → (⟨S8192x1, .i32⟩ : BufTy).Contents (Elt F))
  :: StableHlo.unary main_v80 main_v82 (broadcastInDim S8192x1 ![0] bcast_S8192_S8192x1_0 : (⟨S8192, .i32⟩ : BufTy).Contents (Elt F) → (⟨S8192x1, .i32⟩ : BufTy).Contents (Elt F))
  :: StableHlo.binary main_v81 main_v82 main_v83 (cat2 : (⟨S8192x1, .i32⟩ : BufTy).Contents (Elt F) → (⟨S8192x1, .i32⟩ : BufTy).Contents (Elt F) → (⟨S8192x2, .i32⟩ : BufTy).Contents (Elt F))
  :: StableHlo.binary main_arg11 main_v83 main_v84 ((fun x i => Host.gather gather_S200000x1_S8192x2_S8192_n_01_n_n_01_1_11 x i) : (⟨S200000x1, .f32⟩ : BufTy).Contents (Elt F) → (⟨S8192x2, .i32⟩ : BufTy).Contents (Elt F) → (⟨S8192, .f32⟩ : BufTy).Contents (Elt F))
  :: StableHlo.binary main_v73 main_v84 main_v85 (addf : (⟨S8192, .f32⟩ : BufTy).Contents (Elt F) → (⟨S8192, .f32⟩ : BufTy).Contents (Elt F) → (⟨S8192, .f32⟩ : BufTy).Contents (Elt F))
  :: StableHlo.nullary main_c_18 (constantI S_ 32 0#32)
  :: StableHlo.unary main_c_18 main_v86 (broadcastInDim S8192 ![] bcast_S_S8192 : (⟨S_, .i32⟩ : BufTy).Contents (Elt F) → (⟨S8192, .i32⟩ : BufTy).Contents (Elt F))
  :: StableHlo.binary main_arg15 main_v86 main_v87 (cmpi .slt : (⟨S8192, .i32⟩ : BufTy).Contents (Elt F) → (⟨S8192, .i32⟩ : BufTy).Contents (Elt F) → (⟨S8192, .i1⟩ : BufTy).Contents (Elt F))
  :: StableHlo.nullary main_c_19 (constantI S_ 32 100000#32)
  :: StableHlo.unary main_c_19 main_v88 (broadcastInDim S8192 ![] bcast_S_S8192 : (⟨S_, .i32⟩ : BufTy).Contents (Elt F) → (⟨S8192, .i32⟩ : BufTy).Contents (Elt F))
  :: StableHlo.binary main_arg15 main_v88 main_v89 (addi : (⟨S8192, .i32⟩ : BufTy).Contents (Elt F) → (⟨S8192, .i32⟩ : BufTy).Contents (Elt F) → (⟨S8192, .i32⟩ : BufTy).Contents (Elt F))
  :: StableHlo.ternary main_v87 main_v89 main_arg15 main_v90 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_20 (constantI S_ 32 0#32)
  :: StableHlo.unary main_c_20 main_v91 (broadcastInDim S8192 ![] bcast_S_S8192 : (⟨S_, .i32⟩ : BufTy).Contents (Elt F) → (⟨S8192, .i32⟩ : BufTy).Contents (Elt F))
  :: StableHlo.unary main_v91 main_v92 (id : (⟨S8192, .i32⟩ : BufTy).Contents (Elt F) → (⟨S8192, .i32⟩ : BufTy).Contents (Elt F))
  :: StableHlo.unary main_v90 main_v93 (broadcastInDim S8192x1 ![0] bcast_S8192_S8192x1_0 : (⟨S8192, .i32⟩ : BufTy).Contents (Elt F) → (⟨S8192x1, .i32⟩ : BufTy).Contents (Elt F))
  :: StableHlo.unary main_v92 main_v94 (broadcastInDim S8192x1 ![0] bcast_S8192_S8192x1_0 : (⟨S8192, .i32⟩ : BufTy).Contents (Elt F) → (⟨S8192x1, .i32⟩ : BufTy).Contents (Elt F))
  :: StableHlo.binary main_v93 main_v94 main_v95 (cat2 : (⟨S8192x1, .i32⟩ : BufTy).Contents (Elt F) → (⟨S8192x1, .i32⟩ : BufTy).Contents (Elt F) → (⟨S8192x2, .i32⟩ : BufTy).Contents (Elt F))
  :: StableHlo.binary main_arg12 main_v95 main_v96 ((fun x i => Host.gather gather_S100000x1_S8192x2_S8192_n_01_n_n_01_1_11 x i) : (⟨S100000x1, .f32⟩ : BufTy).Contents (Elt F) → (⟨S8192x2, .i32⟩ : BufTy).Contents (Elt F) → (⟨S8192, .f32⟩ : BufTy).Contents (Elt F))
  :: StableHlo.binary main_v85 main_v96 main_v97 (addf : (⟨S8192, .f32⟩ : BufTy).Contents (Elt F) → (⟨S8192, .f32⟩ : BufTy).Contents (Elt F) → (⟨S8192, .f32⟩ : BufTy).Contents (Elt F))
  :: StableHlo.reshape main_arg13 main_v98 rfl shapeCasts_S1_S_
  :: StableHlo.unary main_v98 main_v99 (broadcastInDim S8192 ![] bcast_S_S8192 : (⟨S_, .f32⟩ : BufTy).Contents (Elt F) → (⟨S8192, .f32⟩ : BufTy).Contents (Elt F))
  :: StableHlo.binary main_v97 main_v99 main_v100 (addf : (⟨S8192, .f32⟩ : BufTy).Contents (Elt F) → (⟨S8192, .f32⟩ : BufTy).Contents (Elt F) → (⟨S8192, .f32⟩ : BufTy).Contents (Elt F))
  :: StableHlo.binary main_v64 main_v64 main_v101 (mulf : (⟨S8192x64, .f32⟩ : BufTy).Contents (Elt F) → (⟨S8192x64, .f32⟩ : BufTy).Contents (Elt F) → (⟨S8192x64, .f32⟩ : BufTy).Contents (Elt F))
  :: StableHlo.nullary main_cst_21 (constant S_ .f32 0x00000000#32)
  :: StableHlo.binary main_v101 main_cst_21 main_v102 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F))
  :: StableHlo.nullary main_cst_22 (constant S_ .f32 0x49000000#32)
  :: StableHlo.binary main_v102 main_cst_22 main_v103 (Host.divf : (⟨S_, .f32⟩ : BufTy).Contents (Elt F) → (⟨S_, .f32⟩ : BufTy).Contents (Elt F) → (⟨S_, .f32⟩ : BufTy).Contents (Elt F))
  :: StableHlo.nullary main_cst_23 (constant S_ .f32 0x3A83126F#32)
  :: StableHlo.binary main_cst_23 main_v103 main_v104 (mulf : (⟨S_, .f32⟩ : BufTy).Contents (Elt F) → (⟨S_, .f32⟩ : BufTy).Contents (Elt F) → (⟨S_, .f32⟩ : BufTy).Contents (Elt F))
  :: StableHlo.binary main_v71 main_v71 main_v105 (mulf : (⟨S8192x64, .f32⟩ : BufTy).Contents (Elt F) → (⟨S8192x64, .f32⟩ : BufTy).Contents (Elt F) → (⟨S8192x64, .f32⟩ : BufTy).Contents (Elt F))
  :: StableHlo.nullary main_cst_24 (constant S_ .f32 0x00000000#32)
  :: StableHlo.binary main_v105 main_cst_24 main_v106 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F))
  :: StableHlo.nullary main_cst_25 (constant S_ .f32 0x49000000#32)
  :: StableHlo.binary main_v106 main_cst_25 main_v107 (Host.divf : (⟨S_, .f32⟩ : BufTy).Contents (Elt F) → (⟨S_, .f32⟩ : BufTy).Contents (Elt F) → (⟨S_, .f32⟩ : BufTy).Contents (Elt F))
  :: StableHlo.nullary main_cst_26 (constant S_ .f32 0x3A83126F#32)
  :: StableHlo.binary main_cst_26 main_v107 main_v108 (mulf : (⟨S_, .f32⟩ : BufTy).Contents (Elt F) → (⟨S_, .f32⟩ : BufTy).Contents (Elt F) → (⟨S_, .f32⟩ : BufTy).Contents (Elt F))
  :: StableHlo.binary main_v104 main_v108 main_v109 (addf : (⟨S_, .f32⟩ : BufTy).Contents (Elt F) → (⟨S_, .f32⟩ : BufTy).Contents (Elt F) → (⟨S_, .f32⟩ : BufTy).Contents (Elt F))
  :: StableHlo.binary main_v100 main_arg16 main_v110 (subf : (⟨S8192, .f32⟩ : BufTy).Contents (Elt F) → (⟨S8192, .f32⟩ : BufTy).Contents (Elt F) → (⟨S8192, .f32⟩ : BufTy).Contents (Elt F))
  :: StableHlo.binary main_v110 main_v110 main_v111 (mulf : (⟨S8192, .f32⟩ : BufTy).Contents (Elt F) → (⟨S8192, .f32⟩ : BufTy).Contents (Elt F) → (⟨S8192, .f32⟩ : BufTy).Contents (Elt F))
  :: StableHlo.nullary main_cst_27 (constant S_ .f32 0x00000000#32)
  :: StableHlo.binary main_v111 main_cst_27 main_v112 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))
  :: StableHlo.nullary main_cst_28 (constant S_ .f32 0x46000000#32)
  :: StableHlo.binary main_v112 main_cst_28 main_v113 (Host.divf : (⟨S_, .f32⟩ : BufTy).Contents (Elt F) → (⟨S_, .f32⟩ : BufTy).Contents (Elt F) → (⟨S_, .f32⟩ : BufTy).Contents (Elt F))
  :: StableHlo.binary main_v113 main_v109 main_v114 (addf : (⟨S_, .f32⟩ : BufTy).Contents (Elt F) → (⟨S_, .f32⟩ : BufTy).Contents (Elt F) → (⟨S_, .f32⟩ : BufTy).Contents (Elt F))
  :: [] )

set_option maxHeartbeats 4000000 in
/-- The named list is the stretch itself. -/
theorem tailOps_eq : (hostOps6 : List (HloOp τ sig (Elt F))) = tailOps := rfl

end Ops

set_option maxHeartbeats 4000000 in
/-- After the last host stretch, the first result is the loss. -/
theorem tail_loss : W9 m ρ c (Proc.devRef .tc main_v114)
    = (Cert.Spec.tail (W8 m ρ c (Proc.devRef .tc main_v57)) (W8 m ρ c (Proc.devRef .tc main_v56)) (W8 m ρ c (Proc.devRef .tc main_arg11)) (W8 m ρ c (Proc.devRef .tc main_arg12))
      (fun i => shapeCast Cert.ReferenceIdeal.S_ (W8 m ρ c (Proc.devRef .tc main_arg13)) Cert.ReferenceIdeal.Facts₀.shapeCasts_S1_S_ i) (W8 m ρ c (Proc.devRef .tc main_arg14)) (W8 m ρ c (Proc.devRef .tc main_arg15)) (W8 m ρ c (Proc.devRef .tc main_arg16))).1 := by
  show StableHlo.after hostOps6 (W8 m ρ c) (Proc.devRef .tc main_v114) = _
  rw [tailOps_eq (F := Ideal)]
  after_results_simp
  simp only [cat2, Cert.Spec.tail, Cert.Spec.mse, Cert.Spec.pred, Cert.Spec.penalty, Cert.Spec.biasIdx, Cert.Spec.rowIdx, Cert.Spec.wrapB]
  rfl

set_option maxHeartbeats 4000000 in
/-- After the last host stretch, the second result is the mean squared error. -/
theorem tail_mse : W9 m ρ c (Proc.devRef .tc main_v113)
    = (Cert.Spec.tail (W8 m ρ c (Proc.devRef .tc main_v57)) (W8 m ρ c (Proc.devRef .tc main_v56)) (W8 m ρ c (Proc.devRef .tc main_arg11)) (W8 m ρ c (Proc.devRef .tc main_arg12))
      (fun i => shapeCast Cert.ReferenceIdeal.S_ (W8 m ρ c (Proc.devRef .tc main_arg13)) Cert.ReferenceIdeal.Facts₀.shapeCasts_S1_S_ i) (W8 m ρ c (Proc.devRef .tc main_arg14)) (W8 m ρ c (Proc.devRef .tc main_arg15)) (W8 m ρ c (Proc.devRef .tc main_arg16))).2 := by
  show StableHlo.after hostOps6 (W8 m ρ c) (Proc.devRef .tc main_v113) = _
  rw [tailOps_eq (F := Ideal)]
  after_results_simp
  simp only [cat2, Cert.Spec.tail, Cert.Spec.mse, Cert.Spec.pred, Cert.Spec.penalty, Cert.Spec.biasIdx, Cert.Spec.rowIdx, Cert.Spec.wrapB]
  rfl

end Cert.KernelIdeal.KValue

end
-- ==== Proof.KChain.lean ====
/-
  The idealized kernel's two results as the specification's function of the argument arrays.

  The program alternates host stretches and Pallas regions.  Walking its segment boundaries in order: the first
  host stretch leaves the two first-hop sparse products; regions 0 and 1 turn them into the first-hop tables
  `g1u`, `g1i`; the second host stretch forms the second-hop sparse products of those; regions 2 and 3 give `g2u`,
  `g2i`; region 4 sums the item side, region 5 sums the user side and applies the perceptron; the last stretch is
  the loss.  Each region enters as a hypothesis — its output array after the run is the specification's function of
  its input arrays as the region finds them — and every array a later segment reads is followed to the segment
  that wrote it (or to the launch, for an argument) through the segments that leave it alone.
-/
import proofs.«160102_j20727512170682_1_alg».proof.Proof.KKeep
import proofs.«160102_j20727512170682_1_alg».proof.Proof.KHost0
import proofs.«160102_j20727512170682_1_alg».proof.Proof.KHost2
import proofs.«160102_j20727512170682_1_alg».proof.Proof.KTail

set_option maxRecDepth 16384

noncomputable section

namespace Cert.KernelIdeal.KValue

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

/-! ## The intermediate tables, as the specification names them -/

/-- The user-side first-hop table. -/
def g1u : FVec Ideal Cert.ReferenceIdeal.S200000x64 .f32 :=
  Cert.Spec.residU (Cert.Spec.spmmU (m ((c : Thread nD τ).loc main_arg4)) (m ((c : Thread nD τ).loc main_arg5)) (m ((c : Thread nD τ).loc main_arg6)) (m ((c : Thread nD τ).loc main_arg1))) (m ((c : Thread nD τ).loc main_arg0)) (m ((c : Thread nD τ).loc main_arg2))
/-- The item-side first-hop table. -/
def g1i : FVec Ideal Cert.ReferenceIdeal.S100000x64 .f32 :=
  Cert.Spec.residI (Cert.Spec.spmmI (m ((c : Thread nD τ).loc main_arg4)) (m ((c : Thread nD τ).loc main_arg5)) (m ((c : Thread nD τ).loc main_arg6)) (m ((c : Thread nD τ).loc main_arg0))) (m ((c : Thread nD τ).loc main_arg1)) (m ((c : Thread nD τ).loc main_arg3))
/-- The user-side second-hop table. -/
def g2u : FVec Ideal Cert.ReferenceIdeal.S200000x64 .f32 :=
  Cert.Spec.residU (Cert.Spec.spmmU (m ((c : Thread nD τ).loc main_arg4)) (m ((c : Thread nD τ).loc main_arg5)) (m ((c : Thread nD τ).loc main_arg6)) (g1i m c)) (g1u m c) (m ((c : Thread nD τ).loc main_arg2))
/-- The item-side second-hop table. -/
def g2i : FVec Ideal Cert.ReferenceIdeal.S100000x64 .f32 :=
  Cert.Spec.residI (Cert.Spec.spmmI (m ((c : Thread nD τ).loc main_arg4)) (m ((c : Thread nD τ).loc main_arg5)) (m ((c : Thread nD τ).loc main_arg6)) (g1u m c)) (g1i m c) (m ((c : Thread nD τ).loc main_arg3))
/-- The item embedding table the loss reads. -/
def gi : FVec Ideal Cert.ReferenceIdeal.S100000x64 .f32 := Cert.Spec.sumI (m ((c : Thread nD τ).loc main_arg1)) (g1i m c) (g2i m c)
/-- The user embedding table the loss reads. -/
def gu : FVec Ideal Cert.ReferenceIdeal.S200000x64 .f32 :=
  Cert.Spec.mlp (Cert.Spec.sumU (m ((c : Thread nD τ).loc main_arg0)) (g1u m c) (g2u m c)) (m ((c : Thread nD τ).loc main_arg7)) (m ((c : Thread nD τ).loc main_arg8)) (m ((c : Thread nD τ).loc main_arg9)) (m ((c : Thread nD τ).loc main_arg10))

section Regions

variable (H0 : ∀ (V : ((c : Dev nD) → (b : Ref sig .tc) → Buf (Elt Ideal) ((c : Thread nD τ).loc b))) (c : Dev nD),
      (dat0 (F := Ideal) V c).arrAt 3 cfg0.N = Cert.Spec.residU (V c (Pipeline.arrRef spec0 0)) (V c (Pipeline.arrRef spec0 1)) (V c (Pipeline.arrRef spec0 2)))
    (H1 : ∀ (V : ((c : Dev nD) → (b : Ref sig .tc) → Buf (Elt Ideal) ((c : Thread nD τ).loc b))) (c : Dev nD),
      (dat1 (F := Ideal) V c).arrAt 3 cfg1.N = Cert.Spec.residI (V c (Pipeline.arrRef spec1 0)) (V c (Pipeline.arrRef spec1 1)) (V c (Pipeline.arrRef spec1 2)))
    (H2 : ∀ (V : ((c : Dev nD) → (b : Ref sig .tc) → Buf (Elt Ideal) ((c : Thread nD τ).loc b))) (c : Dev nD),
      (dat2 (F := Ideal) V c).arrAt 3 cfg2.N = Cert.Spec.residU (V c (Pipeline.arrRef spec2 0)) (V c (Pipeline.arrRef spec2 1)) (V c (Pipeline.arrRef spec2 2)))
    (H3 : ∀ (V : ((c : Dev nD) → (b : Ref sig .tc) → Buf (Elt Ideal) ((c : Thread nD τ).loc b))) (c : Dev nD),
      (dat3 (F := Ideal) V c).arrAt 3 cfg3.N = Cert.Spec.residI (V c (Pipeline.arrRef spec3 0)) (V c (Pipeline.arrRef spec3 1)) (V c (Pipeline.arrRef spec3 2)))
    (H4 : ∀ (V : ((c : Dev nD) → (b : Ref sig .tc) → Buf (Elt Ideal) ((c : Thread nD τ).loc b))) (c : Dev nD),
      (dat4 (F := Ideal) V c).arrAt 3 cfg4.N = Cert.Spec.sumI (V c (Pipeline.arrRef spec4 0)) (V c (Pipeline.arrRef spec4 1)) (V c (Pipeline.arrRef spec4 2)))
    (H5 : ∀ (V : ((c : Dev nD) → (b : Ref sig .tc) → Buf (Elt Ideal) ((c : Thread nD τ).loc b))) (c : Dev nD),
      (dat5 (F := Ideal) V c).arrAt 7 cfg5.N = Cert.Spec.mlp (Cert.Spec.sumU (V c (Pipeline.arrRef spec5 0)) (V c (Pipeline.arrRef spec5 1)) (V c (Pipeline.arrRef spec5 2)))
        (V c (Pipeline.arrRef spec5 3)) (V c (Pipeline.arrRef spec5 4)) (V c (Pipeline.arrRef spec5 5)) (V c (Pipeline.arrRef spec5 6)))

include H0 in
/-- Region 0 leaves the user-side first-hop table. -/
theorem g1u_at_W2 : W2 m ρ c (Proc.devRef .tc main_v26) = g1u m c := by
  refine (W2_arr m ρ c 3).trans ((H0 (V1 m ρ) c).trans ?_)
  show Cert.Spec.residU (W1 m ρ c (Proc.devRef .tc main_v12)) (W1 m ρ c (Proc.devRef .tc main_arg0)) (W1 m ρ c (Proc.devRef .tc main_arg2)) = _
  rw [host0_u m ρ c, (arg0_kept m ρ c).w1, (arg2_kept m ρ c).w1]
  rfl

include H1 in
/-- Region 1 leaves the item-side first-hop table. -/
theorem g1i_at_W3 : W3 m ρ c (Proc.devRef .tc main_v27) = g1i m c := by
  refine (W3_arr m ρ c 3).trans ((H1 (V2 m ρ) c).trans ?_)
  show Cert.Spec.residI (W2 m ρ c (Proc.devRef .tc main_v25)) (W2 m ρ c (Proc.devRef .tc main_arg1)) (W2 m ρ c (Proc.devRef .tc main_arg3)) = _
  rw [W2_keep m ρ c main_v25 (by decide), host0_i m ρ c, (arg1_kept m ρ c).w2, (arg3_kept m ρ c).w2]
  rfl

include H0 in
/-- The user-side first-hop table stays where region 0 left it until the last region has read it. -/
theorem g1u_later : W3 m ρ c (Proc.devRef .tc main_v26) = g1u m c ∧ W4 m ρ c (Proc.devRef .tc main_v26) = g1u m c ∧ W7 m ρ c (Proc.devRef .tc main_v26) = g1u m c := by
  have e3 := (W3_keep m ρ c main_v26 (by decide)).trans (g1u_at_W2 m ρ c H0)
  have e4 := (W4_keep m ρ c main_v26 (by not_written)).trans e3
  have e5 := (W5_keep m ρ c main_v26 (by decide)).trans e4
  have e6 := (W6_keep m ρ c main_v26 (by decide)).trans e5
  have e7 := (W7_keep m ρ c main_v26 (by decide)).trans e6
  exact ⟨e3, e4, e7⟩

include H1 in
/-- The item-side first-hop table stays where region 1 left it until region 4 has read it. -/
theorem g1i_later : W5 m ρ c (Proc.devRef .tc main_v27) = g1i m c ∧ W6 m ρ c (Proc.devRef .tc main_v27) = g1i m c := by
  have e4 := (W4_keep m ρ c main_v27 (by not_written)).trans (g1i_at_W3 m ρ c H1)
  have e5 := (W5_keep m ρ c main_v27 (by decide)).trans e4
  have e6 := (W6_keep m ρ c main_v27 (by decide)).trans e5
  exact ⟨e5, e6⟩

include H0 H1 H2 in
/-- Region 2 leaves the user-side second-hop table. -/
theorem g2u_at_W5 : W5 m ρ c (Proc.devRef .tc main_v54) = g2u m c := by
  refine (W5_arr m ρ c 3).trans ((H2 (V4 m ρ) c).trans ?_)
  show Cert.Spec.residU (W4 m ρ c (Proc.devRef .tc main_v40)) (W4 m ρ c (Proc.devRef .tc main_v26)) (W4 m ρ c (Proc.devRef .tc main_arg2)) = _
  rw [host2_u m ρ c, (arg4_kept m ρ c).w3, (arg5_kept m ρ c).w3, (arg6_kept m ρ c).w3, g1i_at_W3 m ρ c H1,
    (g1u_later m ρ c H0).2.1, (arg2_kept m ρ c).w4]
  rfl

include H0 H1 H3 in
/-- Region 3 leaves the item-side second-hop table. -/
theorem g2i_at_W6 : W6 m ρ c (Proc.devRef .tc main_v55) = g2i m c := by
  refine (W6_arr m ρ c 3).trans ((H3 (V5 m ρ) c).trans ?_)
  show Cert.Spec.residI (W5 m ρ c (Proc.devRef .tc main_v53)) (W5 m ρ c (Proc.devRef .tc main_v27)) (W5 m ρ c (Proc.devRef .tc main_arg3)) = _
  rw [W5_keep m ρ c main_v53 (by decide), host2_i m ρ c, (arg4_kept m ρ c).w3, (arg5_kept m ρ c).w3, (arg6_kept m ρ c).w3,
    (g1u_later m ρ c H0).1, (g1i_later m ρ c H1).1, (arg3_kept m ρ c).w5]
  rfl

include H0 H1 H3 H4 in
/-- Region 4 leaves the item embedding table. -/
theorem gi_at_W7 : W7 m ρ c (Proc.devRef .tc main_v56) = gi m c := by
  refine (W7_arr m ρ c 3).trans ((H4 (V6 m ρ) c).trans ?_)
  show Cert.Spec.sumI (W6 m ρ c (Proc.devRef .tc main_arg1)) (W6 m ρ c (Proc.devRef .tc main_v27)) (W6 m ρ c (Proc.devRef .tc main_v55)) = _
  rw [(arg1_kept m ρ c).w6, (g1i_later m ρ c H1).2, g2i_at_W6 m ρ c H0 H1 H3]
  rfl

include H0 H1 H2 H5 in
/-- Region 5 leaves the user embedding table. -/
theorem gu_at_W8 : W8 m ρ c (Proc.devRef .tc main_v57) = gu m c := by
  refine (W8_arr m ρ c 7).trans ((H5 (V7 m ρ) c).trans ?_)
  show Cert.Spec.mlp (Cert.Spec.sumU (W7 m ρ c (Proc.devRef .tc main_arg0)) (W7 m ρ c (Proc.devRef .tc main_v26)) (W7 m ρ c (Proc.devRef .tc main_v54)))
    (W7 m ρ c (Proc.devRef .tc main_arg7)) (W7 m ρ c (Proc.devRef .tc main_arg8)) (W7 m ρ c (Proc.devRef .tc main_arg9)) (W7 m ρ c (Proc.devRef .tc main_arg10)) = _
  rw [(arg0_kept m ρ c).w7, (g1u_later m ρ c H0).2.2, W7_keep m ρ c main_v54 (by decide), W6_keep m ρ c main_v54 (by decide),
    g2u_at_W5 m ρ c H0 H1 H2, (arg7_kept m ρ c).w7, (arg8_kept m ρ c).w7, (arg9_kept m ρ c).w7, (arg10_kept m ρ c).w7]
  rfl

include H0 H1 H2 H3 H4 H5 in
/-- The two results, where the fold of the segments leaves them, are the specification's `(loss, loss2)` of the
    seventeen argument arrays. -/
theorem results :
    W9 m ρ c (Proc.devRef .tc main_v114) = (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).1
    ∧ W9 m ρ c (Proc.devRef .tc main_v113) = (Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))).2 := by
  have e56 := (W8_keep m ρ c main_v56 (by decide)).trans (gi_at_W7 m ρ c H0 H1 H3 H4)
  have e57 := gu_at_W8 m ρ c H0 H1 H2 H5
  constructor
  · rw [tail_loss m ρ c, e57, e56, (arg11_kept m ρ c).w8, (arg12_kept m ρ c).w8, (arg13_kept m ρ c).w8, (arg14_kept m ρ c).w8,
      (arg15_kept m ρ c).w8, (arg16_kept m ρ c).w8]
    rfl
  · rw [tail_mse m ρ c, e57, e56, (arg11_kept m ρ c).w8, (arg12_kept m ρ c).w8, (arg13_kept m ρ c).w8, (arg14_kept m ρ c).w8,
      (arg15_kept m ρ c).w8, (arg16_kept m ρ c).w8]
    rfl

end Regions

end Cert.KernelIdeal.KValue

end
-- ==== Proof.RegionLib.lean ====
/-
  Small facts shared by the six region modules: the zero offset of a rank-2 block, a one-column matrix repeated
  along its rows (the reference's spelling, with explicit dimension numbers) read at an index, and the bias forms
  of the kernel body (a vector as a one-row matrix repeated down the rows) read at an index.
-/
import Idealize.ShloMosaic.Lib.ValueIdx
import Idealize.ShloMosaic.Lib.Pipeline.Value
import Idealize.ShloMosaic.Lib.ValueLayout

namespace Cert.KernelIdeal.RegionValue

open Idealize.ShloMosaic Idealize.ShloMosaic.ValueIdx

variable {α : Type}

/-- The zero offset of a rank-2 rectangle. -/
theorem hz2 : (![0, 0] : Fin 2 → Nat) = fun _ => 0 := funext fun a => by fin_cases a <;> rfl

/-- The zero offset of a rank-1 rectangle. -/
theorem hz1 : (![0] : Fin 1 → Nat) = fun _ => 0 := funext fun a => by fin_cases a; rfl

/-- An `[a, 1]` array broadcast to `[a, b]` along its own two axes reads, at `(i, j)`, the operand's one entry of row `i`. -/
theorem bcastColAlongRow_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x (ix2 i j) (ix2 i (0 : Fin 1)) (fun c => match c with
    | ⟨0, _⟩ => by
      show i.val = if a = 1 then 0 else i.val
      split
      · have := i.isLt; omega
      · rfl
    | ⟨1, _⟩ => by
      show 0 = if (1 : Nat) = 1 then 0 else j.val
      rw [if_pos rfl])

end Cert.KernelIdeal.RegionValue
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.Region0.lean ====
/-
  The first TensorCore region of the idealized kernel as one function of whole arrays: on [200000, 64] arrays,
  max (s + e · d, 0) with d a [200000, 1] column repeated along each row, 20 blocks of 10000 rows. What a point
  writes back is that block of the function of the three arrays as the region finds them, and the blocks tile
  the array.
-/
import proofs.«160102_j20727512170682_1_alg».proof.Proof.Gen.KernelIdeal.Frame
import proofs.«160102_j20727512170682_1_alg».proof.Proof.Spec
import proofs.«160102_j20727512170682_1_alg».proof.Proof.RegionLib
import proofs.«160102_j20727512170682_1_alg».proof.Proof.LibLayout
import proofs.«160102_j20727512170682_1_alg».proof.Proof.LibHostRead
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b))

/-- The body's stored value at `(p, q)` of the block is `max (s + e · d, 0)` of the three arrays at `(P, q)` of the array,
    as soon as the loaded blocks read there what the arrays hold there (the degree column at `(p, 0)` and `(P, 0)`). -/
theorem pay0_at (x0 x1 : Vec Ideal S10000x64 .f32) (x2 : Vec Ideal S10000x1 .f32)
    (s e : FVec Ideal S200000x64 .f32) (d : FVec Ideal S200000x1 .f32) (p : Fin 10000) (q : Fin 64) (P : Fin 200000)
    (h0 : x0 (ix2 p q) = s (ix2 P q)) (h1 : x1 (ix2 p q) = e (ix2 P q)) (h2 : x2 (ix2 p (0 : Fin 1)) = d (ix2 P (0 : Fin 1))) :
    k0_pay1 x0 x1 x2 (ix2 p q) = Cert.Spec.residU s e d (ix2 P q) := by
  unfold k0_pay1 Cert.Spec.residU
  simp only [shapeCast_self]
  show max (x0 (ix2 p q) + x1 (ix2 p q) * broadcastTo S10000x64 x2 broadcasts_S10000x1_S10000x64 (ix2 p q)) (Ideal.ofBits .f32 0x00000000#32)
    = max (s (ix2 P q) + e (ix2 P q) * broadcastInDim Cert.ReferenceIdeal.S200000x64 ![0, 1] Cert.ReferenceIdeal.Facts₀.bcast_S200000x1_S200000x64_0_1 d (ix2 P q))
        (broadcastInDim Cert.ReferenceIdeal.S200000x64 ![] Cert.ReferenceIdeal.Facts₀.bcast_S_S200000x64 (constant (F := Ideal) Cert.ReferenceIdeal.S_ .f32 0x00000000#32) (ix2 P q))
  rw [Cert.Attn.Layout.broadcastTo_a1_ab_apply, bcastColAlongRow_apply, Cert.LibHR.bcastScalar_apply, h0, h1, h2]
  rfl

/-- The printed index maps over the grid: every window's block at point `t` is block row `t`, column block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `max (s + e · d, 0)` of the three arrays as the region finds them. -/
theorem flushed0_eq (c : Dev nD) (t : Fin cfg0.N) :
    (dat0 V c).flushed 3 t = ((cfg0.win 3).blk t).view.read (Elt Ideal)
      (Cert.Spec.residU (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S10000x64) hz2, View.ld_unit_zero (S := S10000x1) hz2]
  obtain ⟨e0, e1, e2, e3, e4, e5, e6, e7⟩ := idx0 t
  funext j
  obtain ⟨p, q, rfl⟩ : ∃ (p : Fin 10000) (q : Fin 64), j = ix2 p q := ⟨j 0, j 1, eq_ix2 j⟩
  have hN : cfg0.N = 20 := N_0
  have hP : t.val * 10000 + p.val < 200000 := by have := t.isLt; have := p.isLt; omega
  have h0 : ((cfg0.win 0).blk t).view.emb (ix2 p q) = ix2 (⟨t.val * 10000 + p.val, hP⟩ : Fin 200000) q := by
    funext a; apply Fin.ext
    match a with
    | ⟨0, _⟩ => show win0_0.index t (0 : Fin 2) * 10000 + 1 * p.val = t.val * 10000 + p.val; omega
    | ⟨1, _⟩ => show win0_0.index t (1 : Fin 2) * 64 + 1 * q.val = q.val; omega
  have h1 : ((cfg0.win 1).blk t).view.emb (ix2 p q) = ix2 (⟨t.val * 10000 + p.val, hP⟩ : Fin 200000) q := by
    funext a; apply Fin.ext
    match a with
    | ⟨0, _⟩ => show win0_1.index t (0 : Fin 2) * 10000 + 1 * p.val = t.val * 10000 + p.val; omega
    | ⟨1, _⟩ => show win0_1.index t (1 : Fin 2) * 64 + 1 * q.val = q.val; omega
  have h2 : ((cfg0.win 2).blk t).view.emb (ix2 p (0 : Fin 1)) = ix2 (⟨t.val * 10000 + p.val, hP⟩ : Fin 200000) (0 : Fin 1) := by
    funext a; apply Fin.ext
    match a with
    | ⟨0, _⟩ => show win0_2.index t (0 : Fin 2) * 10000 + 1 * p.val = t.val * 10000 + p.val; omega
    | ⟨1, _⟩ => show win0_2.index t (1 : Fin 2) * 1 + 1 * (0 : Fin 1).val = (0 : Fin 1).val; omega
  have h3 : ((cfg0.win 3).blk t).view.emb (ix2 p q) = ix2 (⟨t.val * 10000 + p.val, hP⟩ : Fin 200000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (iblk0 V c 0 t) (iblk0 V c 1 t) (iblk0 V c 2 t) (ix2 p q)
    = Cert.Spec.residU (V c (Pipeline.arrRef spec0 0)) (V c (Pipeline.arrRef spec0 1)) (V c (Pipeline.arrRef spec0 2)) (((cfg0.win 3).blk t).view.emb (ix2 p q))
  rw [h3]
  refine pay0_at _ _ _ _ _ _ p q ⟨t.val * 10000 + p.val, hP⟩ ?_ ?_ ?_
  · show V c (Pipeline.arrRef spec0 0) (((cfg0.win 0).blk t).view.emb (ix2 p q)) = V c (Pipeline.arrRef spec0 0) (ix2 (⟨t.val * 10000 + p.val, hP⟩ : Fin 200000) q)
    rw [h0]
  · show V c (Pipeline.arrRef spec0 1) (((cfg0.win 1).blk t).view.emb (ix2 p q)) = V c (Pipeline.arrRef spec0 1) (ix2 (⟨t.val * 10000 + p.val, hP⟩ : Fin 200000) q)
    rw [h1]
  · show V c (Pipeline.arrRef spec0 2) (((cfg0.win 2).blk t).view.emb (ix2 p (0 : Fin 1))) = V c (Pipeline.arrRef spec0 2) (ix2 (⟨t.val * 10000 + p.val, hP⟩ : Fin 200000) (0 : Fin 1))
    rw [h2]

/-- An index of the array is in point `t`'s block iff each coordinate is in the block's range on its axis. -/
theorem mem_blk0 (t : Fin cfg0.N) (i : S200000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v26).slice (win0_3.rect t)).set ↔ _
  rw [View.set_slice_whole, Rect.mem_set_unit]
  exact Iff.rfl

/-- Every index of the array is in the block of the point its row falls in. -/
theorem cover0 (i : S200000x64.Idx) : ∃ t : Fin cfg0.N, (cfg0.win 3).flush t = true ∧ i ∈ ((cfg0.win 3).blk t).view.set := by
  have hi0 : (i 0).val < 200000 := (i 0).isLt
  have hi1 : (i 1).val < 64 := (i 1).isLt
  have hN : cfg0.N = 20 := N_0
  have ht : (i 0).val / 10000 < cfg0.N := by rw [hN]; omega
  refine ⟨⟨(i 0).val / 10000, ht⟩, flush0_3 _, ?_⟩
  rw [mem_blk0]
  obtain ⟨-, -, -, -, -, -, e6, e7⟩ := idx0 ⟨(i 0).val / 10000, ht⟩
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e7]
    omega

/-- The array after the run: `max (s + e · d, 0)` of the three arrays as the region finds them. -/
theorem final0 (c : Dev nD) :
    (dat0 V c).arrAt 3 cfg0.N = Cert.Spec.residU (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.RegionValue

end
-- ==== Proof.Region1.lean ====
/-
  The second TensorCore region of the idealized kernel as one function of whole arrays: on [100000, 64] arrays,
  max (s + e · d, 0) with d a [100000, 1] column repeated along each row, 10 blocks of 10000 rows. What a point
  writes back is that block of the function of the three arrays as the region finds them, and the blocks tile
  the array.
-/
import proofs.«160102_j20727512170682_1_alg».proof.Proof.Gen.KernelIdeal.Frame
import proofs.«160102_j20727512170682_1_alg».proof.Proof.Spec
import proofs.«160102_j20727512170682_1_alg».proof.Proof.RegionLib
import proofs.«160102_j20727512170682_1_alg».proof.Proof.LibLayout
import proofs.«160102_j20727512170682_1_alg».proof.Proof.LibHostRead
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b))

/-- The body's stored value at `(p, q)` of the block is `max (s + e · d, 0)` of the three arrays at `(P, q)` of the array,
    as soon as the loaded blocks read there what the arrays hold there (the degree column at `(p, 0)` and `(P, 0)`). -/
theorem pay1_at (x0 x1 : Vec Ideal S10000x64 .f32) (x2 : Vec Ideal S10000x1 .f32)
    (s e : FVec Ideal S100000x64 .f32) (d : FVec Ideal S100000x1 .f32) (p : Fin 10000) (q : Fin 64) (P : Fin 100000)
    (h0 : x0 (ix2 p q) = s (ix2 P q)) (h1 : x1 (ix2 p q) = e (ix2 P q)) (h2 : x2 (ix2 p (0 : Fin 1)) = d (ix2 P (0 : Fin 1))) :
    k1_pay1 x0 x1 x2 (ix2 p q) = Cert.Spec.residI s e d (ix2 P q) := by
  unfold k1_pay1 Cert.Spec.residI
  simp only [shapeCast_self]
  show max (x0 (ix2 p q) + x1 (ix2 p q) * broadcastTo S10000x64 x2 broadcasts_S10000x1_S10000x64 (ix2 p q)) (Ideal.ofBits .f32 0x00000000#32)
    = max (s (ix2 P q) + e (ix2 P q) * broadcastInDim Cert.ReferenceIdeal.S100000x64 ![0, 1] Cert.ReferenceIdeal.Facts₀.bcast_S100000x1_S100000x64_0_1 d (ix2 P q))
        (broadcastInDim Cert.ReferenceIdeal.S100000x64 ![] Cert.ReferenceIdeal.Facts₀.bcast_S_S100000x64 (constant (F := Ideal) Cert.ReferenceIdeal.S_ .f32 0x00000000#32) (ix2 P q))
  rw [Cert.Attn.Layout.broadcastTo_a1_ab_apply, bcastColAlongRow_apply, Cert.LibHR.bcastScalar_apply, h0, h1, h2]
  rfl

/-- The printed index maps over the grid: every window's block at point `t` is block row `t`, column block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `max (s + e · d, 0)` of the three arrays as the region finds them. -/
theorem flushed1_eq (c : Dev nD) (t : Fin cfg1.N) :
    (dat1 V c).flushed 3 t = ((cfg1.win 3).blk t).view.read (Elt Ideal)
      (Cert.Spec.residI (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S10000x1) hz2]
  obtain ⟨e0, e1, e2, e3, e4, e5, e6, e7⟩ := idx1 t
  funext j
  obtain ⟨p, q, rfl⟩ : ∃ (p : Fin 10000) (q : Fin 64), j = ix2 p q := ⟨j 0, j 1, eq_ix2 j⟩
  have hN : cfg1.N = 10 := N_1
  have hP : t.val * 10000 + p.val < 100000 := by have := t.isLt; have := p.isLt; omega
  have h0 : ((cfg1.win 0).blk t).view.emb (ix2 p q) = ix2 (⟨t.val * 10000 + p.val, hP⟩ : Fin 100000) q := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : ((cfg1.win 1).blk t).view.emb (ix2 p q) = ix2 (⟨t.val * 10000 + p.val, hP⟩ : Fin 100000) q := by
    funext a; apply Fin.ext
    match a with
    | ⟨0, _⟩ => show win1_1.index t (0 : Fin 2) * 10000 + 1 * p.val = t.val * 10000 + p.val; omega
    | ⟨1, _⟩ => show win1_1.index t (1 : Fin 2) * 64 + 1 * q.val = q.val; omega
  have h2 : ((cfg1.win 2).blk t).view.emb (ix2 p (0 : Fin 1)) = ix2 (⟨t.val * 10000 + p.val, hP⟩ : Fin 100000) (0 : Fin 1) := by
    funext a; apply Fin.ext
    match a with
    | ⟨0, _⟩ => show win1_2.index t (0 : Fin 2) * 10000 + 1 * p.val = t.val * 10000 + p.val; omega
    | ⟨1, _⟩ => show win1_2.index t (1 : Fin 2) * 1 + 1 * (0 : Fin 1).val = (0 : Fin 1).val; omega
  have h3 : ((cfg1.win 3).blk t).view.emb (ix2 p q) = ix2 (⟨t.val * 10000 + p.val, hP⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show k1_pay1 (iblk1 V c 0 t) (iblk1 V c 1 t) (iblk1 V c 2 t) (ix2 p q)
    = Cert.Spec.residI (V c (Pipeline.arrRef spec1 0)) (V c (Pipeline.arrRef spec1 1)) (V c (Pipeline.arrRef spec1 2)) (((cfg1.win 3).blk t).view.emb (ix2 p q))
  rw [h3]
  refine pay1_at _ _ _ _ _ _ p q ⟨t.val * 10000 + p.val, hP⟩ ?_ ?_ ?_
  · show V c (Pipeline.arrRef spec1 0) (((cfg1.win 0).blk t).view.emb (ix2 p q)) = V c (Pipeline.arrRef spec1 0) (ix2 (⟨t.val * 10000 + p.val, hP⟩ : Fin 100000) q)
    rw [h0]
  · show V c (Pipeline.arrRef spec1 1) (((cfg1.win 1).blk t).view.emb (ix2 p q)) = V c (Pipeline.arrRef spec1 1) (ix2 (⟨t.val * 10000 + p.val, hP⟩ : Fin 100000) q)
    rw [h1]
  · show V c (Pipeline.arrRef spec1 2) (((cfg1.win 2).blk t).view.emb (ix2 p (0 : Fin 1))) = V c (Pipeline.arrRef spec1 2) (ix2 (⟨t.val * 10000 + p.val, hP⟩ : Fin 100000) (0 : Fin 1))
    rw [h2]

/-- An index of the array is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v27).slice (win1_3.rect t)).set ↔ _
  rw [View.set_slice_whole, Rect.mem_set_unit]
  exact Iff.rfl

/-- Every index of the array is in the block of the point its row falls in. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have ht : (i 0).val / 10000 < cfg1.N := by rw [hN]; omega
  refine ⟨⟨(i 0).val / 10000, ht⟩, flush1_3 _, ?_⟩
  rw [mem_blk1]
  obtain ⟨-, -, -, -, -, -, e6, e7⟩ := idx1 ⟨(i 0).val / 10000, ht⟩
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e7]
    omega

/-- The array after the run: `max (s + e · d, 0)` of the three arrays as the region finds them. -/
theorem final1 (c : Dev nD) :
    (dat1 V c).arrAt 3 cfg1.N = Cert.Spec.residI (V c (Pipeline.arrRef spec1 0)) (V c (Pipeline.arrRef spec1 1)) (V c (Pipeline.arrRef spec1 2)) :=
  (dat1 V c).arrAt_eq_of_cover 3 _ (fun t _ => flushed1_eq V c t) cover1

end Cert.KernelIdeal.RegionValue

end
-- ==== Proof.Region2.lean ====
/-
  The third TensorCore region of the idealized kernel as one function of whole arrays: on [200000, 64] arrays,
  max (s + e · d, 0) with d a [200000, 1] column repeated along each row, 20 blocks of 10000 rows. What a point
  writes back is that block of the function of the three arrays as the region finds them, and the blocks tile
  the array.
-/
import proofs.«160102_j20727512170682_1_alg».proof.Proof.Gen.KernelIdeal.Frame
import proofs.«160102_j20727512170682_1_alg».proof.Proof.Spec
import proofs.«160102_j20727512170682_1_alg».proof.Proof.RegionLib
import proofs.«160102_j20727512170682_1_alg».proof.Proof.LibLayout
import proofs.«160102_j20727512170682_1_alg».proof.Proof.LibHostRead
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b))

/-- The body's stored value at `(p, q)` of the block is `max (s + e · d, 0)` of the three arrays at `(P, q)` of the array,
    as soon as the loaded blocks read there what the arrays hold there (the degree column at `(p, 0)` and `(P, 0)`). -/
theorem pay2_at (x0 x1 : Vec Ideal S10000x64 .f32) (x2 : Vec Ideal S10000x1 .f32)
    (s e : FVec Ideal S200000x64 .f32) (d : FVec Ideal S200000x1 .f32) (p : Fin 10000) (q : Fin 64) (P : Fin 200000)
    (h0 : x0 (ix2 p q) = s (ix2 P q)) (h1 : x1 (ix2 p q) = e (ix2 P q)) (h2 : x2 (ix2 p (0 : Fin 1)) = d (ix2 P (0 : Fin 1))) :
    k2_pay1 x0 x1 x2 (ix2 p q) = Cert.Spec.residU s e d (ix2 P q) := by
  unfold k2_pay1 Cert.Spec.residU
  simp only [shapeCast_self]
  show max (x0 (ix2 p q) + x1 (ix2 p q) * broadcastTo S10000x64 x2 broadcasts_S10000x1_S10000x64 (ix2 p q)) (Ideal.ofBits .f32 0x00000000#32)
    = max (s (ix2 P q) + e (ix2 P q) * broadcastInDim Cert.ReferenceIdeal.S200000x64 ![0, 1] Cert.ReferenceIdeal.Facts₀.bcast_S200000x1_S200000x64_0_1 d (ix2 P q))
        (broadcastInDim Cert.ReferenceIdeal.S200000x64 ![] Cert.ReferenceIdeal.Facts₀.bcast_S_S200000x64 (constant (F := Ideal) Cert.ReferenceIdeal.S_ .f32 0x00000000#32) (ix2 P q))
  rw [Cert.Attn.Layout.broadcastTo_a1_ab_apply, bcastColAlongRow_apply, Cert.LibHR.bcastScalar_apply, h0, h1, h2]
  rfl

/-- The printed index maps over the grid: every window's block at point `t` is block row `t`, column block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `max (s + e · d, 0)` of the three arrays as the region finds them. -/
theorem flushed2_eq (c : Dev nD) (t : Fin cfg2.N) :
    (dat2 V c).flushed 3 t = ((cfg2.win 3).blk t).view.read (Elt Ideal)
      (Cert.Spec.residU (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S10000x1) hz2]
  obtain ⟨e0, e1, e2, e3, e4, e5, e6, e7⟩ := idx2 t
  funext j
  obtain ⟨p, q, rfl⟩ : ∃ (p : Fin 10000) (q : Fin 64), j = ix2 p q := ⟨j 0, j 1, eq_ix2 j⟩
  have hN : cfg2.N = 20 := N_2
  have hP : t.val * 10000 + p.val < 200000 := by have := t.isLt; have := p.isLt; omega
  have h0 : ((cfg2.win 0).blk t).view.emb (ix2 p q) = ix2 (⟨t.val * 10000 + p.val, hP⟩ : Fin 200000) q := by
    funext a; apply Fin.ext
    match a with
    | ⟨0, _⟩ => show win2_0.index t (0 : Fin 2) * 10000 + 1 * p.val = t.val * 10000 + p.val; omega
    | ⟨1, _⟩ => show win2_0.index t (1 : Fin 2) * 64 + 1 * q.val = q.val; omega
  have h1 : ((cfg2.win 1).blk t).view.emb (ix2 p q) = ix2 (⟨t.val * 10000 + p.val, hP⟩ : Fin 200000) q := by
    funext a; apply Fin.ext
    match a with
    | ⟨0, _⟩ => show win2_1.index t (0 : Fin 2) * 10000 + 1 * p.val = t.val * 10000 + p.val; omega
    | ⟨1, _⟩ => show win2_1.index t (1 : Fin 2) * 64 + 1 * q.val = q.val; omega
  have h2 : ((cfg2.win 2).blk t).view.emb (ix2 p (0 : Fin 1)) = ix2 (⟨t.val * 10000 + p.val, hP⟩ : Fin 200000) (0 : Fin 1) := by
    funext a; apply Fin.ext
    match a with
    | ⟨0, _⟩ => show win2_2.index t (0 : Fin 2) * 10000 + 1 * p.val = t.val * 10000 + p.val; omega
    | ⟨1, _⟩ => show win2_2.index t (1 : Fin 2) * 1 + 1 * (0 : Fin 1).val = (0 : Fin 1).val; omega
  have h3 : ((cfg2.win 3).blk t).view.emb (ix2 p q) = ix2 (⟨t.val * 10000 + p.val, hP⟩ : Fin 200000) q := by
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  show k2_pay1 (iblk2 V c 0 t) (iblk2 V c 1 t) (iblk2 V c 2 t) (ix2 p q)
    = Cert.Spec.residU (V c (Pipeline.arrRef spec2 0)) (V c (Pipeline.arrRef spec2 1)) (V c (Pipeline.arrRef spec2 2)) (((cfg2.win 3).blk t).view.emb (ix2 p q))
  rw [h3]
  refine pay2_at _ _ _ _ _ _ p q ⟨t.val * 10000 + p.val, hP⟩ ?_ ?_ ?_
  · show V c (Pipeline.arrRef spec2 0) (((cfg2.win 0).blk t).view.emb (ix2 p q)) = V c (Pipeline.arrRef spec2 0) (ix2 (⟨t.val * 10000 + p.val, hP⟩ : Fin 200000) q)
    rw [h0]
  · show V c (Pipeline.arrRef spec2 1) (((cfg2.win 1).blk t).view.emb (ix2 p q)) = V c (Pipeline.arrRef spec2 1) (ix2 (⟨t.val * 10000 + p.val, hP⟩ : Fin 200000) q)
    rw [h1]
  · show V c (Pipeline.arrRef spec2 2) (((cfg2.win 2).blk t).view.emb (ix2 p (0 : Fin 1))) = V c (Pipeline.arrRef spec2 2) (ix2 (⟨t.val * 10000 + p.val, hP⟩ : Fin 200000) (0 : Fin 1))
    rw [h2]

/-- An index of the array is in point `t`'s block iff each coordinate is in the block's range on its axis. -/
theorem mem_blk2 (t : Fin cfg2.N) (i : S200000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v54).slice (win2_3.rect t)).set ↔ _
  rw [View.set_slice_whole, Rect.mem_set_unit]
  exact Iff.rfl

/-- Every index of the array is in the block of the point its row falls in. -/
theorem cover2 (i : S200000x64.Idx) : ∃ t : Fin cfg2.N, (cfg2.win 3).flush t = true ∧ i ∈ ((cfg2.win 3).blk t).view.set := by
  have hi0 : (i 0).val < 200000 := (i 0).isLt
  have hi1 : (i 1).val < 64 := (i 1).isLt
  have hN : cfg2.N = 20 := N_2
  have ht : (i 0).val / 10000 < cfg2.N := by rw [hN]; omega
  refine ⟨⟨(i 0).val / 10000, ht⟩, flush2_3 _, ?_⟩
  rw [mem_blk2]
  obtain ⟨-, -, -, -, -, -, e6, e7⟩ := idx2 ⟨(i 0).val / 10000, ht⟩
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win2_3.index ⟨(i 0).val / 10000, ht⟩ (1 : Fin 2) * 64 ≤ (i 1).val ∧ (i 1).val < win2_3.index ⟨(i 0).val / 10000, ht⟩ (1 : Fin 2) * 64 + 64
    rw [e7]
    omega

/-- The array after the run: `max (s + e · d, 0)` of the three arrays as the region finds them. -/
theorem final2 (c : Dev nD) :
    (dat2 V c).arrAt 3 cfg2.N = Cert.Spec.residU (V c (Pipeline.arrRef spec2 0)) (V c (Pipeline.arrRef spec2 1)) (V c (Pipeline.arrRef spec2 2)) :=
  (dat2 V c).arrAt_eq_of_cover 3 _ (fun t _ => flushed2_eq V c t) cover2

end Cert.KernelIdeal.RegionValue

end
-- ==== Proof.Region3.lean ====
/-
  The fourth TensorCore region of the idealized kernel as one function of whole arrays: on [100000, 64] arrays,
  max (s + e · d, 0) with d a [100000, 1] column repeated along each row, 10 blocks of 10000 rows. What a point
  writes back is that block of the function of the three arrays as the region finds them, and the blocks tile
  the array.
-/
import proofs.«160102_j20727512170682_1_alg».proof.Proof.Gen.KernelIdeal.Frame
import proofs.«160102_j20727512170682_1_alg».proof.Proof.Spec
import proofs.«160102_j20727512170682_1_alg».proof.Proof.RegionLib
import proofs.«160102_j20727512170682_1_alg».proof.Proof.LibLayout
import proofs.«160102_j20727512170682_1_alg».proof.Proof.LibHostRead
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b))

/-- The body's stored value at `(p, q)` of the block is `max (s + e · d, 0)` of the three arrays at `(P, q)` of the array,
    as soon as the loaded blocks read there what the arrays hold there (the degree column at `(p, 0)` and `(P, 0)`). -/
theorem pay3_at (x0 x1 : Vec Ideal S10000x64 .f32) (x2 : Vec Ideal S10000x1 .f32)
    (s e : FVec Ideal S100000x64 .f32) (d : FVec Ideal S100000x1 .f32) (p : Fin 10000) (q : Fin 64) (P : Fin 100000)
    (h0 : x0 (ix2 p q) = s (ix2 P q)) (h1 : x1 (ix2 p q) = e (ix2 P q)) (h2 : x2 (ix2 p (0 : Fin 1)) = d (ix2 P (0 : Fin 1))) :
    k3_pay1 x0 x1 x2 (ix2 p q) = Cert.Spec.residI s e d (ix2 P q) := by
  unfold k3_pay1 Cert.Spec.residI
  simp only [shapeCast_self]
  show max (x0 (ix2 p q) + x1 (ix2 p q) * broadcastTo S10000x64 x2 broadcasts_S10000x1_S10000x64 (ix2 p q)) (Ideal.ofBits .f32 0x00000000#32)
    = max (s (ix2 P q) + e (ix2 P q) * broadcastInDim Cert.ReferenceIdeal.S100000x64 ![0, 1] Cert.ReferenceIdeal.Facts₀.bcast_S100000x1_S100000x64_0_1 d (ix2 P q))
        (broadcastInDim Cert.ReferenceIdeal.S100000x64 ![] Cert.ReferenceIdeal.Facts₀.bcast_S_S100000x64 (constant (F := Ideal) Cert.ReferenceIdeal.S_ .f32 0x00000000#32) (ix2 P q))
  rw [Cert.Attn.Layout.broadcastTo_a1_ab_apply, bcastColAlongRow_apply, Cert.LibHR.bcastScalar_apply, h0, h1, h2]
  rfl

/-- The printed index maps over the grid: every window's block at point `t` is block row `t`, column block 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `max (s + e · d, 0)` of the three arrays as the region finds them. -/
theorem flushed3_eq (c : Dev nD) (t : Fin cfg3.N) :
    (dat3 V c).flushed 3 t = ((cfg3.win 3).blk t).view.read (Elt Ideal)
      (Cert.Spec.residI (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S10000x64) hz2, View.ld_unit_zero (S := S10000x1) hz2]
  obtain ⟨e0, e1, e2, e3, e4, e5, e6, e7⟩ := idx3 t
  funext j
  obtain ⟨p, q, rfl⟩ : ∃ (p : Fin 10000) (q : Fin 64), j = ix2 p q := ⟨j 0, j 1, eq_ix2 j⟩
  have hN : cfg3.N = 10 := N_3
  have hP : t.val * 10000 + p.val < 100000 := by have := t.isLt; have := p.isLt; omega
  have h0 : ((cfg3.win 0).blk t).view.emb (ix2 p q) = ix2 (⟨t.val * 10000 + p.val, hP⟩ : Fin 100000) q := by
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : ((cfg3.win 1).blk t).view.emb (ix2 p q) = ix2 (⟨t.val * 10000 + p.val, hP⟩ : Fin 100000) q := by
    funext a; apply Fin.ext
    match a with
    | ⟨0, _⟩ => show win3_1.index t (0 : Fin 2) * 10000 + 1 * p.val = t.val * 10000 + p.val; omega
    | ⟨1, _⟩ => show win3_1.index t (1 : Fin 2) * 64 + 1 * q.val = q.val; omega
  have h2 : ((cfg3.win 2).blk t).view.emb (ix2 p (0 : Fin 1)) = ix2 (⟨t.val * 10000 + p.val, hP⟩ : Fin 100000) (0 : Fin 1) := by
    funext a; apply Fin.ext
    match a with
    | ⟨0, _⟩ => show win3_2.index t (0 : Fin 2) * 10000 + 1 * p.val = t.val * 10000 + p.val; omega
    | ⟨1, _⟩ => show win3_2.index t (1 : Fin 2) * 1 + 1 * (0 : Fin 1).val = (0 : Fin 1).val; omega
  have h3 : ((cfg3.win 3).blk t).view.emb (ix2 p q) = ix2 (⟨t.val * 10000 + p.val, hP⟩ : Fin 100000) q := by
    funext a; apply Fin.ext
    match a with
    | ⟨0, _⟩ => show win3_3.index t (0 : Fin 2) * 10000 + 1 * p.val = t.val * 10000 + p.val; omega
    | ⟨1, _⟩ => show win3_3.index t (1 : Fin 2) * 64 + 1 * q.val = q.val; omega
  show k3_pay1 (iblk3 V c 0 t) (iblk3 V c 1 t) (iblk3 V c 2 t) (ix2 p q)
    = Cert.Spec.residI (V c (Pipeline.arrRef spec3 0)) (V c (Pipeline.arrRef spec3 1)) (V c (Pipeline.arrRef spec3 2)) (((cfg3.win 3).blk t).view.emb (ix2 p q))
  rw [h3]
  refine pay3_at _ _ _ _ _ _ p q ⟨t.val * 10000 + p.val, hP⟩ ?_ ?_ ?_
  · show V c (Pipeline.arrRef spec3 0) (((cfg3.win 0).blk t).view.emb (ix2 p q)) = V c (Pipeline.arrRef spec3 0) (ix2 (⟨t.val * 10000 + p.val, hP⟩ : Fin 100000) q)
    rw [h0]
  · show V c (Pipeline.arrRef spec3 1) (((cfg3.win 1).blk t).view.emb (ix2 p q)) = V c (Pipeline.arrRef spec3 1) (ix2 (⟨t.val * 10000 + p.val, hP⟩ : Fin 100000) q)
    rw [h1]
  · show V c (Pipeline.arrRef spec3 2) (((cfg3.win 2).blk t).view.emb (ix2 p (0 : Fin 1))) = V c (Pipeline.arrRef spec3 2) (ix2 (⟨t.val * 10000 + p.val, hP⟩ : Fin 100000) (0 : Fin 1))
    rw [h2]

/-- An index of the array is in point `t`'s block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v55).slice (win3_3.rect t)).set ↔ _
  rw [View.set_slice_whole, Rect.mem_set_unit]
  exact Iff.rfl

/-- Every index of the array is in the block of the point its row falls in. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  have ht : (i 0).val / 10000 < cfg3.N := by rw [hN]; omega
  refine ⟨⟨(i 0).val / 10000, ht⟩, flush3_3 _, ?_⟩
  rw [mem_blk3]
  obtain ⟨-, -, -, -, -, -, e6, e7⟩ := idx3 ⟨(i 0).val / 10000, ht⟩
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    rw [e7]
    omega

/-- The array after the run: `max (s + e · d, 0)` of the three arrays as the region finds them. -/
theorem final3 (c : Dev nD) :
    (dat3 V c).arrAt 3 cfg3.N = Cert.Spec.residI (V c (Pipeline.arrRef spec3 0)) (V c (Pipeline.arrRef spec3 1)) (V c (Pipeline.arrRef spec3 2)) :=
  (dat3 V c).arrAt_eq_of_cover 3 _ (fun t _ => flushed3_eq V c t) cover3

end Cert.KernelIdeal.RegionValue

end
-- ==== Proof.Region4.lean ====
/-
  The fifth TensorCore region of the idealized kernel as one function of whole arrays: it adds three
  [100000, 64] arrays, (a + b) + c, ten blocks of 10000 rows. What a point writes back is that block of the sum
  of the three arrays as the region finds them, and the ten blocks tile the array.
-/
import proofs.«160102_j20727512170682_1_alg».proof.Proof.Gen.KernelIdeal.Frame
import proofs.«160102_j20727512170682_1_alg».proof.Proof.Spec
import proofs.«160102_j20727512170682_1_alg».proof.Proof.RegionLib
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b))

/-- The body's stored value at an index `y` of the block is the sum of the three arrays at an index `i` of the array,
    as soon as the three loaded blocks read, at `y`, the three arrays at `i`. -/
theorem pay4_at (x0 x1 x2 : Vec Ideal S10000x64 .f32) (A B C : FVec Ideal S100000x64 .f32) (y : S10000x64.Idx) (i : S100000x64.Idx)
    (h0 : x0 y = A i) (h1 : x1 y = B i) (h2 : x2 y = C i) : k4_pay1 x0 x1 x2 y = Cert.Spec.sumI A B C i := by
  unfold k4_pay1
  simp only [shapeCast_self]
  show x0 y + x1 y + x2 y = A i + B i + C i
  rw [h0, h1, h2]

/-- The printed index maps over the grid: every window's block at point `t` is block row `t`, column block 0. -/
theorem idx4 : ∀ t : Fin cfg4.N, win4_0.index t (0 : Fin 2) = win4_3.index t (0 : Fin 2)
    ∧ win4_0.index t (1 : Fin 2) = win4_3.index t (1 : Fin 2)
    ∧ win4_1.index t (0 : Fin 2) = win4_3.index t (0 : Fin 2)
    ∧ win4_1.index t (1 : Fin 2) = win4_3.index t (1 : Fin 2)
    ∧ win4_2.index t (0 : Fin 2) = win4_3.index t (0 : Fin 2)
    ∧ win4_2.index t (1 : Fin 2) = win4_3.index t (1 : Fin 2)
    ∧ win4_3.index t (0 : Fin 2) = t.val ∧ win4_3.index t (1 : Fin 2) = 0 :=
  (by decide +kernel : ∀ t : Fin grid4.N, _)

/-- What point `t` writes back is block `t` of the sum of the three arrays as the region finds them. -/
theorem flushed4_eq (c : Dev nD) (t : Fin cfg4.N) :
    (dat4 V c).flushed 3 t = ((cfg4.win 3).blk t).view.read (Elt Ideal)
      (Cert.Spec.sumI (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz2]
  simp only [View.ld_unit_zero (S := S10000x64) hz2]
  obtain ⟨e0, e1, e2, e3, e4, e5, e6, e7⟩ := idx4 t
  funext j
  have h0 : ((cfg4.win 0).blk t).view.emb j = ((cfg4.win 3).blk t).view.emb j := by
    funext a; apply Fin.ext
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * (j 1).val = win4_3.index t (1 : Fin 2) * 64 + 1 * (j 1).val; omega
  have h1 : ((cfg4.win 1).blk t).view.emb j = ((cfg4.win 3).blk t).view.emb j := by
    funext a; apply Fin.ext
    match a with
    | ⟨0, _⟩ => show win4_1.index t (0 : Fin 2) * 10000 + 1 * (j 0).val = win4_3.index t (0 : Fin 2) * 10000 + 1 * (j 0).val; omega
    | ⟨1, _⟩ => show win4_1.index t (1 : Fin 2) * 64 + 1 * (j 1).val = win4_3.index t (1 : Fin 2) * 64 + 1 * (j 1).val; omega
  have h2 : ((cfg4.win 2).blk t).view.emb j = ((cfg4.win 3).blk t).view.emb j := by
    funext a; apply Fin.ext
    match a with
    | ⟨0, _⟩ => show win4_2.index t (0 : Fin 2) * 10000 + 1 * (j 0).val = win4_3.index t (0 : Fin 2) * 10000 + 1 * (j 0).val; omega
    | ⟨1, _⟩ => show win4_2.index t (1 : Fin 2) * 64 + 1 * (j 1).val = win4_3.index t (1 : Fin 2) * 64 + 1 * (j 1).val; omega
  refine pay4_at _ _ _ _ _ _ j (((cfg4.win 3).blk t).view.emb j) ?_ ?_ ?_
  · show V c (Pipeline.arrRef spec4 0) (((cfg4.win 0).blk t).view.emb j) = V c (Pipeline.arrRef spec4 0) (((cfg4.win 3).blk t).view.emb j)
    rw [h0]
  · show V c (Pipeline.arrRef spec4 1) (((cfg4.win 1).blk t).view.emb j) = V c (Pipeline.arrRef spec4 1) (((cfg4.win 3).blk t).view.emb j)
    rw [h1]
  · show V c (Pipeline.arrRef spec4 2) (((cfg4.win 2).blk t).view.emb j) = V c (Pipeline.arrRef spec4 2) (((cfg4.win 3).blk t).view.emb j)
    rw [h2]

/-- An index of the array is in point `t`'s block iff each coordinate is in the block's range on its axis. -/
theorem mem_blk4 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v56).slice (win4_3.rect t)).set ↔ _
  rw [View.set_slice_whole, Rect.mem_set_unit]
  exact Iff.rfl

/-- Every index of the array is in the block of the point its row falls in. -/
theorem cover4 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 10 := N_4
  have ht : (i 0).val / 10000 < cfg4.N := by rw [hN]; omega
  refine ⟨⟨(i 0).val / 10000, ht⟩, flush4_3 _, ?_⟩
  rw [mem_blk4]
  obtain ⟨-, -, -, -, -, -, e6, e7⟩ := idx4 ⟨(i 0).val / 10000, ht⟩
  intro a
  match a with
  | ⟨0, _⟩ =>
    show win4_3.index ⟨(i 0).val / 10000, ht⟩ (0 : Fin 2) * 10000 ≤ (i 0).val ∧ (i 0).val < win4_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win4_3.index ⟨(i 0).val / 10000, ht⟩ (1 : Fin 2) * 64 ≤ (i 1).val ∧ (i 1).val < win4_3.index ⟨(i 0).val / 10000, ht⟩ (1 : Fin 2) * 64 + 64
    rw [e7]
    omega

/-- The array after the run: the sum of the three arrays as the region finds them. -/
theorem final4 (c : Dev nD) :
    (dat4 V c).arrAt 3 cfg4.N = Cert.Spec.sumI (V c (Pipeline.arrRef spec4 0)) (V c (Pipeline.arrRef spec4 1)) (V c (Pipeline.arrRef spec4 2)) :=
  (dat4 V c).arrAt_eq_of_cover 3 _ (fun t _ => flushed4_eq V c t) cover4

end Cert.KernelIdeal.RegionValue

end
-- ==== Proof.Region5.lean ====
/-
  The sixth TensorCore region of the idealized kernel as one function of whole arrays: on [200000, 64] arrays,
  forty blocks of 5000 rows, the sum of three arrays followed by a two-layer perceptron,
  leaky (leaky (g · W1 + b1) · W2 + b2), the weights and biases whole at every point. At an index both the body
  and the specification are the same two nested sums over the contracted coordinates (64, then 128) of the same
  products, with the same pointwise operations around them in the same order; the row of the array is the row of
  the block shifted by 5000 times the point. What a point writes back is that block of the function of the
  seven arrays as the region finds them, and the blocks tile the array.
-/
import proofs.«160102_j20727512170682_1_alg».proof.Proof.Gen.KernelIdeal.Frame
import proofs.«160102_j20727512170682_1_alg».proof.Proof.Spec
import proofs.«160102_j20727512170682_1_alg».proof.Proof.RegionLib
import proofs.«160102_j20727512170682_1_alg».proof.Proof.LibLayout
import proofs.«160102_j20727512170682_1_alg».proof.Proof.LibHostRead
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.RegionValue

open Cert.KernelIdeal Cert.KernelIdeal.Gen Idealize.ShloMosaic.ValueIdx

variable (V : (c : Dev nD) → (b : Ref sig .tc) → Buf (Elt Ideal) ((c : Thread nD τ).loc b))

/-- `x` where `x ≥ 0`, a tenth of `x` elsewhere, on one extended real (both literals kept as their words). -/
def leakyAt (x : Ideal .f32) : Ideal .f32 :=
  Scalar.select (FloatOps.cmpf .oge x (Ideal.ofBits .f32 0x00000000#32)) x (Ideal.ofBits .f32 0x3DCCCCCD#32 * x)

/-- The reference's leaky map on the hidden layer, at an index. -/
theorem leaky128_apply (x : FVec Ideal Cert.ReferenceIdeal.S200000x128 .f32) (i : Cert.ReferenceIdeal.S200000x128.Idx) : Cert.Spec.leaky128 x i = leakyAt (x i) := by
  unfold Cert.Spec.leaky128 leakyAt
  show Scalar.select (FloatOps.cmpf .oge (x i) (broadcastInDim Cert.ReferenceIdeal.S200000x128 ![] Cert.ReferenceIdeal.Facts₀.bcast_S_S200000x128 (constant (F := Ideal) Cert.ReferenceIdeal.S_ .f32 0x00000000#32) i)) (x i)
      (broadcastInDim Cert.ReferenceIdeal.S200000x128 ![] Cert.ReferenceIdeal.Facts₀.bcast_S_S200000x128 (constant (F := Ideal) Cert.ReferenceIdeal.S_ .f32 0x3DCCCCCD#32) i * x i) = _
  rw [Cert.LibHR.bcastScalar_apply, Cert.LibHR.bcastScalar_apply]
  rfl

/-- The reference's leaky map on the output layer, at an index. -/
theorem leaky64_apply (x : FVec Ideal Cert.ReferenceIdeal.S200000x64 .f32) (i : Cert.ReferenceIdeal.S200000x64.Idx) : Cert.Spec.leaky64 x i = leakyAt (x i) := by
  unfold Cert.Spec.leaky64 leakyAt
  show Scalar.select (FloatOps.cmpf .oge (x i) (broadcastInDim Cert.ReferenceIdeal.S200000x64 ![] Cert.ReferenceIdeal.Facts₀.bcast_S_S200000x64 (constant (F := Ideal) Cert.ReferenceIdeal.S_ .f32 0x00000000#32) i)) (x i)
      (broadcastInDim Cert.ReferenceIdeal.S200000x64 ![] Cert.ReferenceIdeal.Facts₀.bcast_S_S200000x64 (constant (F := Ideal) Cert.ReferenceIdeal.S_ .f32 0x3DCCCCCD#32) i * x i) = _
  rw [Cert.LibHR.bcastScalar_apply, Cert.LibHR.bcastScalar_apply]
  rfl

/-- The kernel's first product, into a zero accumulator, at `(i, j)`: the sum over the 64 contracted coordinates. -/
theorem kdot1_apply (l : FVec Ideal S5000x64 .bf16) (r : FVec Ideal S64x128 .bf16) (i : Fin 5000) (j : Fin 128) :
    matmul dot_S5000x64_S64x128_S5000x128_1_0_0_1_n_n none l r (constant (F := Ideal) S5000x128 .f32 0x00000000#32) (ix2 i j)
      = ∑ k : Fin 64, l (ix2 i k) * r (ix2 k j) :=
  Cert.LibHR.plainMatmul_zero_apply (φ₁ := .bf16) (φ₂ := .bf16) 5000 64 128 dot_S5000x64_S64x128_S5000x128_1_0_0_1_n_n.wf l r i j

/-- The kernel's second product, into a zero accumulator, at `(i, j)`: the sum over the 128 contracted coordinates. -/
theorem kdot2_apply (l : FVec Ideal S5000x128 .bf16) (r : FVec Ideal S128x64 .bf16) (i : Fin 5000) (j : Fin 64) :
    matmul dot_S5000x128_S128x64_S5000x64_1_0_0_1_n_n none l r (constant (F := Ideal) S5000x64 .f32 0x00000000#32) (ix2 i j)
      = ∑ k : Fin 128, l (ix2 i k) * r (ix2 k j) :=
  Cert.LibHR.plainMatmul_zero_apply (φ₁ := .bf16) (φ₂ := .bf16) 5000 128 64 dot_S5000x128_S128x64_S5000x64_1_0_0_1_n_n.wf l r i j

/-- The reference's first product at `(i, j)`: the sum over the 64 contracted coordinates. -/
theorem rdot1_apply (l : FVec Ideal Cert.ReferenceIdeal.S200000x64 .f32) (r : FVec Ideal Cert.ReferenceIdeal.S64x128 .f32) (i : Fin 200000) (j : Fin 128) :
    Host.dotGeneral Cert.ReferenceIdeal.dot_S200000x64_S64x128_S200000x128_1_0_0_1_n_n none l r (ix2 i j) = ∑ k : Fin 64, l (ix2 i k) * r (ix2 k j) :=
  Cert.LibHR.plainDot_apply (φ₁ := .f32) (φ₂ := .f32) 200000 64 128 Cert.ReferenceIdeal.dot_S200000x64_S64x128_S200000x128_1_0_0_1_n_n.wf l r i j

/-- The reference's second product at `(i, j)`: the sum over the 128 contracted coordinates. -/
theorem rdot2_apply (l : FVec Ideal Cert.ReferenceIdeal.S200000x128 .f32) (r : FVec Ideal Cert.ReferenceIdeal.S128x64 .f32) (i : Fin 200000) (j : Fin 64) :
    Host.dotGeneral Cert.ReferenceIdeal.dot_S200000x128_S128x64_S200000x64_1_0_0_1_n_n none l r (ix2 i j) = ∑ k : Fin 128, l (ix2 i k) * r (ix2 k j) :=
  Cert.LibHR.plainDot_apply (φ₁ := .f32) (φ₂ := .f32) 200000 128 64 Cert.ReferenceIdeal.dot_S200000x128_S128x64_S200000x64_1_0_0_1_n_n.wf l r i j

/-- The kernel body's leaky map (a compare against a splat of 0, a select, a product with a splat of 0.1), at an index. -/
theorem kLeaky_apply {s : Shape} (y : FVec Ideal s .f32) (i : s.Idx) :
    select (cmpf .oge y (broadcast s (Scalar.ofBits (F := Ideal) .f32 0x00000000#32))) y (mulf (broadcast s (Scalar.ofBits (F := Ideal) .f32 0x3DCCCCCD#32)) y) i = leakyAt (y i) := rfl

/-- The body's stored value at `(p, q)` of the block is the perceptron of the sum of the three arrays at `(P, q)` of the
    array, as soon as the three loaded blocks read, along row `p`, what the three arrays hold along row `P`. -/
theorem pay5_at (x0 x1 x2 : Vec Ideal S5000x64 .f32) (y1 : Vec Ideal S64x128 .f32) (c1 : Vec Ideal S128 .f32)
    (y2 : Vec Ideal S128x64 .f32) (c2 : Vec Ideal S64 .f32) (A B C : FVec Ideal Cert.ReferenceIdeal.S200000x64 .f32)
    (w1 : FVec Ideal Cert.ReferenceIdeal.S64x128 .f32) (b1 : FVec Ideal Cert.ReferenceIdeal.S128 .f32) (w2 : FVec Ideal Cert.ReferenceIdeal.S128x64 .f32) (b2 : FVec Ideal Cert.ReferenceIdeal.S64 .f32)
    (p : Fin 5000) (q : Fin 64) (P : Fin 200000) (i : Cert.ReferenceIdeal.S200000x64.Idx) (hi : i = ix2 P q)
    (hy1 : y1 = w1) (hc1 : c1 = b1) (hy2 : y2 = w2) (hc2 : c2 = b2)
    (h0 : ∀ k : Fin 64, x0 (ix2 p k) = A (ix2 P k)) (h1 : ∀ k : Fin 64, x1 (ix2 p k) = B (ix2 P k))
    (h2 : ∀ k : Fin 64, x2 (ix2 p k) = C (ix2 P k)) :
    k5_pay1 x0 x1 x2 y1 c1 y2 c2 (ix2 p q) = Cert.Spec.mlp (Cert.Spec.sumU A B C) w1 b1 w2 b2 i := by
  subst hy1 hc1 hy2 hc2 hi
  unfold k5_pay1 Cert.Spec.mlp Cert.Spec.sumU
  simp only [shapeCast_self]
  simp only [kLeaky_apply, leaky64_apply, leaky128_apply, addf_apply, truncf_apply, kdot1_apply, kdot2_apply, rdot1_apply, rdot2_apply,
    broadcastTo_1b_ab_apply, shapeCast_a_1a_apply, h0, h1, h2]
  have hb1 : ∀ k : Fin 128, broadcastInDim Cert.ReferenceIdeal.S200000x128 ![0, 1] Cert.ReferenceIdeal.Facts₀.bcast_S1x128_S200000x128_0_1
      (broadcastInDim Cert.ReferenceIdeal.S1x128 ![1] Cert.ReferenceIdeal.Facts₀.bcast_S128_S1x128_1 c1) (ix2 P k) = c1 (ix1 k) :=
    fun k => Cert.LibHR.bcastRow_apply _ _ c1 P k
  have hb2 : broadcastInDim Cert.ReferenceIdeal.S200000x64 ![0, 1] Cert.ReferenceIdeal.Facts₀.bcast_S1x64_S200000x64_0_1
      (broadcastInDim Cert.ReferenceIdeal.S1x64 ![1] Cert.ReferenceIdeal.Facts₀.bcast_S64_S1x64_1 c2) (ix2 P q) = c2 (ix1 q) :=
    Cert.LibHR.bcastRow_apply _ _ c2 P q
  simp only [hb1, hb2]

/-- The printed index maps over the grid: the three row-blocked inputs and the output sit at block row `t`, column
    block 0, at point `t`; the two weight matrices and the two bias vectors are whole, at block 0, at every point. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

set_option maxHeartbeats 1000000 in
/-- What point `t` writes back is block `t` of the perceptron of the sum of the three arrays, with the weights and
    biases, all as the region finds them. -/
theorem flushed5_eq (c : Dev nD) (t : Fin cfg5.N) :
    (dat5 V c).flushed 7 t = ((cfg5.win 7).blk t).view.read (Elt Ideal)
      (Cert.Spec.mlp (Cert.Spec.sumU (V c (Pipeline.arrRef spec5 0)) (V c (Pipeline.arrRef spec5 1)) (V c (Pipeline.arrRef spec5 2))) (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  unfold out5_7
  rw [View.canon_unit_zero hz2]
  simp only [View.ld_unit_zero (S := S5000x64) hz2, View.ld_unit_zero (S := S64x128) hz2, View.ld_unit_zero (S := S128) hz1,
    View.ld_unit_zero (S := S128x64) hz2, View.ld_unit_zero (S := S64) hz1]
  obtain ⟨e00, e01, e10, e11, e20, e21, e30, e31, e40, e50, e51, e60, e70, e71⟩ := idx5 t
  have hcut : ∀ X : Vec Ideal S5000x64 .f32, (cfg5.win 7).cut (grid5.coords t) X = X := fun X => rfl
  have hread : ∀ (G : FVec Ideal Cert.ReferenceIdeal.S200000x64 .f32) (y : S5000x64.Idx),
      ((cfg5.win 7).blk t).view.read (Elt Ideal) G y = G (((cfg5.win 7).blk t).view.emb y) := fun G y => rfl
  have hw3 : iblk5 V c 3 t = V c (Pipeline.arrRef spec5 3) := by
    funext y
    show V c (Pipeline.arrRef spec5 3) (((cfg5.win 3).blk t).view.emb y) = V c (Pipeline.arrRef spec5 3) y
    have he : ((cfg5.win 3).blk t).view.emb y = y := by
      funext a; apply Fin.ext
      match a with
      | ⟨0, _⟩ => show win5_3.index t (0 : Fin 2) * 64 + 1 * (y 0).val = (y 0).val; omega
      | ⟨1, _⟩ => show win5_3.index t (1 : Fin 2) * 128 + 1 * (y 1).val = (y 1).val; omega
    rw [he]
  have hw4 : iblk5 V c 4 t = V c (Pipeline.arrRef spec5 4) := by
    funext y
    show V c (Pipeline.arrRef spec5 4) (((cfg5.win 4).blk t).view.emb y) = V c (Pipeline.arrRef spec5 4) y
    have he : ((cfg5.win 4).blk t).view.emb y = y := by
      funext a; apply Fin.ext
      match a with
      | ⟨0, _⟩ => show win5_4.index t (0 : Fin 1) * 128 + 1 * (y 0).val = (y 0).val; omega
    rw [he]
  have hw5 : iblk5 V c 5 t = V c (Pipeline.arrRef spec5 5) := by
    funext y
    show V c (Pipeline.arrRef spec5 5) (((cfg5.win 5).blk t).view.emb y) = V c (Pipeline.arrRef spec5 5) y
    have he : ((cfg5.win 5).blk t).view.emb y = y := by
      funext a; apply Fin.ext
      match a with
      | ⟨0, _⟩ => show win5_5.index t (0 : Fin 2) * 128 + 1 * (y 0).val = (y 0).val; omega
      | ⟨1, _⟩ => show win5_5.index t (1 : Fin 2) * 64 + 1 * (y 1).val = (y 1).val; omega
    rw [he]
  have hw6 : iblk5 V c 6 t = V c (Pipeline.arrRef spec5 6) := by
    funext y
    show V c (Pipeline.arrRef spec5 6) (((cfg5.win 6).blk t).view.emb y) = V c (Pipeline.arrRef spec5 6) y
    have he : ((cfg5.win 6).blk t).view.emb y = y := by
      funext a; apply Fin.ext
      match a with
      | ⟨0, _⟩ => show win5_6.index t (0 : Fin 1) * 64 + 1 * (y 0).val = (y 0).val; omega
    rw [he]
  funext j
  obtain ⟨p, q, rfl⟩ : ∃ (p : Fin 5000) (q : Fin 64), j = ix2 p q := ⟨j 0, j 1, eq_ix2 j⟩
  have hN : cfg5.N = 40 := N_5
  have hP : t.val * 5000 + p.val < 200000 := by have := t.isLt; have := p.isLt; omega
  have h0 : ∀ k : Fin 64, ((cfg5.win 0).blk t).view.emb (ix2 p k) = ix2 (⟨t.val * 5000 + p.val, hP⟩ : Fin 200000) k := fun k => by
    funext a; apply Fin.ext
    match a with
    | ⟨0, _⟩ => show win5_0.index t (0 : Fin 2) * 5000 + 1 * p.val = t.val * 5000 + p.val; omega
    | ⟨1, _⟩ => show win5_0.index t (1 : Fin 2) * 64 + 1 * k.val = k.val; omega
  have h1 : ∀ k : Fin 64, ((cfg5.win 1).blk t).view.emb (ix2 p k) = ix2 (⟨t.val * 5000 + p.val, hP⟩ : Fin 200000) k := fun k => by
    funext a; apply Fin.ext
    match a with
    | ⟨0, _⟩ => show win5_1.index t (0 : Fin 2) * 5000 + 1 * p.val = t.val * 5000 + p.val; omega
    | ⟨1, _⟩ => show win5_1.index t (1 : Fin 2) * 64 + 1 * k.val = k.val; omega
  have h2 : ∀ k : Fin 64, ((cfg5.win 2).blk t).view.emb (ix2 p k) = ix2 (⟨t.val * 5000 + p.val, hP⟩ : Fin 200000) k := fun k => by
    funext a; apply Fin.ext
    match a with
    | ⟨0, _⟩ => show win5_2.index t (0 : Fin 2) * 5000 + 1 * p.val = t.val * 5000 + p.val; omega
    | ⟨1, _⟩ => show win5_2.index t (1 : Fin 2) * 64 + 1 * k.val = k.val; omega
  have h7 : ∀ k : Fin 64, ((cfg5.win 7).blk t).view.emb (ix2 p k) = ix2 (⟨t.val * 5000 + p.val, hP⟩ : Fin 200000) k := fun k => by
    funext a; apply Fin.ext
    match a with
    | ⟨0, _⟩ => show win5_7.index t (0 : Fin 2) * 5000 + 1 * p.val = t.val * 5000 + p.val; omega
    | ⟨1, _⟩ => show win5_7.index t (1 : Fin 2) * 64 + 1 * k.val = k.val; omega
  refine (congrFun (hcut _) (ix2 p q)).trans (Eq.trans ?_ (hread _ (ix2 p q)).symm)
  refine pay5_at _ _ _ _ _ _ _ _ _ _ _ _ _ _ p q ⟨t.val * 5000 + p.val, hP⟩ _ (h7 q) hw3 hw4 hw5 hw6 (fun k => ?_) (fun k => ?_) (fun k => ?_)
  · show V c (Pipeline.arrRef spec5 0) (((cfg5.win 0).blk t).view.emb (ix2 p k)) = V c (Pipeline.arrRef spec5 0) (ix2 (⟨t.val * 5000 + p.val, hP⟩ : Fin 200000) k)
    rw [h0 k]
  · show V c (Pipeline.arrRef spec5 1) (((cfg5.win 1).blk t).view.emb (ix2 p k)) = V c (Pipeline.arrRef spec5 1) (ix2 (⟨t.val * 5000 + p.val, hP⟩ : Fin 200000) k)
    rw [h1 k]
  · show V c (Pipeline.arrRef spec5 2) (((cfg5.win 2).blk t).view.emb (ix2 p k)) = V c (Pipeline.arrRef spec5 2) (ix2 (⟨t.val * 5000 + p.val, hP⟩ : Fin 200000) k)
    rw [h2 k]

/-- An index of the array is in point `t`'s block iff each coordinate is in the block's range on its axis. -/
theorem mem_blk5 (t : Fin cfg5.N) (i : S200000x64.Idx) :
    i ∈ ((cfg5.win 7).blk t).view.set ↔ ∀ a : Fin 2, win5_7.index t a * S5000x64.size a ≤ (i a).val ∧ (i a).val < win5_7.index t a * S5000x64.size a + S5000x64.size a := by
  show i ∈ ((View.whole main_v57).slice (win5_7.rect t)).set ↔ _
  rw [View.set_slice_whole, Rect.mem_set_unit]
  exact Iff.rfl

/-- Every index of the array is in the block of the point its row falls in. -/
theorem cover5 (i : S200000x64.Idx) : ∃ t : Fin cfg5.N, (cfg5.win 7).flush t = true ∧ i ∈ ((cfg5.win 7).blk t).view.set := by
  have hi0 : (i 0).val < 200000 := (i 0).isLt
  have hi1 : (i 1).val < 64 := (i 1).isLt
  have hN : cfg5.N = 40 := N_5
  have ht : (i 0).val / 5000 < cfg5.N := by rw [hN]; omega
  refine ⟨⟨(i 0).val / 5000, ht⟩, flush5_7 _, ?_⟩
  rw [mem_blk5]
  obtain ⟨-, -, -, -, -, -, -, -, -, -, -, -, e70, e71⟩ := idx5 ⟨(i 0).val / 5000, ht⟩
  intro a
  match a with
  | ⟨0, _⟩ =>
    show win5_7.index ⟨(i 0).val / 5000, ht⟩ (0 : Fin 2) * 5000 ≤ (i 0).val ∧ (i 0).val < win5_7.index ⟨(i 0).val / 5000, ht⟩ (0 : Fin 2) * 5000 + 5000
    rw [e70]
    show (i 0).val / 5000 * 5000 ≤ (i 0).val ∧ (i 0).val < (i 0).val / 5000 * 5000 + 5000
    omega
  | ⟨1, _⟩ =>
    show win5_7.index ⟨(i 0).val / 5000, ht⟩ (1 : Fin 2) * 64 ≤ (i 1).val ∧ (i 1).val < win5_7.index ⟨(i 0).val / 5000, ht⟩ (1 : Fin 2) * 64 + 64
    rw [e71]
    omega

/-- The array after the run: the perceptron of the sum of the three arrays, with the weights and biases, all as the
    region finds them. -/
theorem final5 (c : Dev nD) :
    (dat5 V c).arrAt 7 cfg5.N = (Cert.Spec.mlp (Cert.Spec.sumU (V c (Pipeline.arrRef spec5 0)) (V c (Pipeline.arrRef spec5 1)) (V c (Pipeline.arrRef spec5 2))) (V c (Pipeline.arrRef spec5 3)) (V c (Pipeline.arrRef spec5 4)) (V c (Pipeline.arrRef spec5 5)) (V c (Pipeline.arrRef spec5 6))) :=
  (dat5 V c).arrAt_eq_of_cover 7 _ (fun t _ => flushed5_eq V c t) cover5

end Cert.KernelIdeal.RegionValue

end
-- ==== Proof.RefRunA.lean ====
/-
  The reference program's @main as a straight line of its 192 array operations, each outlined function's
  operations listed where it is called, over that call's buffers and at their element and shape types, cut into eight consecutive stages; and its run:
  every weakly fair execution terminates, each buffer ending at the fold of the operations over its launch contents.
-/
import proofs.«160102_j20727512170682_1_alg».proof.Proof.Gen.ReferenceIdeal
import Idealize.ShloMosaic.Lib.StableHlo.Run
import Idealize.ShloMosaic.Lib.Pipeline.Regions

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

/-! ## Bookkeeping lemmas: a property of every operation of two lines holds of their concatenation; an operation
    whose result buffer is in a list writes inside that list -/

theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The fold over two lines in a row is the fold over the second of the fold over the first. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

section Writes
variable {τ : Topo} {sig : RefSig} {Val : EltTy → Type}

theorem single_sub_of_mem {y : Ref sig .tc} {W : List (Ref sig .tc)} (h : y ∈ W) :
    ({Proc.devRef (τ := τ) .tc y} : Finset (DevRef τ sig)) ⊆ (W.map (Proc.devRef (τ := τ) .tc)).toFinset := by
  rw [Finset.singleton_subset_iff, List.mem_toFinset]; exact List.mem_map_of_mem h

theorem nullary_w {y : Ref sig .tc} {v : y.ty.Contents Val} {hy} {W : List (Ref sig .tc)} (h : y ∈ W) :
    (nullary (τ := τ) y v hy).writes ⊆ (W.map (Proc.devRef (τ := τ) .tc)).toFinset := single_sub_of_mem h
theorem unary_w {x y : Ref sig .tc} {f : x.ty.Contents Val → y.ty.Contents Val} {hx hy} {W : List (Ref sig .tc)} (h : y ∈ W) :
    (unary (τ := τ) x y f hx hy).writes ⊆ (W.map (Proc.devRef (τ := τ) .tc)).toFinset := single_sub_of_mem h
theorem binary_w {a b y : Ref sig .tc} {f : a.ty.Contents Val → b.ty.Contents Val → y.ty.Contents Val} {ha hb hy}
    {W : List (Ref sig .tc)} (h : y ∈ W) :
    (binary (τ := τ) a b y f ha hb hy).writes ⊆ (W.map (Proc.devRef (τ := τ) .tc)).toFinset := single_sub_of_mem h
theorem ternary_w {c a b y : Ref sig .tc} {f : c.ty.Contents Val → a.ty.Contents Val → b.ty.Contents Val → y.ty.Contents Val}
    {hc ha hb hy} {W : List (Ref sig .tc)} (h : y ∈ W) :
    (ternary (τ := τ) c a b y f hc ha hb hy).writes ⊆ (W.map (Proc.devRef (τ := τ) .tc)).toFinset := single_sub_of_mem h
theorem reshape_w {x y : Ref sig .tc} {he hn hx hy} {W : List (Ref sig .tc)} (h : y ∈ W) :
    (reshape (τ := τ) (Val := Val) x y he hn hx hy).writes ⊆ (W.map (Proc.devRef (τ := τ) .tc)).toFinset := single_sub_of_mem h

end Writes

variable {F : FTy → Type} [FloatOps F]

/-- Two columns of 8192 indices side by side: the `[8192, 2]` array of index pairs. -/
def cat2 (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

/-! ## The eight stages -/

/-- Stage A, 22 operations: the first hop's user side: the sparse product of the item table, the degree-scaled residual and the rectifier. -/
abbrev sA : List (HloOp τ sig (Elt F)) :=
  [ StableHlo.unary main_arg6 main_v0 (broadcastInDim S1000000x1 ![0] bcast_S1000000_S1000000x1_0 : (⟨S1000000, .f32⟩ : BufTy).Contents (Elt F) → (⟨S1000000x1, .f32⟩ : BufTy).Contents (Elt F)),
    StableHlo.nullary main_c (constantI S_ 32 0#32),
    StableHlo.unary main_c main_v1 (broadcastInDim S1000000 ![] bcast_S_S1000000 : (⟨S_, .i32⟩ : BufTy).Contents (Elt F) → (⟨S1000000, .i32⟩ : BufTy).Contents (Elt F)),
    StableHlo.binary main_arg5 main_v1 main_v2 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v3 (broadcastInDim S1000000 ![] bcast_S_S1000000 : (⟨S_, .i32⟩ : BufTy).Contents (Elt F) → (⟨S1000000, .i32⟩ : BufTy).Contents (Elt F)),
    StableHlo.binary main_arg5 main_v3 main_v4 (addi : (⟨S1000000, .i32⟩ : BufTy).Contents (Elt F) → (⟨S1000000, .i32⟩ : BufTy).Contents (Elt F) → (⟨S1000000, .i32⟩ : BufTy).Contents (Elt F)),
    StableHlo.ternary main_v2 main_v4 main_arg5 main_v5 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v5 main_v6 (broadcastInDim S1000000x1 ![0] bcast_S1000000_S1000000x1_0 : (⟨S1000000, .i32⟩ : BufTy).Contents (Elt F) → (⟨S1000000x1, .i32⟩ : BufTy).Contents (Elt F)),
    StableHlo.binary main_arg1 main_v6 main_v7 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v0 main_v8 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v8 main_v7 main_v9 (mulf : (⟨S1000000x64, .f32⟩ : BufTy).Contents (Elt F) → (⟨S1000000x64, .f32⟩ : BufTy).Contents (Elt F) → (⟨S1000000x64, .f32⟩ : BufTy).Contents (Elt F)),
    StableHlo.nullary main_cst (constant S_ .f32 0x00000000#32),
    StableHlo.unary main_cst main_v10 (broadcastInDim S200000x64 ![] bcast_S_S200000x64 : (⟨S_, .f32⟩ : BufTy).Contents (Elt F) → (⟨S200000x64, .f32⟩ : BufTy).Contents (Elt F)),
    StableHlo.unary main_arg4 main_v11 (broadcastInDim S1000000x1 ![0] bcast_S1000000_S1000000x1_0 : (⟨S1000000, .i32⟩ : BufTy).Contents (Elt F) → (⟨S1000000x1, .i32⟩ : BufTy).Contents (Elt F)),
    StableHlo.ternary main_v10 main_v11 main_v9 main_v12 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    StableHlo.unary main_arg2 main_v13 (broadcastInDim S200000x64 ![0, 1] bcast_S200000x1_S200000x64_0_1 : (⟨S200000x1, .f32⟩ : BufTy).Contents (Elt F) → (⟨S200000x64, .f32⟩ : BufTy).Contents (Elt F)),
    StableHlo.binary main_arg0 main_v13 main_v14 (mulf : (⟨S200000x64, .f32⟩ : BufTy).Contents (Elt F) → (⟨S200000x64, .f32⟩ : BufTy).Contents (Elt F) → (⟨S200000x64, .f32⟩ : BufTy).Contents (Elt F)),
    StableHlo.binary main_v12 main_v14 main_v15 (addf : (⟨S200000x64, .f32⟩ : BufTy).Contents (Elt F) → (⟨S200000x64, .f32⟩ : BufTy).Contents (Elt F) → (⟨S200000x64, .f32⟩ : BufTy).Contents (Elt F)),
    StableHlo.nullary main_call0_cst (constant S_ .f32 0x00000000#32),
    StableHlo.unary main_call0_cst main_call0_v0 (broadcastInDim S200000x64 ![] bcast_S_S200000x64 : (⟨S_, .f32⟩ : BufTy).Contents (Elt F) → (⟨S200000x64, .f32⟩ : BufTy).Contents (Elt F)),
    StableHlo.binary main_v15 main_call0_v0 main_v16 (maximumf : (⟨S200000x64, .f32⟩ : BufTy).Contents (Elt F) → (⟨S200000x64, .f32⟩ : BufTy).Contents (Elt F) → (⟨S200000x64, .f32⟩ : BufTy).Contents (Elt F)) ]

/-- The buffers stage A writes, one per operation. -/
abbrev wA : List (Ref sig .tc) :=
  [main_v0, main_c, main_v1, main_v2, main_c_0, main_v3, main_v4, main_v5, main_v6, main_v7, main_v8, main_v9, main_cst, main_v10, main_v11, main_v12, main_v13, main_v14, main_v15, main_call0_cst, main_call0_v0, main_v16]

theorem sA_sub : (sA : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩

theorem sA_fresh : (sA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem sA_writes : (sA : List (HloOp τ sig (Elt F))).Forall fun op => op.writes ⊆ (wA.map (Proc.devRef (τ := τ) .tc)).toFinset :=
  ⟨unary_w (by decide), nullary_w (by decide), unary_w (by decide), binary_w (by decide), nullary_w (by decide), unary_w (by decide), binary_w (by decide), ternary_w (by decide), unary_w (by decide), binary_w (by decide), unary_w (by decide), binary_w (by decide), nullary_w (by decide), unary_w (by decide), unary_w (by decide), ternary_w (by decide), unary_w (by decide), binary_w (by decide), binary_w (by decide), nullary_w (by decide), unary_w (by decide), binary_w (by decide)⟩

/-- A buffer stage A does not write keeps its contents. -/
theorem sA_keep (W : Valuation τ sig (Elt F)) {r : Ref sig .tc} (hr : r ∉ wA) :
    after sA W (no_index (Proc.devRef .tc r)) = W (Proc.devRef .tc r) :=
  after_of_writes_sub sA W sA_writes hr

/-- Stage B, 22 operations: the first hop's item side. -/
abbrev sB : List (HloOp τ sig (Elt F)) :=
  [ StableHlo.unary main_arg6 main_v17 (broadcastInDim S1000000x1 ![0] bcast_S1000000_S1000000x1_0 : (⟨S1000000, .f32⟩ : BufTy).Contents (Elt F) → (⟨S1000000x1, .f32⟩ : BufTy).Contents (Elt F)),
    StableHlo.nullary main_c_1 (constantI S_ 32 0#32),
    StableHlo.unary main_c_1 main_v18 (broadcastInDim S1000000 ![] bcast_S_S1000000 : (⟨S_, .i32⟩ : BufTy).Contents (Elt F) → (⟨S1000000, .i32⟩ : BufTy).Contents (Elt F)),
    StableHlo.binary main_arg4 main_v18 main_v19 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 200000#32),
    StableHlo.unary main_c_2 main_v20 (broadcastInDim S1000000 ![] bcast_S_S1000000 : (⟨S_, .i32⟩ : BufTy).Contents (Elt F) → (⟨S1000000, .i32⟩ : BufTy).Contents (Elt F)),
    StableHlo.binary main_arg4 main_v20 main_v21 (addi : (⟨S1000000, .i32⟩ : BufTy).Contents (Elt F) → (⟨S1000000, .i32⟩ : BufTy).Contents (Elt F) → (⟨S1000000, .i32⟩ : BufTy).Contents (Elt F)),
    StableHlo.ternary main_v19 main_v21 main_arg4 main_v22 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v22 main_v23 (broadcastInDim S1000000x1 ![0] bcast_S1000000_S1000000x1_0 : (⟨S1000000, .i32⟩ : BufTy).Contents (Elt F) → (⟨S1000000x1, .i32⟩ : BufTy).Contents (Elt F)),
    StableHlo.binary main_arg0 main_v23 main_v24 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    StableHlo.unary main_v17 main_v25 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v25 main_v24 main_v26 (mulf : (⟨S1000000x64, .f32⟩ : BufTy).Contents (Elt F) → (⟨S1000000x64, .f32⟩ : BufTy).Contents (Elt F) → (⟨S1000000x64, .f32⟩ : BufTy).Contents (Elt F)),
    StableHlo.nullary main_cst_3 (constant S_ .f32 0x00000000#32),
    StableHlo.unary main_cst_3 main_v27 (broadcastInDim S100000x64 ![] bcast_S_S100000x64 : (⟨S_, .f32⟩ : BufTy).Contents (Elt F) → (⟨S100000x64, .f32⟩ : BufTy).Contents (Elt F)),
    StableHlo.unary main_arg5 main_v28 (broadcastInDim S1000000x1 ![0] bcast_S1000000_S1000000x1_0 : (⟨S1000000, .i32⟩ : BufTy).Contents (Elt F) → (⟨S1000000x1, .i32⟩ : BufTy).Contents (Elt F)),
    StableHlo.ternary main_v27 main_v28 main_v26 main_v29 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg3 main_v30 (broadcastInDim S100000x64 ![0, 1] bcast_S100000x1_S100000x64_0_1 : (⟨S100000x1, .f32⟩ : BufTy).Contents (Elt F) → (⟨S100000x64, .f32⟩ : BufTy).Contents (Elt F)),
    StableHlo.binary main_arg1 main_v30 main_v31 (mulf : (⟨S100000x64, .f32⟩ : BufTy).Contents (Elt F) → (⟨S100000x64, .f32⟩ : BufTy).Contents (Elt F) → (⟨S100000x64, .f32⟩ : BufTy).Contents (Elt F)),
    StableHlo.binary main_v29 main_v31 main_v32 (addf : (⟨S100000x64, .f32⟩ : BufTy).Contents (Elt F) → (⟨S100000x64, .f32⟩ : BufTy).Contents (Elt F) → (⟨S100000x64, .f32⟩ : BufTy).Contents (Elt F)),
    StableHlo.nullary main_call1_cst (constant S_ .f32 0x00000000#32),
    StableHlo.unary main_call1_cst main_call1_v0 (broadcastInDim S100000x64 ![] bcast_S_S100000x64 : (⟨S_, .f32⟩ : BufTy).Contents (Elt F) → (⟨S100000x64, .f32⟩ : BufTy).Contents (Elt F)),
    StableHlo.binary main_v32 main_call1_v0 main_v33 (maximumf : (⟨S100000x64, .f32⟩ : BufTy).Contents (Elt F) → (⟨S100000x64, .f32⟩ : BufTy).Contents (Elt F) → (⟨S100000x64, .f32⟩ : BufTy).Contents (Elt F)) ]

/-- The buffers stage B writes, one per operation. -/
abbrev wB : List (Ref sig .tc) :=
  [main_v17, main_c_1, main_v18, main_v19, main_c_2, main_v20, main_v21, main_v22, main_v23, main_v24, main_v25, main_v26, main_cst_3, main_v27, main_v28, main_v29, main_v30, main_v31, main_v32, main_call1_cst, main_call1_v0, main_v33]

theorem sB_sub : (sB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩

theorem sB_fresh : (sB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem sB_writes : (sB : List (HloOp τ sig (Elt F))).Forall fun op => op.writes ⊆ (wB.map (Proc.devRef (τ := τ) .tc)).toFinset :=
  ⟨unary_w (by decide), nullary_w (by decide), unary_w (by decide), binary_w (by decide), nullary_w (by decide), unary_w (by decide), binary_w (by decide), ternary_w (by decide), unary_w (by decide), binary_w (by decide), unary_w (by decide), binary_w (by decide), nullary_w (by decide), unary_w (by decide), unary_w (by decide), ternary_w (by decide), unary_w (by decide), binary_w (by decide), binary_w (by decide), nullary_w (by decide), unary_w (by decide), binary_w (by decide)⟩

/-- A buffer stage B does not write keeps its contents. -/
theorem sB_keep (W : Valuation τ sig (Elt F)) {r : Ref sig .tc} (hr : r ∉ wB) :
    after sB W (no_index (Proc.devRef .tc r)) = W (Proc.devRef .tc r) :=
  after_of_writes_sub sB W sB_writes hr

/-- Stage C, 22 operations: the second hop's user side, reading both first-hop results. -/
abbrev sC : List (HloOp τ sig (Elt F)) :=
  [ StableHlo.unary main_arg6 main_v34 (broadcastInDim S1000000x1 ![0] bcast_S1000000_S1000000x1_0 : (⟨S1000000, .f32⟩ : BufTy).Contents (Elt F) → (⟨S1000000x1, .f32⟩ : BufTy).Contents (Elt F)),
    StableHlo.nullary main_c_4 (constantI S_ 32 0#32),
    StableHlo.unary main_c_4 main_v35 (broadcastInDim S1000000 ![] bcast_S_S1000000 : (⟨S_, .i32⟩ : BufTy).Contents (Elt F) → (⟨S1000000, .i32⟩ : BufTy).Contents (Elt F)),
    StableHlo.binary main_arg5 main_v35 main_v36 (cmpi .slt : (⟨S1000000, .i32⟩ : BufTy).Contents (Elt F) → (⟨S1000000, .i32⟩ : BufTy).Contents (Elt F) → (⟨S1000000, .i1⟩ : BufTy).Contents (Elt F)),
    StableHlo.nullary main_c_5 (constantI S_ 32 100000#32),
    StableHlo.unary main_c_5 main_v37 (broadcastInDim S1000000 ![] bcast_S_S1000000 : (⟨S_, .i32⟩ : BufTy).Contents (Elt F) → (⟨S1000000, .i32⟩ : BufTy).Contents (Elt F)),
    StableHlo.binary main_arg5 main_v37 main_v38 (addi : (⟨S1000000, .i32⟩ : BufTy).Contents (Elt F) → (⟨S1000000, .i32⟩ : BufTy).Contents (Elt F) → (⟨S1000000, .i32⟩ : BufTy).Contents (Elt F)),
    StableHlo.ternary main_v36 main_v38 main_arg5 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v39 main_v40 (broadcastInDim S1000000x1 ![0] bcast_S1000000_S1000000x1_0 : (⟨S1000000, .i32⟩ : BufTy).Contents (Elt F) → (⟨S1000000x1, .i32⟩ : BufTy).Contents (Elt F)),
    StableHlo.binary main_v33 main_v40 main_v41 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v34 main_v42 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v42 main_v41 main_v43 (mulf : (⟨S1000000x64, .f32⟩ : BufTy).Contents (Elt F) → (⟨S1000000x64, .f32⟩ : BufTy).Contents (Elt F) → (⟨S1000000x64, .f32⟩ : BufTy).Contents (Elt F)),
    StableHlo.nullary main_cst_6 (constant S_ .f32 0x00000000#32),
    StableHlo.unary main_cst_6 main_v44 (broadcastInDim S200000x64 ![] bcast_S_S200000x64 : (⟨S_, .f32⟩ : BufTy).Contents (Elt F) → (⟨S200000x64, .f32⟩ : BufTy).Contents (Elt F)),
    StableHlo.unary main_arg4 main_v45 (broadcastInDim S1000000x1 ![0] bcast_S1000000_S1000000x1_0 : (⟨S1000000, .i32⟩ : BufTy).Contents (Elt F) → (⟨S1000000x1, .i32⟩ : BufTy).Contents (Elt F)),
    StableHlo.ternary main_v44 main_v45 main_v43 main_v46 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    StableHlo.unary main_arg2 main_v47 (broadcastInDim S200000x64 ![0, 1] bcast_S200000x1_S200000x64_0_1 : (⟨S200000x1, .f32⟩ : BufTy).Contents (Elt F) → (⟨S200000x64, .f32⟩ : BufTy).Contents (Elt F)),
    StableHlo.binary main_v16 main_v47 main_v48 (mulf : (⟨S200000x64, .f32⟩ : BufTy).Contents (Elt F) → (⟨S200000x64, .f32⟩ : BufTy).Contents (Elt F) → (⟨S200000x64, .f32⟩ : BufTy).Contents (Elt F)),
    StableHlo.binary main_v46 main_v48 main_v49 (addf : (⟨S200000x64, .f32⟩ : BufTy).Contents (Elt F) → (⟨S200000x64, .f32⟩ : BufTy).Contents (Elt F) → (⟨S200000x64, .f32⟩ : BufTy).Contents (Elt F)),
    StableHlo.nullary main_call2_cst (constant S_ .f32 0x00000000#32),
    StableHlo.unary main_call2_cst main_call2_v0 (broadcastInDim S200000x64 ![] bcast_S_S200000x64 : (⟨S_, .f32⟩ : BufTy).Contents (Elt F) → (⟨S200000x64, .f32⟩ : BufTy).Contents (Elt F)),
    StableHlo.binary main_v49 main_call2_v0 main_v50 (maximumf : (⟨S200000x64, .f32⟩ : BufTy).Contents (Elt F) → (⟨S200000x64, .f32⟩ : BufTy).Contents (Elt F) → (⟨S200000x64, .f32⟩ : BufTy).Contents (Elt F)) ]

/-- The buffers stage C writes, one per operation. -/
abbrev wC : List (Ref sig .tc) :=
  [main_v34, main_c_4, main_v35, main_v36, main_c_5, main_v37, main_v38, main_v39, main_v40, main_v41, main_v42, main_v43, main_cst_6, main_v44, main_v45, main_v46, main_v47, main_v48, main_v49, main_call2_cst, main_call2_v0, main_v50]

theorem sC_sub : (sC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩

theorem sC_fresh : (sC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem sC_writes : (sC : List (HloOp τ sig (Elt F))).Forall fun op => op.writes ⊆ (wC.map (Proc.devRef (τ := τ) .tc)).toFinset :=
  ⟨unary_w (by decide), nullary_w (by decide), unary_w (by decide), binary_w (by decide), nullary_w (by decide), unary_w (by decide), binary_w (by decide), ternary_w (by decide), unary_w (by decide), binary_w (by decide), unary_w (by decide), binary_w (by decide), nullary_w (by decide), unary_w (by decide), unary_w (by decide), ternary_w (by decide), unary_w (by decide), binary_w (by decide), binary_w (by decide), nullary_w (by decide), unary_w (by decide), binary_w (by decide)⟩

/-- A buffer stage C does not write keeps its contents. -/
theorem sC_keep (W : Valuation τ sig (Elt F)) {r : Ref sig .tc} (hr : r ∉ wC) :
    after sC W (no_index (Proc.devRef .tc r)) = W (Proc.devRef .tc r) :=
  after_of_writes_sub sC W sC_writes hr

/-- Stage D, 22 operations: the second hop's item side. -/
abbrev sD : List (HloOp τ sig (Elt F)) :=
  [ StableHlo.unary main_arg6 main_v51 (broadcastInDim S1000000x1 ![0] bcast_S1000000_S1000000x1_0 : (⟨S1000000, .f32⟩ : BufTy).Contents (Elt F) → (⟨S1000000x1, .f32⟩ : BufTy).Contents (Elt F)),
    StableHlo.nullary main_c_7 (constantI S_ 32 0#32),
    StableHlo.unary main_c_7 main_v52 (broadcastInDim S1000000 ![] bcast_S_S1000000 : (⟨S_, .i32⟩ : BufTy).Contents (Elt F) → (⟨S1000000, .i32⟩ : BufTy).Contents (Elt F)),
    StableHlo.binary main_arg4 main_v52 main_v53 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 200000#32),
    StableHlo.unary main_c_8 main_v54 (broadcastInDim S1000000 ![] bcast_S_S1000000 : (⟨S_, .i32⟩ : BufTy).Contents (Elt F) → (⟨S1000000, .i32⟩ : BufTy).Contents (Elt F)),
    StableHlo.binary main_arg4 main_v54 main_v55 (addi : (⟨S1000000, .i32⟩ : BufTy).Contents (Elt F) → (⟨S1000000, .i32⟩ : BufTy).Contents (Elt F) → (⟨S1000000, .i32⟩ : BufTy).Contents (Elt F)),
    StableHlo.ternary main_v53 main_v55 main_arg4 main_v56 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v56 main_v57 (broadcastInDim S1000000x1 ![0] bcast_S1000000_S1000000x1_0 : (⟨S1000000, .i32⟩ : BufTy).Contents (Elt F) → (⟨S1000000x1, .i32⟩ : BufTy).Contents (Elt F)),
    StableHlo.binary main_v16 main_v57 main_v58 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    StableHlo.unary main_v51 main_v59 (broadcastInDim S1000000x64 ![0, 1] bcast_S1000000x1_S1000000x64_0_1 : (⟨S1000000x1, .f32⟩ : BufTy).Contents (Elt F) → (⟨S1000000x64, .f32⟩ : BufTy).Contents (Elt F)),
    StableHlo.binary main_v59 main_v58 main_v60 (mulf : (⟨S1000000x64, .f32⟩ : BufTy).Contents (Elt F) → (⟨S1000000x64, .f32⟩ : BufTy).Contents (Elt F) → (⟨S1000000x64, .f32⟩ : BufTy).Contents (Elt F)),
    StableHlo.nullary main_cst_9 (constant S_ .f32 0x00000000#32),
    StableHlo.unary main_cst_9 main_v61 (broadcastInDim S100000x64 ![] bcast_S_S100000x64 : (⟨S_, .f32⟩ : BufTy).Contents (Elt F) → (⟨S100000x64, .f32⟩ : BufTy).Contents (Elt F)),
    StableHlo.unary main_arg5 main_v62 (broadcastInDim S1000000x1 ![0] bcast_S1000000_S1000000x1_0 : (⟨S1000000, .i32⟩ : BufTy).Contents (Elt F) → (⟨S1000000x1, .i32⟩ : BufTy).Contents (Elt F)),
    StableHlo.ternary main_v61 main_v62 main_v60 main_v63 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_arg3 main_v64 (broadcastInDim S100000x64 ![0, 1] bcast_S100000x1_S100000x64_0_1 : (⟨S100000x1, .f32⟩ : BufTy).Contents (Elt F) → (⟨S100000x64, .f32⟩ : BufTy).Contents (Elt F)),
    StableHlo.binary main_v33 main_v64 main_v65 (mulf : (⟨S100000x64, .f32⟩ : BufTy).Contents (Elt F) → (⟨S100000x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)),
    StableHlo.nullary main_call3_cst (constant S_ .f32 0x00000000#32),
    StableHlo.unary main_call3_cst main_call3_v0 (broadcastInDim S100000x64 ![] bcast_S_S100000x64 : (⟨S_, .f32⟩ : BufTy).Contents (Elt F) → (⟨S100000x64, .f32⟩ : BufTy).Contents (Elt F)),
    StableHlo.binary main_v66 main_call3_v0 main_v67 (maximumf : (⟨S100000x64, .f32⟩ : BufTy).Contents (Elt F) → (⟨S100000x64, .f32⟩ : BufTy).Contents (Elt F) → (⟨S100000x64, .f32⟩ : BufTy).Contents (Elt F)) ]

/-- The buffers stage D writes, one per operation. -/
abbrev wD : List (Ref sig .tc) :=
  [main_v51, main_c_7, main_v52, main_v53, main_c_8, main_v54, main_v55, main_v56, main_v57, main_v58, main_v59, main_v60, main_cst_9, main_v61, main_v62, main_v63, main_v64, main_v65, main_v66, main_call3_cst, main_call3_v0, main_v67]

theorem sD_sub : (sD : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., binary_bufs_sub ..⟩

theorem sD_fresh : (sD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem sD_writes : (sD : List (HloOp τ sig (Elt F))).Forall fun op => op.writes ⊆ (wD.map (Proc.devRef (τ := τ) .tc)).toFinset :=
  ⟨unary_w (by decide), nullary_w (by decide), unary_w (by decide), binary_w (by decide), nullary_w (by decide), unary_w (by decide), binary_w (by decide), ternary_w (by decide), unary_w (by decide), binary_w (by decide), unary_w (by decide), binary_w (by decide), nullary_w (by decide), unary_w (by decide), unary_w (by decide), ternary_w (by decide), unary_w (by decide), binary_w (by decide), binary_w (by decide), nullary_w (by decide), unary_w (by decide), binary_w (by decide)⟩

/-- A buffer stage D does not write keeps its contents. -/
theorem sD_keep (W : Valuation τ sig (Elt F)) {r : Ref sig .tc} (hr : r ∉ wD) :
    after sD W (no_index (Proc.devRef .tc r)) = W (Proc.devRef .tc r) :=
  after_of_writes_sub sD W sD_writes hr

/-- Stage E, 4 operations: the two three-way sums. -/
abbrev sE : List (HloOp τ sig (Elt F)) :=
  [ StableHlo.binary main_arg0 main_v16 main_v68 (addf : (⟨S200000x64, .f32⟩ : BufTy).Contents (Elt F) → (⟨S200000x64, .f32⟩ : BufTy).Contents (Elt F) → (⟨S200000x64, .f32⟩ : BufTy).Contents (Elt F)),
    StableHlo.binary main_v68 main_v50 main_v69 (addf : (⟨S200000x64, .f32⟩ : BufTy).Contents (Elt F) → (⟨S200000x64, .f32⟩ : BufTy).Contents (Elt F) → (⟨S200000x64, .f32⟩ : BufTy).Contents (Elt F)),
    StableHlo.binary main_arg1 main_v33 main_v70 (addf : (⟨S100000x64, .f32⟩ : BufTy).Contents (Elt F) → (⟨S100000x64, .f32⟩ : BufTy).Contents (Elt F) → (⟨S100000x64, .f32⟩ : BufTy).Contents (Elt F)),
    StableHlo.binary main_v70 main_v67 main_v71 (addf : (⟨S100000x64, .f32⟩ : BufTy).Contents (Elt F) → (⟨S100000x64, .f32⟩ : BufTy).Contents (Elt F) → (⟨S100000x64, .f32⟩ : BufTy).Contents (Elt F)) ]

/-- The buffers stage E writes, one per operation. -/
abbrev wE : List (Ref sig .tc) :=
  [main_v68, main_v69, main_v70, main_v71]

theorem sE_sub : (sE : List (HloOp τ sig (Elt F))).Forall fun op => op.bufs ⊆ tcRefs τ sig :=
  ⟨binary_bufs_sub .., binary_bufs_sub .., binary_bufs_sub .., binary_bufs_sub ..⟩

theorem sE_fresh : (sE : List (HloOp τ sig (Elt F))).Forall fun op => op.fresh = ∅ :=
  ⟨rfl, rfl, rfl, rfl⟩

theorem sE_writes : (sE : List (HloOp τ sig (Elt F))).Forall fun op => op.writes ⊆ (wE.map (Proc.devRef (τ := τ) .tc)).toFinset :=
  ⟨binary_w (by decide), binary_w (by decide), binary_w (by decide), binary_w (by decide)⟩

/-- A buffer stage E does not write keeps its contents. -/
theorem sE_keep (W : Valuation τ sig (Elt F)) {r : Ref sig .tc} (hr : r ∉ wE) :
    after sE W (no_index (Proc.devRef .tc r)) = W (Proc.devRef .tc r) :=
  after_of_writes_sub sE W sE_writes hr

/-- Stage F, 24 operations: the two dense layers, each followed by its leaky rectifier. -/
abbrev sF : List (HloOp τ sig (Elt F)) :=
  [ StableHlo.binary main_v69 main_arg7 main_v72 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    StableHlo.unary main_arg8 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S200000x128 ![0, 1] bcast_S1x128_S200000x128_0_1 : (⟨S1x128, .f32⟩ : BufTy).Contents (Elt F) → (⟨S200000x128, .f32⟩ : BufTy).Contents (Elt F)),
    StableHlo.binary main_v72 main_v74 main_v75 (addf : (⟨S200000x128, .f32⟩ : BufTy).Contents (Elt F) → (⟨S200000x128, .f32⟩ : BufTy).Contents (Elt F) → (⟨S200000x128, .f32⟩ : BufTy).Contents (Elt F)),
    StableHlo.nullary main_cst_10 (constant S_ .f32 0x3DCCCCCD#32),
    StableHlo.nullary main_call4_cst (constant S_ .f32 0x00000000#32),
    StableHlo.unary main_call4_cst main_call4_v0 (broadcastInDim S200000x128 ![] bcast_S_S200000x128 : (⟨S_, .f32⟩ : BufTy).Contents (Elt F) → (⟨S200000x128, .f32⟩ : BufTy).Contents (Elt F)),
    StableHlo.binary main_v75 main_call4_v0 main_call4_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_10 main_call4_v2 (id : (⟨S_, .f32⟩ : BufTy).Contents (Elt F) → (⟨S_, .f32⟩ : BufTy).Contents (Elt F)),
    StableHlo.unary main_call4_v2 main_call4_v3 (broadcastInDim S200000x128 ![] bcast_S_S200000x128 : (⟨S_, .f32⟩ : BufTy).Contents (Elt F) → (⟨S200000x128, .f32⟩ : BufTy).Contents (Elt F)),
    StableHlo.binary main_call4_v3 main_v75 main_call4_v4 (mulf : (⟨S200000x128, .f32⟩ : BufTy).Contents (Elt F) → (⟨S200000x128, .f32⟩ : BufTy).Contents (Elt F) → (⟨S200000x128, .f32⟩ : BufTy).Contents (Elt F)),
    StableHlo.ternary main_call4_v1 main_v75 main_call4_v4 main_v76 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)),
    StableHlo.binary main_v76 main_arg9 main_v77 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.unary main_arg10 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S200000x64 ![0, 1] bcast_S1x64_S200000x64_0_1 : (⟨S1x64, .f32⟩ : BufTy).Contents (Elt F) → (⟨S200000x64, .f32⟩ : BufTy).Contents (Elt F)),
    StableHlo.binary main_v77 main_v79 main_v80 (addf : (⟨S200000x64, .f32⟩ : BufTy).Contents (Elt F) → (⟨S200000x64, .f32⟩ : BufTy).Contents (Elt F) → (⟨S200000x64, .f32⟩ : BufTy).Contents (Elt F)),
    StableHlo.nullary main_cst_11 (constant S_ .f32 0x3DCCCCCD#32),
    StableHlo.nullary main_call5_cst (constant S_ .f32 0x00000000#32),
    StableHlo.unary main_call5_cst main_call5_v0 (broadcastInDim S200000x64 ![] bcast_S_S200000x64 : (⟨S_, .f32⟩ : BufTy).Contents (Elt F) → (⟨S200000x64, .f32⟩ : BufTy).Contents (Elt F)),
    StableHlo.binary main_v80 main_call5_v0 main_call5_v1 (cmpf .oge : (⟨S200000x64, .f32⟩ : BufTy).Contents (Elt F) → (⟨S200000x64, .f32⟩ : BufTy).Contents (Elt F) → (⟨S200000x64, .i1⟩ : BufTy).Contents (Elt F)),
    StableHlo.unary main_cst_11 main_call5_v2 (id : (⟨S_, .f32⟩ : BufTy).Contents (Elt F) → (⟨S_, .f32⟩ : BufTy).Contents (Elt F)),
    StableHlo.unary main_call5_v2 main_call5_v3 (broadcastInDim S200000x64 ![] bcast_S_S200000x64 : (⟨S_, .f32⟩ : BufTy).Contents (Elt F) → (⟨S200000x64, .f32⟩ : BufTy).Contents (Elt F)),
    StableHlo.binary main_call5_v3 main_v80 main_call5_v4 (mulf : (⟨S200000x64, .f32⟩ : BufTy).Contents (Elt F) → (⟨S200000x64, .f32⟩ : BufTy).Contents (Elt F) → (⟨S200000x64, .f32⟩ : BufTy).Contents (Elt F)),
    StableHlo.ternary main_call5_v1 main_v80 main_call5_v4 main_v81 (select : (⟨S200000x64, .i1⟩ : BufTy).Contents (Elt F) → (⟨S200000x64, .f32⟩ : BufTy).Contents (Elt F) → (⟨S200000x64, .f32⟩ : BufTy).Contents (Elt F) → (⟨S200000x64, .f32⟩ : BufTy).Contents (Elt F)) ]

/-- The buffers stage F writes, one per operation. -/
abbrev wF : List (Ref sig .tc) :=
  [main_v72, main_v73, main_v74, main_v75, main_cst_10, main_call4_cst, main_call4_v0, main_call4_v1, main_call4_v2, main_call4_v3, main_call4_v4, main_v76, main_v77, main_v78, main_v79, main_v80, main_cst_11, main_call5_cst, main_call5_v0, main_call5_v1, main_call5_v2, main_call5_v3, main_call5_v4, main_v81]

theorem sF_sub : (sF : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem sF_fresh : (sF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem sF_writes : (sF : List (HloOp τ sig (Elt F))).Forall fun op => op.writes ⊆ (wF.map (Proc.devRef (τ := τ) .tc)).toFinset :=
  ⟨binary_w (by decide), unary_w (by decide), unary_w (by decide), binary_w (by decide), nullary_w (by decide), nullary_w (by decide), unary_w (by decide), binary_w (by decide), unary_w (by decide), unary_w (by decide), binary_w (by decide), ternary_w (by decide), binary_w (by decide), unary_w (by decide), unary_w (by decide), binary_w (by decide), nullary_w (by decide), nullary_w (by decide), unary_w (by decide), binary_w (by decide), unary_w (by decide), unary_w (by decide), binary_w (by decide), ternary_w (by decide)⟩

/-- A buffer stage F does not write keeps its contents. -/
theorem sF_keep (W : Valuation τ sig (Elt F)) {r : Ref sig .tc} (hr : r ∉ wF) :
    after sF W (no_index (Proc.devRef .tc r)) = W (Proc.devRef .tc r) :=
  after_of_writes_sub sF W sF_writes hr

/-- Stage G, 24 operations: the gathers of the sampled user and item rows, their inner products, and the sign test of the sampled user indices. -/
abbrev sG : List (HloOp τ sig (Elt F)) :=
  [ StableHlo.nullary main_c_12 (constantI S_ 32 0#32),
    StableHlo.unary main_c_12 main_v82 (broadcastInDim S8192 ![] bcast_S_S8192 : (⟨S_, .i32⟩ : BufTy).Contents (Elt F) → (⟨S8192, .i32⟩ : BufTy).Contents (Elt F)),
    StableHlo.binary main_arg14 main_v82 main_v83 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 200000#32),
    StableHlo.unary main_c_13 main_v84 (broadcastInDim S8192 ![] bcast_S_S8192 : (⟨S_, .i32⟩ : BufTy).Contents (Elt F) → (⟨S8192, .i32⟩ : BufTy).Contents (Elt F)),
    StableHlo.binary main_arg14 main_v84 main_v85 (addi : (⟨S8192, .i32⟩ : BufTy).Contents (Elt F) → (⟨S8192, .i32⟩ : BufTy).Contents (Elt F) → (⟨S8192, .i32⟩ : BufTy).Contents (Elt F)),
    StableHlo.ternary main_v83 main_v85 main_arg14 main_v86 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v86 main_v87 (broadcastInDim S8192x1 ![0] bcast_S8192_S8192x1_0 : (⟨S8192, .i32⟩ : BufTy).Contents (Elt F) → (⟨S8192x1, .i32⟩ : BufTy).Contents (Elt F)),
    StableHlo.binary main_v81 main_v87 main_v88 ((fun x i => Host.gather gather_S200000x64_S8192x1_S8192x64_1_0_n_n_0_1_164 x i) : (⟨S200000x64, .f32⟩ : BufTy).Contents (Elt F) → (⟨S8192x1, .i32⟩ : BufTy).Contents (Elt F) → (⟨S8192x64, .f32⟩ : BufTy).Contents (Elt F)),
    StableHlo.nullary main_c_14 (constantI S_ 32 0#32),
    StableHlo.unary main_c_14 main_v89 (broadcastInDim S8192 ![] bcast_S_S8192 : (⟨S_, .i32⟩ : BufTy).Contents (Elt F) → (⟨S8192, .i32⟩ : BufTy).Contents (Elt F)),
    StableHlo.binary main_arg15 main_v89 main_v90 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 100000#32),
    StableHlo.unary main_c_15 main_v91 (broadcastInDim S8192 ![] bcast_S_S8192 : (⟨S_, .i32⟩ : BufTy).Contents (Elt F) → (⟨S8192, .i32⟩ : BufTy).Contents (Elt F)),
    StableHlo.binary main_arg15 main_v91 main_v92 (addi : (⟨S8192, .i32⟩ : BufTy).Contents (Elt F) → (⟨S8192, .i32⟩ : BufTy).Contents (Elt F) → (⟨S8192, .i32⟩ : BufTy).Contents (Elt F)),
    StableHlo.ternary main_v90 main_v92 main_arg15 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v93 main_v94 (broadcastInDim S8192x1 ![0] bcast_S8192_S8192x1_0 : (⟨S8192, .i32⟩ : BufTy).Contents (Elt F) → (⟨S8192x1, .i32⟩ : BufTy).Contents (Elt F)),
    StableHlo.binary main_v71 main_v94 main_v95 ((fun x i => Host.gather gather_S100000x64_S8192x1_S8192x64_1_0_n_n_0_1_164 x i) : (⟨S100000x64, .f32⟩ : BufTy).Contents (Elt F) → (⟨S8192x1, .i32⟩ : BufTy).Contents (Elt F) → (⟨S8192x64, .f32⟩ : BufTy).Contents (Elt F)),
    StableHlo.binary main_v88 main_v95 main_v96 (mulf : (⟨S8192x64, .f32⟩ : BufTy).Contents (Elt F) → (⟨S8192x64, .f32⟩ : BufTy).Contents (Elt F) → (⟨S8192x64, .f32⟩ : BufTy).Contents (Elt F)),
    StableHlo.nullary main_cst_16 (constant S_ .f32 0x00000000#32),
    StableHlo.binary main_v96 main_cst_16 main_v97 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.nullary main_c_17 (constantI S_ 32 0#32),
    StableHlo.unary main_c_17 main_v98 (broadcastInDim S8192 ![] bcast_S_S8192 : (⟨S_, .i32⟩ : BufTy).Contents (Elt F) → (⟨S8192, .i32⟩ : BufTy).Contents (Elt F)),
    StableHlo.binary main_arg14 main_v98 main_v99 (cmpi .slt : (⟨S8192, .i32⟩ : BufTy).Contents (Elt F) → (⟨S8192, .i32⟩ : BufTy).Contents (Elt F) → (⟨S8192, .i1⟩ : BufTy).Contents (Elt F)) ]

/-- The buffers stage G writes, one per operation. -/
abbrev wG : List (Ref sig .tc) :=
  [main_c_12, main_v82, main_v83, main_c_13, main_v84, main_v85, main_v86, main_v87, main_v88, main_c_14, main_v89, main_v90, main_c_15, main_v91, main_v92, main_v93, main_v94, main_v95, main_v96, main_cst_16, main_v97, main_c_17, main_v98, main_v99]

theorem sG_sub : (sG : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub ..⟩

theorem sG_fresh : (sG : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem sG_writes : (sG : List (HloOp τ sig (Elt F))).Forall fun op => op.writes ⊆ (wG.map (Proc.devRef (τ := τ) .tc)).toFinset :=
  ⟨nullary_w (by decide), unary_w (by decide), binary_w (by decide), nullary_w (by decide), unary_w (by decide), binary_w (by decide), ternary_w (by decide), unary_w (by decide), binary_w (by decide), nullary_w (by decide), unary_w (by decide), binary_w (by decide), nullary_w (by decide), unary_w (by decide), binary_w (by decide), ternary_w (by decide), unary_w (by decide), binary_w (by decide), binary_w (by decide), nullary_w (by decide), binary_w (by decide), nullary_w (by decide), unary_w (by decide), binary_w (by decide)⟩

/-- A buffer stage G does not write keeps its contents. -/
theorem sG_keep (W : Valuation τ sig (Elt F)) {r : Ref sig .tc} (hr : r ∉ wG) :
    after sG W (no_index (Proc.devRef .tc r)) = W (Proc.devRef .tc r) :=
  after_of_writes_sub sG W sG_writes hr

/-- Stage H, 52 operations: the bias gathers, the prediction, the two penalties and the two losses. -/
abbrev sH : List (HloOp τ sig (Elt F)) :=
  [ StableHlo.nullary main_c_18 (constantI S_ 32 200000#32),
    StableHlo.unary main_c_18 main_v100 (broadcastInDim S8192 ![] bcast_S_S8192 : (⟨S_, .i32⟩ : BufTy).Contents (Elt F) → (⟨S8192, .i32⟩ : BufTy).Contents (Elt F)),
    StableHlo.binary main_arg14 main_v100 main_v101 (addi : (⟨S8192, .i32⟩ : BufTy).Contents (Elt F) → (⟨S8192, .i32⟩ : BufTy).Contents (Elt F) → (⟨S8192, .i32⟩ : BufTy).Contents (Elt F)),
    StableHlo.ternary main_v99 main_v101 main_arg14 main_v102 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_19 (constantI S_ 32 0#32),
    StableHlo.unary main_c_19 main_v103 (broadcastInDim S8192 ![] bcast_S_S8192 : (⟨S_, .i32⟩ : BufTy).Contents (Elt F) → (⟨S8192, .i32⟩ : BufTy).Contents (Elt F)),
    StableHlo.unary main_v103 main_v104 (id : (⟨S8192, .i32⟩ : BufTy).Contents (Elt F) → (⟨S8192, .i32⟩ : BufTy).Contents (Elt F)),
    StableHlo.unary main_v102 main_v105 (broadcastInDim S8192x1 ![0] bcast_S8192_S8192x1_0 : (⟨S8192, .i32⟩ : BufTy).Contents (Elt F) → (⟨S8192x1, .i32⟩ : BufTy).Contents (Elt F)),
    StableHlo.unary main_v104 main_v106 (broadcastInDim S8192x1 ![0] bcast_S8192_S8192x1_0 : (⟨S8192, .i32⟩ : BufTy).Contents (Elt F) → (⟨S8192x1, .i32⟩ : BufTy).Contents (Elt F)),
    StableHlo.binary main_v105 main_v106 main_v107 (cat2 : (⟨S8192x1, .i32⟩ : BufTy).Contents (Elt F) → (⟨S8192x1, .i32⟩ : BufTy).Contents (Elt F) → (⟨S8192x2, .i32⟩ : BufTy).Contents (Elt F)),
    StableHlo.binary main_arg11 main_v107 main_v108 ((fun x i => Host.gather gather_S200000x1_S8192x2_S8192_n_01_n_n_01_1_11 x i) : (⟨S200000x1, .f32⟩ : BufTy).Contents (Elt F) → (⟨S8192x2, .i32⟩ : BufTy).Contents (Elt F) → (⟨S8192, .f32⟩ : BufTy).Contents (Elt F)),
    StableHlo.binary main_v97 main_v108 main_v109 (addf : (⟨S8192, .f32⟩ : BufTy).Contents (Elt F) → (⟨S8192, .f32⟩ : BufTy).Contents (Elt F) → (⟨S8192, .f32⟩ : BufTy).Contents (Elt F)),
    StableHlo.nullary main_c_20 (constantI S_ 32 0#32),
    StableHlo.unary main_c_20 main_v110 (broadcastInDim S8192 ![] bcast_S_S8192 : (⟨S_, .i32⟩ : BufTy).Contents (Elt F) → (⟨S8192, .i32⟩ : BufTy).Contents (Elt F)),
    StableHlo.binary main_arg15 main_v110 main_v111 (cmpi .slt : (⟨S8192, .i32⟩ : BufTy).Contents (Elt F) → (⟨S8192, .i32⟩ : BufTy).Contents (Elt F) → (⟨S8192, .i1⟩ : BufTy).Contents (Elt F)),
    StableHlo.nullary main_c_21 (constantI S_ 32 100000#32),
    StableHlo.unary main_c_21 main_v112 (broadcastInDim S8192 ![] bcast_S_S8192 : (⟨S_, .i32⟩ : BufTy).Contents (Elt F) → (⟨S8192, .i32⟩ : BufTy).Contents (Elt F)),
    StableHlo.binary main_arg15 main_v112 main_v113 (addi : (⟨S8192, .i32⟩ : BufTy).Contents (Elt F) → (⟨S8192, .i32⟩ : BufTy).Contents (Elt F) → (⟨S8192, .i32⟩ : BufTy).Contents (Elt F)),
    StableHlo.ternary main_v111 main_v113 main_arg15 main_v114 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_22 (constantI S_ 32 0#32),
    StableHlo.unary main_c_22 main_v115 (broadcastInDim S8192 ![] bcast_S_S8192 : (⟨S_, .i32⟩ : BufTy).Contents (Elt F) → (⟨S8192, .i32⟩ : BufTy).Contents (Elt F)),
    StableHlo.unary main_v115 main_v116 (id : (⟨S8192, .i32⟩ : BufTy).Contents (Elt F) → (⟨S8192, .i32⟩ : BufTy).Contents (Elt F)),
    StableHlo.unary main_v114 main_v117 (broadcastInDim S8192x1 ![0] bcast_S8192_S8192x1_0 : (⟨S8192, .i32⟩ : BufTy).Contents (Elt F) → (⟨S8192x1, .i32⟩ : BufTy).Contents (Elt F)),
    StableHlo.unary main_v116 main_v118 (broadcastInDim S8192x1 ![0] bcast_S8192_S8192x1_0 : (⟨S8192, .i32⟩ : BufTy).Contents (Elt F) → (⟨S8192x1, .i32⟩ : BufTy).Contents (Elt F)),
    StableHlo.binary main_v117 main_v118 main_v119 (cat2 : (⟨S8192x1, .i32⟩ : BufTy).Contents (Elt F) → (⟨S8192x1, .i32⟩ : BufTy).Contents (Elt F) → (⟨S8192x2, .i32⟩ : BufTy).Contents (Elt F)),
    StableHlo.binary main_arg12 main_v119 main_v120 ((fun x i => Host.gather gather_S100000x1_S8192x2_S8192_n_01_n_n_01_1_11 x i) : (⟨S100000x1, .f32⟩ : BufTy).Contents (Elt F) → (⟨S8192x2, .i32⟩ : BufTy).Contents (Elt F) → (⟨S8192, .f32⟩ : BufTy).Contents (Elt F)),
    StableHlo.binary main_v109 main_v120 main_v121 (addf : (⟨S8192, .f32⟩ : BufTy).Contents (Elt F) → (⟨S8192, .f32⟩ : BufTy).Contents (Elt F) → (⟨S8192, .f32⟩ : BufTy).Contents (Elt F)),
    StableHlo.reshape main_arg13 main_v122 rfl shapeCasts_S1_S_,
    StableHlo.unary main_v122 main_v123 (broadcastInDim S8192 ![] bcast_S_S8192 : (⟨S_, .f32⟩ : BufTy).Contents (Elt F) → (⟨S8192, .f32⟩ : BufTy).Contents (Elt F)),
    StableHlo.binary main_v121 main_v123 main_v124 (addf : (⟨S8192, .f32⟩ : BufTy).Contents (Elt F) → (⟨S8192, .f32⟩ : BufTy).Contents (Elt F) → (⟨S8192, .f32⟩ : BufTy).Contents (Elt F)),
    StableHlo.binary main_v88 main_v88 main_v125 (mulf : (⟨S8192x64, .f32⟩ : BufTy).Contents (Elt F) → (⟨S8192x64, .f32⟩ : BufTy).Contents (Elt F) → (⟨S8192x64, .f32⟩ : BufTy).Contents (Elt F)),
    StableHlo.nullary main_cst_23 (constant S_ .f32 0x00000000#32),
    StableHlo.binary main_v125 main_cst_23 main_v126 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_24 (constant S_ .f32 0x49000000#32),
    StableHlo.binary main_v126 main_cst_24 main_v127 (Host.divf : (⟨S_, .f32⟩ : BufTy).Contents (Elt F) → (⟨S_, .f32⟩ : BufTy).Contents (Elt F) → (⟨S_, .f32⟩ : BufTy).Contents (Elt F)),
    StableHlo.nullary main_cst_25 (constant S_ .f32 0x3A83126F#32),
    StableHlo.binary main_cst_25 main_v127 main_v128 (mulf : (⟨S_, .f32⟩ : BufTy).Contents (Elt F) → (⟨S_, .f32⟩ : BufTy).Contents (Elt F) → (⟨S_, .f32⟩ : BufTy).Contents (Elt F)),
    StableHlo.binary main_v95 main_v95 main_v129 (mulf : (⟨S8192x64, .f32⟩ : BufTy).Contents (Elt F) → (⟨S8192x64, .f32⟩ : BufTy).Contents (Elt F) → (⟨S8192x64, .f32⟩ : BufTy).Contents (Elt F)),
    StableHlo.nullary main_cst_26 (constant S_ .f32 0x00000000#32),
    StableHlo.binary main_v129 main_cst_26 main_v130 ((fun x v => Host.reduceAdd x v reducesTo_S8192x64_S_d0_1 h_S_) : (⟨S8192x64, .f32⟩ : BufTy).Contents (Elt F) → (⟨S_, .f32⟩ : BufTy).Contents (Elt F) → (⟨S_, .f32⟩ : BufTy).Contents (Elt F)),
    StableHlo.nullary main_cst_27 (constant S_ .f32 0x49000000#32),
    StableHlo.binary main_v130 main_cst_27 main_v131 (Host.divf : (⟨S_, .f32⟩ : BufTy).Contents (Elt F) → (⟨S_, .f32⟩ : BufTy).Contents (Elt F) → (⟨S_, .f32⟩ : BufTy).Contents (Elt F)),
    StableHlo.nullary main_cst_28 (constant S_ .f32 0x3A83126F#32),
    StableHlo.binary main_cst_28 main_v131 main_v132 (mulf : (⟨S_, .f32⟩ : BufTy).Contents (Elt F) → (⟨S_, .f32⟩ : BufTy).Contents (Elt F) → (⟨S_, .f32⟩ : BufTy).Contents (Elt F)),
    StableHlo.binary main_v128 main_v132 main_v133 (addf : (⟨S_, .f32⟩ : BufTy).Contents (Elt F) → (⟨S_, .f32⟩ : BufTy).Contents (Elt F) → (⟨S_, .f32⟩ : BufTy).Contents (Elt F)),
    StableHlo.binary main_v124 main_arg16 main_v134 (subf : (⟨S8192, .f32⟩ : BufTy).Contents (Elt F) → (⟨S8192, .f32⟩ : BufTy).Contents (Elt F) → (⟨S8192, .f32⟩ : BufTy).Contents (Elt F)),
    StableHlo.binary main_v134 main_v134 main_v135 (mulf : (⟨S8192, .f32⟩ : BufTy).Contents (Elt F) → (⟨S8192, .f32⟩ : BufTy).Contents (Elt F) → (⟨S8192, .f32⟩ : BufTy).Contents (Elt F)),
    StableHlo.nullary main_cst_29 (constant S_ .f32 0x00000000#32),
    StableHlo.binary main_v135 main_cst_29 main_v136 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_30 (constant S_ .f32 0x46000000#32),
    StableHlo.binary main_v136 main_cst_30 main_v137 (Host.divf : (⟨S_, .f32⟩ : BufTy).Contents (Elt F) → (⟨S_, .f32⟩ : BufTy).Contents (Elt F) → (⟨S_, .f32⟩ : BufTy).Contents (Elt F)),
    StableHlo.binary main_v137 main_v133 main_v138 (addf : (⟨S_, .f32⟩ : BufTy).Contents (Elt F) → (⟨S_, .f32⟩ : BufTy).Contents (Elt F) → (⟨S_, .f32⟩ : BufTy).Contents (Elt F)) ]

/-- The buffers stage H writes, one per operation. -/
abbrev wH : List (Ref sig .tc) :=
  [main_c_18, main_v100, main_v101, main_v102, main_c_19, main_v103, main_v104, main_v105, main_v106, main_v107, main_v108, main_v109, main_c_20, main_v110, main_v111, main_c_21, main_v112, main_v113, main_v114, main_c_22, main_v115, main_v116, main_v117, main_v118, main_v119, main_v120, main_v121, main_v122, main_v123, main_v124, main_v125, main_cst_23, main_v126, main_cst_24, main_v127, main_cst_25, main_v128, main_v129, main_cst_26, main_v130, main_cst_27, main_v131, main_cst_28, main_v132, main_v133, main_v134, main_v135, main_cst_29, main_v136, main_cst_30, main_v137, main_v138]

theorem sH_sub : (sH : List (HloOp τ sig (Elt F))).Forall fun op => op.bufs ⊆ tcRefs τ sig :=
  ⟨nullary_bufs_sub .., unary_bufs_sub .., binary_bufs_sub .., ternary_bufs_sub .., nullary_bufs_sub .., unary_bufs_sub .., unary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., binary_bufs_sub .., reshape_bufs_sub .., unary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., binary_bufs_sub .., binary_bufs_sub ..⟩

theorem sH_fresh : (sH : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem sH_writes : (sH : List (HloOp τ sig (Elt F))).Forall fun op => op.writes ⊆ (wH.map (Proc.devRef (τ := τ) .tc)).toFinset :=
  ⟨nullary_w (by decide), unary_w (by decide), binary_w (by decide), ternary_w (by decide), nullary_w (by decide), unary_w (by decide), unary_w (by decide), unary_w (by decide), unary_w (by decide), binary_w (by decide), binary_w (by decide), binary_w (by decide), nullary_w (by decide), unary_w (by decide), binary_w (by decide), nullary_w (by decide), unary_w (by decide), binary_w (by decide), ternary_w (by decide), nullary_w (by decide), unary_w (by decide), unary_w (by decide), unary_w (by decide), unary_w (by decide), binary_w (by decide), binary_w (by decide), binary_w (by decide), reshape_w (by decide), unary_w (by decide), binary_w (by decide), binary_w (by decide), nullary_w (by decide), binary_w (by decide), nullary_w (by decide), binary_w (by decide), nullary_w (by decide), binary_w (by decide), binary_w (by decide), nullary_w (by decide), binary_w (by decide), nullary_w (by decide), binary_w (by decide), nullary_w (by decide), binary_w (by decide), binary_w (by decide), binary_w (by decide), binary_w (by decide), nullary_w (by decide), binary_w (by decide), nullary_w (by decide), binary_w (by decide), binary_w (by decide)⟩

/-- A buffer stage H does not write keeps its contents. -/
theorem sH_keep (W : Valuation τ sig (Elt F)) {r : Ref sig .tc} (hr : r ∉ wH) :
    after sH W (no_index (Proc.devRef .tc r)) = W (Proc.devRef .tc r) :=
  after_of_writes_sub sH W sH_writes hr

/-! ## The three printed windows and @main -/

/-- The operations of each printed window, and of @main. -/
abbrev win0 : List (HloOp τ sig (Elt F)) := sA ++ (sB ++ sC)
abbrev win1 : List (HloOp τ sig (Elt F)) := sD ++ (sE ++ (sF ++ sG))
abbrev ops : List (HloOp τ sig (Elt F)) := win0 ++ (win1 ++ sH)

/-- Each window is the straight line of its operations: the outlined functions unfold at their calls (a typed
    reference to a literal buffer is that buffer, the transport of contents along its type the identity), and
    sequencing re-associates by computation. -/
theorem main_part0_eq (c : Dev nD) : main_part0 (F := F) c = seq win0 := by chain_rfl
theorem main_part1_eq (c : Dev nD) : main_part1 (F := F) c = seq win1 := by chain_rfl
theorem main_part2_eq (c : Dev nD) : main_part2 (F := F) c = seq sH := by chain_rfl

theorem main_eq (c : Dev nD) : main (F := F) c = seq ops := by
  show (main_part0 (F := F) c >>= fun _ => main_part1 (F := F) c >>= fun _ => main_part2 (F := F) c) = _
  rw [main_part0_eq, main_part1_eq, main_part2_eq]
  show _ = seq (win0 ++ (win1 ++ sH))
  rw [seq_append win0 (win1 ++ sH), seq_append win1 sH]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append sA_sub (forall_append sB_sub sC_sub))
    (forall_append (forall_append sD_sub (forall_append sE_sub (forall_append sF_sub sG_sub))) sH_sub)

theorem ops_fresh : (ops : List (HloOp τ sig (Elt F))).Forall fun op => op.fresh = ∅ :=
  forall_append (forall_append sA_fresh (forall_append sB_fresh sC_fresh))
    (forall_append (forall_append sD_fresh (forall_append sE_fresh (forall_append sF_fresh sG_fresh))) sH_fresh)

/-- The fold of @main's operations is the fold of the eight stages in order. -/
theorem after_ops (V : Valuation τ sig (Elt F)) :
    after ops V = after sH (after sG (after sF (after sE (after sD (after sC (after sB (after sA V))))))) := by
  simp only [ops, win0, win1, after_app]

/-- From any memory with zero counters every weakly fair execution of @main terminates, and every buffer ends at
    the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.RefValue

end
-- ==== Proof.RefRunB.lean ====
/-
  What each stage of the reference's @main leaves in the buffers later stages read, as the specification's
  functions of what the stage found: the fold over the stage's operations, read at the result buffer, is the
  composition of array operations the specification's function is defined as.
-/
import proofs.«160102_j20727512170682_1_alg».proof.Proof.RefRunA
import proofs.«160102_j20727512170682_1_alg».proof.Proof.Spec

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

/-- Stage A leaves the first hop's user-side result. -/
theorem sA_v16 (W : Valuation τ sig (Elt Ideal)) :
    after sA W (no_index (Proc.devRef .tc main_v16))
      = Cert.Spec.residU (Cert.Spec.spmmU (W (Proc.devRef .tc main_arg4)) (W (Proc.devRef .tc main_arg5)) (W (Proc.devRef .tc main_arg6)) (W (Proc.devRef .tc main_arg1))) (W (Proc.devRef .tc main_arg0)) (W (Proc.devRef .tc main_arg2)) := by
  after_results_simp
  simp only [Cert.Spec.residU, Cert.Spec.spmmU, Cert.Spec.valsRows, Cert.Spec.wrapE]

/-- Stage B leaves the first hop's item-side result. -/
theorem sB_v33 (W : Valuation τ sig (Elt Ideal)) :
    after sB W (no_index (Proc.devRef .tc main_v33))
      = Cert.Spec.residI (Cert.Spec.spmmI (W (Proc.devRef .tc main_arg4)) (W (Proc.devRef .tc main_arg5)) (W (Proc.devRef .tc main_arg6)) (W (Proc.devRef .tc main_arg0))) (W (Proc.devRef .tc main_arg1)) (W (Proc.devRef .tc main_arg3)) := by
  after_results_simp
  simp only [Cert.Spec.residI, Cert.Spec.spmmI, Cert.Spec.valsRows, Cert.Spec.wrapE]

/-- Stage C leaves the second hop's user-side result, from the two first-hop results it finds. -/
theorem sC_v50 (W : Valuation τ sig (Elt Ideal)) :
    after sC W (no_index (Proc.devRef .tc main_v50))
      = Cert.Spec.residU (Cert.Spec.spmmU (W (Proc.devRef .tc main_arg4)) (W (Proc.devRef .tc main_arg5)) (W (Proc.devRef .tc main_arg6)) (W (Proc.devRef .tc main_v33))) (W (Proc.devRef .tc main_v16)) (W (Proc.devRef .tc main_arg2)) := by
  after_results_simp
  simp only [Cert.Spec.residU, Cert.Spec.spmmU, Cert.Spec.valsRows, Cert.Spec.wrapE]

/-- Stage D leaves the second hop's item-side result. -/
theorem sD_v67 (W : Valuation τ sig (Elt Ideal)) :
    after sD W (no_index (Proc.devRef .tc main_v67))
      = Cert.Spec.residI (Cert.Spec.spmmI (W (Proc.devRef .tc main_arg4)) (W (Proc.devRef .tc main_arg5)) (W (Proc.devRef .tc main_arg6)) (W (Proc.devRef .tc main_v16))) (W (Proc.devRef .tc main_v33)) (W (Proc.devRef .tc main_arg3)) := by
  after_results_simp
  simp only [Cert.Spec.residI, Cert.Spec.spmmI, Cert.Spec.valsRows, Cert.Spec.wrapE]

/-- Stage E leaves the user-side sum. -/
theorem sE_v69 (W : Valuation τ sig (Elt Ideal)) :
    after sE W (no_index (Proc.devRef .tc main_v69))
      = Cert.Spec.sumU (W (Proc.devRef .tc main_arg0)) (W (Proc.devRef .tc main_v16)) (W (Proc.devRef .tc main_v50)) := by
  after_results_simp
  simp only [Cert.Spec.sumU]

/-- Stage E leaves the item-side sum. -/
theorem sE_v71 (W : Valuation τ sig (Elt Ideal)) :
    after sE W (no_index (Proc.devRef .tc main_v71))
      = Cert.Spec.sumI (W (Proc.devRef .tc main_arg1)) (W (Proc.devRef .tc main_v33)) (W (Proc.devRef .tc main_v67)) := by
  after_results_simp
  simp only [Cert.Spec.sumI]

/-- Stage F leaves the two-layer perceptron of the user-side sum. -/
theorem sF_v81 (W : Valuation τ sig (Elt Ideal)) :
    after sF W (no_index (Proc.devRef .tc main_v81))
      = Cert.Spec.mlp (W (Proc.devRef .tc main_v69)) (W (Proc.devRef .tc main_arg7)) (W (Proc.devRef .tc main_arg8)) (W (Proc.devRef .tc main_arg9)) (W (Proc.devRef .tc main_arg10)) := by
  after_results_simp
  simp only [Cert.Spec.mlp, Cert.Spec.leaky64, Cert.Spec.leaky128]

/-- Stages G and H leave the total loss, from the two tables they find. -/
theorem sGH_v138 (W : Valuation τ sig (Elt Ideal)) :
    after sH (after sG W) (no_index (Proc.devRef .tc main_v138))
      = (Cert.Spec.tail (W (Proc.devRef .tc main_v81)) (W (Proc.devRef .tc main_v71)) (W (Proc.devRef .tc main_arg11)) (W (Proc.devRef .tc main_arg12))
          (fun i => shapeCast S_ (W (Proc.devRef .tc main_arg13)) shapeCasts_S1_S_ i) (W (Proc.devRef .tc main_arg14)) (W (Proc.devRef .tc main_arg15)) (W (Proc.devRef .tc main_arg16))).1 := by
  after_results_simp
  simp only [Cert.Spec.tail, Cert.Spec.mse, Cert.Spec.pred, Cert.Spec.penalty, Cert.Spec.biasIdx, Cert.Spec.rowIdx, Cert.Spec.wrapB, cat2]
  rfl

/-- Stages G and H leave the mean squared error. -/
theorem sGH_v137 (W : Valuation τ sig (Elt Ideal)) :
    after sH (after sG W) (no_index (Proc.devRef .tc main_v137))
      = (Cert.Spec.tail (W (Proc.devRef .tc main_v81)) (W (Proc.devRef .tc main_v71)) (W (Proc.devRef .tc main_arg11)) (W (Proc.devRef .tc main_arg12))
          (fun i => shapeCast S_ (W (Proc.devRef .tc main_arg13)) shapeCasts_S1_S_ i) (W (Proc.devRef .tc main_arg14)) (W (Proc.devRef .tc main_arg15)) (W (Proc.devRef .tc main_arg16))).2 := by
  after_results_simp
  simp only [Cert.Spec.tail, Cert.Spec.mse, Cert.Spec.pred, Cert.Spec.penalty, Cert.Spec.biasIdx, Cert.Spec.rowIdx, Cert.Spec.wrapB, cat2]
  rfl

end Cert.ReferenceIdeal.RefValue

end
-- ==== Proof.RefRun.lean ====
/-
  The reference's run and value: from any memory with zero counters every weakly fair execution of the reference's
  @main terminates; its two result buffers end at the specification's function of the argument arrays, and the
  argument arrays end unchanged (no operation writes one).
-/
import proofs.«160102_j20727512170682_1_alg».proof.Proof.RefRunB

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.StableHlo

/-- After all of @main the first result buffer holds the specification's total loss of the arguments found: the
    last two stages leave the specification's tail of the two tables they find, and walking back stage by stage each
    table is the specification's function of the earlier stages' results and of the arguments, which no stage writes. -/
theorem ops_v138 (V : Valuation τ sig (Elt Ideal)) :
    after ops V (Proc.devRef .tc main_v138)
      = (Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))).1 := by
  rw [after_ops, sGH_v138]
  simp (disch := decide) only [sF_v81, sF_keep, sE_v69, sE_v71, sE_keep, sD_v67, sD_keep, sC_v50, sC_keep, sB_v33, sB_keep, sA_v16, sA_keep]
  rfl

/-- After all of @main the second result buffer holds the specification's mean squared error. -/
theorem ops_v137 (V : Valuation τ sig (Elt Ideal)) :
    after ops V (Proc.devRef .tc main_v137)
      = (Cert.Spec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))).2 := by
  rw [after_ops, sGH_v137]
  simp (disch := decide) only [sF_v81, sF_keep, sE_v69, sE_v71, sE_keep, sD_v67, sD_keep, sC_v50, sC_keep, sB_v33, sB_keep, sA_v16, sA_keep]
  rfl

/-- A buffer no stage writes holds after all of @main what it held before. -/
theorem ops_keep (V : Valuation τ sig (Elt Ideal)) {r : Ref sig .tc} (hA : r ∉ wA) (hB : r ∉ wB) (hC : r ∉ wC) (hD : r ∉ wD)
    (hE : r ∉ wE) (hF : r ∉ wF) (hG : r ∉ wG) (hH : r ∉ wH) :
    after ops V (Proc.devRef .tc r) = V (Proc.devRef .tc r) := by
  rw [after_ops, sH_keep _ hH, sG_keep _ hG, sF_keep _ hF, sE_keep _ hE, sD_keep _ hD, sC_keep _ hC, sB_keep _ hB, sA_keep _ hA]

/-- The reference's run: termination without fault, the two results at the specification's values, the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v138) = (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))).1
      ∧ r.2.mem ((c.tc : Thread nD τ).loc main_v137) = (Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v138).trans (ops_v138 _), (h c main_v137).trans (ops_v137 _),
      (h c main_arg0).trans (ops_keep _ (by decide) (by decide) (by decide) (by decide) (by decide) (by decide) (by decide) (by decide)),
      (h c main_arg1).trans (ops_keep _ (by decide) (by decide) (by decide) (by decide) (by decide) (by decide) (by decide) (by decide)),
      (h c main_arg2).trans (ops_keep _ (by decide) (by decide) (by decide) (by decide) (by decide) (by decide) (by decide) (by decide)),
      (h c main_arg3).trans (ops_keep _ (by decide) (by decide) (by decide) (by decide) (by decide) (by decide) (by decide) (by decide)),
      (h c main_arg4).trans (ops_keep _ (by decide) (by decide) (by decide) (by decide) (by decide) (by decide) (by decide) (by decide)),
      (h c main_arg5).trans (ops_keep _ (by decide) (by decide) (by decide) (by decide) (by decide) (by decide) (by decide) (by decide)),
      (h c main_arg6).trans (ops_keep _ (by decide) (by decide) (by decide) (by decide) (by decide) (by decide) (by decide) (by decide)),
      (h c main_arg7).trans (ops_keep _ (by decide) (by decide) (by decide) (by decide) (by decide) (by decide) (by decide) (by decide)),
      (h c main_arg8).trans (ops_keep _ (by decide) (by decide) (by decide) (by decide) (by decide) (by decide) (by decide) (by decide)),
      (h c main_arg9).trans (ops_keep _ (by decide) (by decide) (by decide) (by decide) (by decide) (by decide) (by decide) (by decide)),
      (h c main_arg10).trans (ops_keep _ (by decide) (by decide) (by decide) (by decide) (by decide) (by decide) (by decide) (by decide)),
      (h c main_arg11).trans (ops_keep _ (by decide) (by decide) (by decide) (by decide) (by decide) (by decide) (by decide) (by decide)),
      (h c main_arg12).trans (ops_keep _ (by decide) (by decide) (by decide) (by decide) (by decide) (by decide) (by decide) (by decide)),
      (h c main_arg13).trans (ops_keep _ (by decide) (by decide) (by decide) (by decide) (by decide) (by decide) (by decide) (by decide)),
      (h c main_arg14).trans (ops_keep _ (by decide) (by decide) (by decide) (by decide) (by decide) (by decide) (by decide) (by decide)),
      (h c main_arg15).trans (ops_keep _ (by decide) (by decide) (by decide) (by decide) (by decide) (by decide) (by decide) (by decide)),
      (h c main_arg16).trans (ops_keep _ (by decide) (by decide) (by decide) (by decide) (by decide) (by decide) (by decide) (by decide))⟩)
    (run_after m ρ)

end Cert.ReferenceIdeal.RefValue

end
-- ==== Proof.lean ====
/-
  The certificate of a two-hop graph convolution with a perceptron head and a rating loss.

  The kernel's program runs the dense parts as six Pallas regions — four `max (spmm + embed · degree, 0)` layers, a
  three-way sum, and a three-way sum fused with a two-layer perceptron — between host stretches that form the sparse
  products (gather, multiply, scatter-add) and the final loss; the reference computes the same arrays with whole-array
  host operations.  At the ideal instance both are one function of the seventeen argument arrays, `Cert.Spec.out`:
    * each region's output array is, block by block, the specification's whole-array function of its input arrays
      (a pointwise map for the first five regions; for the perceptron, per row a sum over the contracted axis, which
      the blocked matrix product and the whole one share), `Proof/Region0.lean … Region5.lean`;
    * the host stretches of the kernel's program are, operation for operation, the specification's sparse products and
      loss, and every array is followed from the segment that wrote it to the segment that reads it, `Proof/KChain.lean`;
    * the reference's straight line of operations unfolds to the same function, `Proof/RefRun.lean`.
  The three frames: the kernel's and the idealized kernel's are the generated frame certificates; the reference's is
  its run with the results dropped.  The idealization rewrote nothing, so there is nothing to preserve.
-/
import proofs.«160102_j20727512170682_1_alg».proof.Defs
import proofs.«160102_j20727512170682_1_alg».proof.Proof.Gen.Kernel
import proofs.«160102_j20727512170682_1_alg».proof.Proof.Gen.Kernel.Frame
import proofs.«160102_j20727512170682_1_alg».proof.Proof.Gen.KernelIdeal
import proofs.«160102_j20727512170682_1_alg».proof.Proof.Gen.KernelIdeal.Frame
import proofs.«160102_j20727512170682_1_alg».proof.Proof.Gen.ReferenceIdeal
import proofs.«160102_j20727512170682_1_alg».proof.Proof.Gen.Pre_finite_inputs
import proofs.«160102_j20727512170682_1_alg».proof.Proof.KRun
import proofs.«160102_j20727512170682_1_alg».proof.Proof.KChain
import proofs.«160102_j20727512170682_1_alg».proof.Proof.Region0
import proofs.«160102_j20727512170682_1_alg».proof.Proof.Region1
import proofs.«160102_j20727512170682_1_alg».proof.Proof.Region2
import proofs.«160102_j20727512170682_1_alg».proof.Proof.Region3
import proofs.«160102_j20727512170682_1_alg».proof.Proof.Region4
import proofs.«160102_j20727512170682_1_alg».proof.Proof.Region5
import proofs.«160102_j20727512170682_1_alg».proof.Proof.RefRun
import Idealize.ShloMosaic.Adequacy
import Idealize.ShloMosaic.Init

noncomputable section

namespace Cert.Proof

open Idealize.ShloMosaic Idealize.SL.Sem

/-- The kernel's program terminates without a fault and leaves its arguments as launched: the generated frame. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.run m ρ)

/-- The idealization rewrote no operation. -/
theorem preserves : Cert.preserves_Kernel_KernelIdeal := trivial

/-- Both idealized programs end with the specification's `(loss, loss2)` of the argument arrays, which agree. -/
theorem algebraic : Cert.algebraic_KernelIdeal_ReferenceIdeal := by
  intro m ρ m' ρ' _ hagree
  refine ⟨fun c => (Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1, fun c => (Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2, ?_, ?_⟩
  · refine (θ_run Cert.KernelIdeal.defs _ _).mono (fun r h c => ?_) (Cert.KernelIdeal.KValue.run_named (F := Ideal) m ρ)
    have hv := Cert.KernelIdeal.KValue.results m ρ c Cert.KernelIdeal.RegionValue.final0 Cert.KernelIdeal.RegionValue.final1
      Cert.KernelIdeal.RegionValue.final2 Cert.KernelIdeal.RegionValue.final3 Cert.KernelIdeal.RegionValue.final4
      Cert.KernelIdeal.RegionValue.final5
    exact ⟨(h c _ (Cert.KernelIdeal.Gen.mem_uc Cert.KernelIdeal.main_v114 (by decide))).trans hv.1,
      (h c _ (Cert.KernelIdeal.Gen.mem_uc Cert.KernelIdeal.main_v113 (by decide))).trans hv.2,
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c),
      (h c _ (Cert.KernelIdeal.Gen.mem_uc Cert.KernelIdeal.main_arg12 (by decide))).trans (Cert.KernelIdeal.Gen.W9_main_arg12 m ρ c),
      (h c _ (Cert.KernelIdeal.Gen.mem_uc Cert.KernelIdeal.main_arg13 (by decide))).trans (Cert.KernelIdeal.Gen.W9_main_arg13 m ρ c),
      (h c _ (Cert.KernelIdeal.Gen.mem_uc Cert.KernelIdeal.main_arg14 (by decide))).trans (Cert.KernelIdeal.Gen.W9_main_arg14 m ρ c),
      (h c _ (Cert.KernelIdeal.Gen.mem_uc Cert.KernelIdeal.main_arg15 (by decide))).trans (Cert.KernelIdeal.Gen.W9_main_arg15 m ρ c),
      (h c _ (Cert.KernelIdeal.Gen.mem_uc Cert.KernelIdeal.main_arg16 (by decide))).trans (Cert.KernelIdeal.Gen.W9_main_arg16 m ρ c)⟩
  · refine (θ_run Cert.ReferenceIdeal.defs _ _).mono (fun r h c => ?_) (Cert.ReferenceIdeal.RefValue.run m' ρ')
    obtain ⟨h1, h2, hrest⟩ := h c
    refine ⟨h1.trans ?_, h2.trans ?_, hrest⟩
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
